-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v159)) (v1 : (c : Dev Cert.KernelIdeal.nD) → Buf (Elt Ideal) ((c.tc : Thread Cert.KernelIdeal.nD Cert.KernelIdeal.τ).loc Cert.KernelIdeal.main_v160)) (v2 : (c : Dev Cert.KernelIdeal.nD) → Buf (Elt Ideal) ((c.tc : Thread Cert.KernelIdeal.nD Cert.KernelIdeal.τ).loc Cert.KernelIdeal.main_v161)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v159) = v0 c
          ∧ r.2.mem ((c.tc : Thread Cert.KernelIdeal.nD Cert.KernelIdeal.τ).loc Cert.KernelIdeal.main_v160) = v1 c
          ∧ r.2.mem ((c.tc : Thread Cert.KernelIdeal.nD Cert.KernelIdeal.τ).loc Cert.KernelIdeal.main_v161) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_v75) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x1 : Shape := ⟨2, ![2000000, 1]⟩
abbrev S3x50 : Shape := ⟨2, ![3, 50]⟩
abbrev S50 : Shape := ⟨1, ![50]⟩
abbrev S7x50x50 : Shape := ⟨3, ![7, 50, 50]⟩
abbrev S7x50 : Shape := ⟨2, ![7, 50]⟩
abbrev S50x3 : Shape := ⟨2, ![50, 3]⟩
abbrev S3 : Shape := ⟨1, ![3]⟩
abbrev S_ : Shape := ⟨0, ![]⟩

class Facts : Prop where
  bcast_S_S2000000x1 : S_.BroadcastsInDim S2000000x1 (![] : Fin 0 → Fin S2000000x1.rank)
  reducesTo_S2000000x1_S_d0_1 : S2000000x1.ReducesTo [0, 1] S_
  h_S_ : 0 < S_.numel
  bcast_S_S3x50 : S_.BroadcastsInDim S3x50 (![] : Fin 0 → Fin S3x50.rank)
  reducesTo_S3x50_S_d0_1 : S3x50.ReducesTo [0, 1] S_
  bcast_S_S50 : S_.BroadcastsInDim S50 (![] : Fin 0 → Fin S50.rank)
  reducesTo_S50_S_d0 : S50.ReducesTo [0] S_
  bcast_S_S7x50x50 : S_.BroadcastsInDim S7x50x50 (![] : Fin 0 → Fin S7x50x50.rank)
  reducesTo_S7x50x50_S_d0_1_2 : S7x50x50.ReducesTo [0, 1, 2] S_
  bcast_S_S7x50 : S_.BroadcastsInDim S7x50 (![] : Fin 0 → Fin S7x50.rank)
  reducesTo_S7x50_S_d0_1 : S7x50.ReducesTo [0, 1] S_
  bcast_S_S50x3 : S_.BroadcastsInDim S50x3 (![] : Fin 0 → Fin S50x3.rank)
  reducesTo_S50x3_S_d0_1 : S50x3.ReducesTo [0, 1] S_
  bcast_S_S3 : S_.BroadcastsInDim S3 (![] : Fin 0 → Fin S3.rank)
  reducesTo_S3_S_d0 : S3.ReducesTo [0] S_

variable [Facts]

def fn_part2 {F : FTy → Type} [FloatOps F] (main_arg7 : FVec F S50x3 .f32) (main_arg8 : FVec F S3 .f32) (main_v33 : IVec S_ 1) : IVec S_ 1 :=
  let main_v34 : FVec F S50x3 .f32 := Host.absf main_arg7
  let main_cst_12 : FVec F S_ .f32 := constant S_ .f32 0x7F800000#32
  let main_v35 : FVec F S50x3 .f32 := broadcastInDim S50x3 ![] bcast_S_S50x3 main_cst_12
  let main_v36 : IVec S50x3 1 := cmpf .olt main_v34 main_v35
  let main_c_13 : IVec S_ 1 := constantI S_ 1 1#1
  let main_v37 : IVec S_ 1 := (fun x v => Host.reduce IntOp.andi x v reducesTo_S50x3_S_d0_1 h_S_) main_v36 main_c_13
  let main_v38 : IVec S_ 1 := andi main_v33 main_v37
  let main_v39 : FVec F S3 .f32 := Host.absf main_arg8
  let main_cst_14 : FVec F S_ .f32 := constant S_ .f32 0x7F800000#32
  let main_v40 : FVec F S3 .f32 := broadcastInDim S3 ![] bcast_S_S3 main_cst_14
  let main_v41 : IVec S3 1 := cmpf .olt main_v39 main_v40
  let main_c_15 : IVec S_ 1 := constantI S_ 1 1#1
  let main_v42 : IVec S_ 1 := (fun x v => Host.reduce IntOp.andi x v reducesTo_S3_S_d0 h_S_) main_v41 main_c_15
  let main_v43 : IVec S_ 1 := andi main_v38 main_v42
  main_v43

def fn_part1 {F : FTy → Type} [FloatOps F] (main_arg4 : FVec F S50 .f32) (main_arg5 : FVec F S7x50x50 .f32) (main_arg6 : FVec F S7x50 .f32) (main_arg7 : FVec F S50x3 .f32) (main_arg8 : FVec F S3 .f32) (main_v13 : IVec S_ 1) (main_v16 : IVec S3x50 1) : IVec S_ 1 :=
  let main_c_5 : IVec S_ 1 := constantI S_ 1 1#1
  let main_v17 : IVec S_ 1 := (fun x v => Host.reduce IntOp.andi x v reducesTo_S3x50_S_d0_1 h_S_) main_v16 main_c_5
  let main_v18 : IVec S_ 1 := andi main_v13 main_v17
  let main_v19 : FVec F S50 .f32 := Host.absf main_arg4
  let main_cst_6 : FVec F S_ .f32 := constant S_ .f32 0x7F800000#32
  let main_v20 : FVec F S50 .f32 := broadcastInDim S50 ![] bcast_S_S50 main_cst_6
  let main_v21 : IVec S50 1 := cmpf .olt main_v19 main_v20
  let main_c_7 : IVec S_ 1 := constantI S_ 1 1#1
  let main_v22 : IVec S_ 1 := (fun x v => Host.reduce IntOp.andi x v reducesTo_S50_S_d0 h_S_) main_v21 main_c_7
  let main_v23 : IVec S_ 1 := andi main_v18 main_v22
  let main_v24 : FVec F S7x50x50 .f32 := Host.absf main_arg5
  let main_cst_8 : FVec F S_ .f32 := constant S_ .f32 0x7F800000#32
  let main_v25 : FVec F S7x50x50 .f32 := broadcastInDim S7x50x50 ![] bcast_S_S7x50x50 main_cst_8
  let main_v26 : IVec S7x50x50 1 := cmpf .olt main_v24 main_v25
  let main_c_9 : IVec S_ 1 := constantI S_ 1 1#1
  let main_v27 : IVec S_ 1 := (fun x v => Host.reduce IntOp.andi x v reducesTo_S7x50x50_S_d0_1_2 h_S_) main_v26 main_c_9
  let main_v28 : IVec S_ 1 := andi main_v23 main_v27
  let main_v29 : FVec F S7x50 .f32 := Host.absf main_arg6
  let main_cst_10 : FVec F S_ .f32 := constant S_ .f32 0x7F800000#32
  let main_v30 : FVec F S7x50 .f32 := broadcastInDim S7x50 ![] bcast_S_S7x50 main_cst_10
  let main_v31 : IVec S7x50 1 := cmpf .olt main_v29 main_v30
  let main_c_11 : IVec S_ 1 := constantI S_ 1 1#1
  let main_v32 : IVec S_ 1 := (fun x v => Host.reduce IntOp.andi x v reducesTo_S7x50_S_d0_1 h_S_) main_v31 main_c_11
  let main_v33 : IVec S_ 1 := andi main_v28 main_v32
  fn_part2 (F := F) main_arg7 main_arg8 main_v33

def fn {F : FTy → Type} [FloatOps F] (main_arg0 : FVec F S2000000x1 .f32) (main_arg1 : FVec F S2000000x1 .f32) (main_arg2 : FVec F S2000000x1 .f32) (main_arg3 : FVec F S3x50 .f32) (main_arg4 : FVec F S50 .f32) (main_arg5 : FVec F S7x50x50 .f32) (main_arg6 : FVec F S7x50 .f32) (main_arg7 : FVec F S50x3 .f32) (main_arg8 : FVec F S3 .f32) : IVec S_ 1 :=
  let main_v0 : FVec F S2000000x1 .f32 := Host.absf main_arg0
  let main_cst : FVec F S_ .f32 := constant S_ .f32 0x7F800000#32
  let main_v1 : FVec F S2000000x1 .f32 := broadcastInDim S2000000x1 ![] bcast_S_S2000000x1 main_cst
  let main_v2 : IVec S2000000x1 1 := cmpf .olt main_v0 main_v1
  let main_c : IVec S_ 1 := constantI S_ 1 1#1
  let main_v3 : IVec S_ 1 := (fun x v => Host.reduce IntOp.andi x v reducesTo_S2000000x1_S_d0_1 h_S_) main_v2 main_c
  let main_v4 : FVec F S2000000x1 .f32 := Host.absf main_arg1
  let main_cst_0 : FVec F S_ .f32 := constant S_ .f32 0x7F800000#32
  let main_v5 : FVec F S2000000x1 .f32 := broadcastInDim S2000000x1 ![] bcast_S_S2000000x1 main_cst_0
  let main_v6 : IVec S2000000x1 1 := cmpf .olt main_v4 main_v5
  let main_c_1 : IVec S_ 1 := constantI S_ 1 1#1
  let main_v7 : IVec S_ 1 := (fun x v => Host.reduce IntOp.andi x v reducesTo_S2000000x1_S_d0_1 h_S_) main_v6 main_c_1
  let main_v8 : IVec S_ 1 := andi main_v3 main_v7
  let main_v9 : FVec F S2000000x1 .f32 := Host.absf main_arg2
  let main_cst_2 : FVec F S_ .f32 := constant S_ .f32 0x7F800000#32
  let main_v10 : FVec F S2000000x1 .f32 := broadcastInDim S2000000x1 ![] bcast_S_S2000000x1 main_cst_2
  let main_v11 : IVec S2000000x1 1 := cmpf .olt main_v9 main_v10
  let main_c_3 : IVec S_ 1 := constantI S_ 1 1#1
  let main_v12 : IVec S_ 1 := (fun x v => Host.reduce IntOp.andi x v reducesTo_S2000000x1_S_d0_1 h_S_) main_v11 main_c_3
  let main_v13 : IVec S_ 1 := andi main_v8 main_v12
  let main_v14 : FVec F S3x50 .f32 := Host.absf main_arg3
  let main_cst_4 : FVec F S_ .f32 := constant S_ .f32 0x7F800000#32
  let main_v15 : FVec F S3x50 .f32 := broadcastInDim S3x50 ![] bcast_S_S3x50 main_cst_4
  let main_v16 : IVec S3x50 1 := cmpf .olt main_v14 main_v15
  fn_part1 (F := F) main_arg4 main_arg5 main_arg6 main_arg7 main_arg8 main_v13 main_v16
-- ==== Kernel.lean ====
abbrev S2000000x1 : Shape := ⟨2, ![2000000, 1]⟩
abbrev S3x50 : Shape := ⟨2, ![3, 50]⟩
abbrev S50 : Shape := ⟨1, ![50]⟩
abbrev S7x50x50 : Shape := ⟨3, ![7, 50, 50]⟩
abbrev S7x50 : Shape := ⟨2, ![7, 50]⟩
abbrev S50x3 : Shape := ⟨2, ![50, 3]⟩
abbrev S3 : Shape := ⟨1, ![3]⟩
abbrev S5x5 : Shape := ⟨2, ![5, 5]⟩
abbrev S_ : Shape := ⟨0, ![]⟩
abbrev S5x1x5x1 : Shape := ⟨4, ![5, 1, 5, 1]⟩
abbrev S1x50x1x3 : Shape := ⟨4, ![1, 50, 1, 3]⟩
abbrev S5x50x5x3 : Shape := ⟨4, ![5, 50, 5, 3]⟩
abbrev S250x15 : Shape := ⟨2, ![250, 15]⟩
abbrev S1x50 : Shape := ⟨2, ![1, 50]⟩
abbrev S5x50 : Shape := ⟨2, ![5, 50]⟩
abbrev S250 : Shape := ⟨1, ![250]⟩
abbrev S250x1 : Shape := ⟨2, ![250, 1]⟩
abbrev S1x50x50 : Shape := ⟨3, ![1, 50, 50]⟩
abbrev S50x50 : Shape := ⟨2, ![50, 50]⟩
abbrev S1x50x1x50 : Shape := ⟨4, ![1, 50, 1, 50]⟩
abbrev S5x50x5x50 : Shape := ⟨4, ![5, 50, 5, 50]⟩
abbrev S250x250 : Shape := ⟨2, ![250, 250]⟩
abbrev S1x250x250 : Shape := ⟨3, ![1, 250, 250]⟩
abbrev S7x250x250 : Shape := ⟨3, ![7, 250, 250]⟩
abbrev S1x250x1 : Shape := ⟨3, ![1, 250, 1]⟩
abbrev S7x250x1 : Shape := ⟨3, ![7, 250, 1]⟩
abbrev S1x3x1x50 : Shape := ⟨4, ![1, 3, 1, 50]⟩
abbrev S5x3x5x50 : Shape := ⟨4, ![5, 3, 5, 50]⟩
abbrev S15x250 : Shape := ⟨2, ![15, 250]⟩
abbrev S1x3 : Shape := ⟨2, ![1, 3]⟩
abbrev S5x3 : Shape := ⟨2, ![5, 3]⟩
abbrev S15 : Shape := ⟨1, ![15]⟩
abbrev S15x1 : Shape := ⟨2, ![15, 1]⟩
abbrev S1x2000000 : Shape := ⟨2, ![1, 2000000]⟩
abbrev S1x16000 : Shape := ⟨2, ![1, 16000]⟩
abbrev S1x3200 : Shape := ⟨2, ![1, 3200]⟩
abbrev S3x3200 : Shape := ⟨2, ![3, 3200]⟩
abbrev S15x3200 : Shape := ⟨2, ![15, 3200]⟩
abbrev S250x3200 : Shape := ⟨2, ![250, 3200]⟩

abbrev nBuf : Space → Nat
  | .hbm => 227
  | .vmem => 18
  | .smem => 0
  | _ => 0

abbrev hbmTy0_0 (i : Nat) : BufTy := match i % 128 with
  | 0 => ⟨S2000000x1, .f32⟩
  | 1 => ⟨S2000000x1, .f32⟩
  | 2 => ⟨S2000000x1, .f32⟩
  | 3 => ⟨S3x50, .f32⟩
  | 4 => ⟨S50, .f32⟩
  | 5 => ⟨S7x50x50, .f32⟩
  | 6 => ⟨S7x50, .f32⟩
  | 7 => ⟨S50x3, .f32⟩
  | 8 => ⟨S3, .f32⟩
  | 9 => ⟨S50x3, .f32⟩
  | 10 => ⟨S5x5, .i32⟩
  | 11 => ⟨S5x5, .i32⟩
  | 12 => ⟨S_, .i32⟩
  | 13 => ⟨S5x5, .i32⟩
  | 14 => ⟨S5x5, .i32⟩
  | 15 => ⟨S5x5, .i1⟩
  | 16 => ⟨S5x5, .f32⟩
  | 17 => ⟨S5x1x5x1, .f32⟩
  | 18 => ⟨S1x50x1x3, .f32⟩
  | 19 => ⟨S5x50x5x3, .f32⟩
  | 20 => ⟨S5x50x5x3, .f32⟩
  | 21 => ⟨S5x50x5x3, .f32⟩
  | 22 => ⟨S250x15, .f32⟩
  | 23 => ⟨S250x15, .bf16⟩
  | 24 => ⟨S1x50, .f32⟩
  | 25 => ⟨S5x50, .f32⟩
  | 26 => ⟨S250, .f32⟩
  | 27 => ⟨S250x1, .f32⟩
  | 28 => ⟨S1x50x50, .f32⟩
  | 29 => ⟨S50x50, .f32⟩
  | 30 => ⟨S50x50, .f32⟩
  | 31 => ⟨S5x5, .i32⟩
  | 32 => ⟨S5x5, .i32⟩
  | 33 => ⟨S_, .i32⟩
  | 34 => ⟨S5x5, .i32⟩
  | 35 => ⟨S5x5, .i32⟩
  | 36 => ⟨S5x5, .i1⟩
  | 37 => ⟨S5x5, .f32⟩
  | 38 => ⟨S5x1x5x1, .f32⟩
  | 39 => ⟨S1x50x1x50, .f32⟩
  | 40 => ⟨S5x50x5x50, .f32⟩
  | 41 => ⟨S5x50x5x50, .f32⟩
  | 42 => ⟨S5x50x5x50, .f32⟩
  | 43 => ⟨S250x250, .f32⟩
  | 44 => ⟨S1x50x50, .f32⟩
  | 45 => ⟨S50x50, .f32⟩
  | 46 => ⟨S50x50, .f32⟩
  | 47 => ⟨S5x5, .i32⟩
  | 48 => ⟨S5x5, .i32⟩
  | 49 => ⟨S_, .i32⟩
  | 50 => ⟨S5x5, .i32⟩
  | 51 => ⟨S5x5, .i32⟩
  | 52 => ⟨S5x5, .i1⟩
  | 53 => ⟨S5x5, .f32⟩
  | 54 => ⟨S5x1x5x1, .f32⟩
  | 55 => ⟨S1x50x1x50, .f32⟩
  | 56 => ⟨S5x50x5x50, .f32⟩
  | 57 => ⟨S5x50x5x50, .f32⟩
  | 58 => ⟨S5x50x5x50, .f32⟩
  | 59 => ⟨S250x250, .f32⟩
  | 60 => ⟨S1x50x50, .f32⟩
  | 61 => ⟨S50x50, .f32⟩
  | 62 => ⟨S50x50, .f32⟩
  | 63 => ⟨S5x5, .i32⟩
  | 64 => ⟨S5x5, .i32⟩
  | 65 => ⟨S_, .i32⟩
  | 66 => ⟨S5x5, .i32⟩
  | 67 => ⟨S5x5, .i32⟩
  | 68 => ⟨S5x5, .i1⟩
  | 69 => ⟨S5x5, .f32⟩
  | 70 => ⟨S5x1x5x1, .f32⟩
  | 71 => ⟨S1x50x1x50, .f32⟩
  | 72 => ⟨S5x50x5x50, .f32⟩
  | 73 => ⟨S5x50x5x50, .f32⟩
  | 74 => ⟨S5x50x5x50, .f32⟩
  | 75 => ⟨S250x250, .f32⟩
  | 76 => ⟨S1x50x50, .f32⟩
  | 77 => ⟨S50x50, .f32⟩
  | 78 => ⟨S50x50, .f32⟩
  | 79 => ⟨S5x5, .i32⟩
  | 80 => ⟨S5x5, .i32⟩
  | 81 => ⟨S_, .i32⟩
  | 82 => ⟨S5x5, .i32⟩
  | 83 => ⟨S5x5, .i32⟩
  | 84 => ⟨S5x5, .i1⟩
  | 85 => ⟨S5x5, .f32⟩
  | 86 => ⟨S5x1x5x1, .f32⟩
  | 87 => ⟨S1x50x1x50, .f32⟩
  | 88 => ⟨S5x50x5x50, .f32⟩
  | 89 => ⟨S5x50x5x50, .f32⟩
  | 90 => ⟨S5x50x5x50, .f32⟩
  | 91 => ⟨S250x250, .f32⟩
  | 92 => ⟨S1x50x50, .f32⟩
  | 93 => ⟨S50x50, .f32⟩
  | 94 => ⟨S50x50, .f32⟩
  | 95 => ⟨S5x5, .i32⟩
  | 96 => ⟨S5x5, .i32⟩
  | 97 => ⟨S_, .i32⟩
  | 98 => ⟨S5x5, .i32⟩
  | 99 => ⟨S5x5, .i32⟩
  | 100 => ⟨S5x5, .i1⟩
  | 101 => ⟨S5x5, .f32⟩
  | 102 => ⟨S5x1x5x1, .f32⟩
  | 103 => ⟨S1x50x1x50, .f32⟩
  | 104 => ⟨S5x50x5x50, .f32⟩
  | 105 => ⟨S5x50x5x50, .f32⟩
  | 106 => ⟨S5x50x5x50, .f32⟩
  | 107 => ⟨S250x250, .f32⟩
  | 108 => ⟨S1x50x50, .f32⟩
  | 109 => ⟨S50x50, .f32⟩
  | 110 => ⟨S50x50, .f32⟩
  | 111 => ⟨S5x5, .i32⟩
  | 112 => ⟨S5x5, .i32⟩
  | 113 => ⟨S_, .i32⟩
  | 114 => ⟨S5x5, .i32⟩
  | 115 => ⟨S5x5, .i32⟩
  | 116 => ⟨S5x5, .i1⟩
  | 117 => ⟨S5x5, .f32⟩
  | 118 => ⟨S5x1x5x1, .f32⟩
  | 119 => ⟨S1x50x1x50, .f32⟩
  | 120 => ⟨S5x50x5x50, .f32⟩
  | 121 => ⟨S5x50x5x50, .f32⟩
  | 122 => ⟨S5x50x5x50, .f32⟩
  | 123 => ⟨S250x250, .f32⟩
  | 124 => ⟨S1x50x50, .f32⟩
  | 125 => ⟨S50x50, .f32⟩
  | 126 => ⟨S50x50, .f32⟩
  | 127 => ⟨S5x5, .i32⟩
  | _ => ⟨S2000000x1, .f32⟩

abbrev hbmTy0_1 (i : Nat) : BufTy := match i % 128 with
  | 0 => ⟨S5x5, .i32⟩
  | 1 => ⟨S_, .i32⟩
  | 2 => ⟨S5x5, .i32⟩
  | 3 => ⟨S5x5, .i32⟩
  | 4 => ⟨S5x5, .i1⟩
  | 5 => ⟨S5x5, .f32⟩
  | 6 => ⟨S5x1x5x1, .f32⟩
  | 7 => ⟨S1x50x1x50, .f32⟩
  | 8 => ⟨S5x50x5x50, .f32⟩
  | 9 => ⟨S5x50x5x50, .f32⟩
  | 10 => ⟨S5x50x5x50, .f32⟩
  | 11 => ⟨S250x250, .f32⟩
  | 12 => ⟨S1x250x250, .f32⟩
  | 13 => ⟨S1x250x250, .f32⟩
  | 14 => ⟨S1x250x250, .f32⟩
  | 15 => ⟨S1x250x250, .f32⟩
  | 16 => ⟨S1x250x250, .f32⟩
  | 17 => ⟨S1x250x250, .f32⟩
  | 18 => ⟨S1x250x250, .f32⟩
  | 19 => ⟨S7x250x250, .f32⟩
  | 20 => ⟨S7x250x250, .bf16⟩
  | 21 => ⟨S1x50, .f32⟩
  | 22 => ⟨S50, .f32⟩
  | 23 => ⟨S1x50, .f32⟩
  | 24 => ⟨S5x50, .f32⟩
  | 25 => ⟨S250, .f32⟩
  | 26 => ⟨S250x1, .f32⟩
  | 27 => ⟨S1x50, .f32⟩
  | 28 => ⟨S50, .f32⟩
  | 29 => ⟨S1x50, .f32⟩
  | 30 => ⟨S5x50, .f32⟩
  | 31 => ⟨S250, .f32⟩
  | 32 => ⟨S250x1, .f32⟩
  | 33 => ⟨S1x50, .f32⟩
  | 34 => ⟨S50, .f32⟩
  | 35 => ⟨S1x50, .f32⟩
  | 36 => ⟨S5x50, .f32⟩
  | 37 => ⟨S250, .f32⟩
  | 38 => ⟨S250x1, .f32⟩
  | 39 => ⟨S1x50, .f32⟩
  | 40 => ⟨S50, .f32⟩
  | 41 => ⟨S1x50, .f32⟩
  | 42 => ⟨S5x50, .f32⟩
  | 43 => ⟨S250, .f32⟩
  | 44 => ⟨S250x1, .f32⟩
  | 45 => ⟨S1x50, .f32⟩
  | 46 => ⟨S50, .f32⟩
  | 47 => ⟨S1x50, .f32⟩
  | 48 => ⟨S5x50, .f32⟩
  | 49 => ⟨S250, .f32⟩
  | 50 => ⟨S250x1, .f32⟩
  | 51 => ⟨S1x50, .f32⟩
  | 52 => ⟨S50, .f32⟩
  | 53 => ⟨S1x50, .f32⟩
  | 54 => ⟨S5x50, .f32⟩
  | 55 => ⟨S250, .f32⟩
  | 56 => ⟨S250x1, .f32⟩
  | 57 => ⟨S1x50, .f32⟩
  | 58 => ⟨S50, .f32⟩
  | 59 => ⟨S1x50, .f32⟩
  | 60 => ⟨S5x50, .f32⟩
  | 61 => ⟨S250, .f32⟩
  | 62 => ⟨S250x1, .f32⟩
  | 63 => ⟨S1x250x1, .f32⟩
  | 64 => ⟨S1x250x1, .f32⟩
  | 65 => ⟨S1x250x1, .f32⟩
  | 66 => ⟨S1x250x1, .f32⟩
  | 67 => ⟨S1x250x1, .f32⟩
  | 68 => ⟨S1x250x1, .f32⟩
  | 69 => ⟨S1x250x1, .f32⟩
  | 70 => ⟨S7x250x1, .f32⟩
  | 71 => ⟨S3x50, .f32⟩
  | 72 => ⟨S5x5, .i32⟩
  | 73 => ⟨S5x5, .i32⟩
  | 74 => ⟨S_, .i32⟩
  | 75 => ⟨S5x5, .i32⟩
  | 76 => ⟨S5x5, .i32⟩
  | 77 => ⟨S5x5, .i1⟩
  | 78 => ⟨S5x5, .f32⟩
  | 79 => ⟨S5x1x5x1, .f32⟩
  | 80 => ⟨S1x3x1x50, .f32⟩
  | 81 => ⟨S5x3x5x50, .f32⟩
  | 82 => ⟨S5x3x5x50, .f32⟩
  | 83 => ⟨S5x3x5x50, .f32⟩
  | 84 => ⟨S15x250, .f32⟩
  | 85 => ⟨S15x250, .bf16⟩
  | 86 => ⟨S1x3, .f32⟩
  | 87 => ⟨S5x3, .f32⟩
  | 88 => ⟨S15, .f32⟩
  | 89 => ⟨S15x1, .f32⟩
  | 90 => ⟨S1x2000000, .f32⟩
  | 91 => ⟨S1x2000000, .f32⟩
  | 92 => ⟨S1x2000000, .f32⟩
  | 93 => ⟨S1x2000000, .f32⟩
  | 94 => ⟨S1x2000000, .f32⟩
  | 95 => ⟨S1x2000000, .f32⟩
  | 96 => ⟨S2000000x1, .f32⟩
  | 97 => ⟨S2000000x1, .f32⟩
  | 98 => ⟨S2000000x1, .f32⟩
  | _ => ⟨S2000000x1, .f32⟩

abbrev hbmTy (i : Nat) : BufTy := match i / 128 with
  | 0 => hbmTy0_0 i
  | 1 => hbmTy0_1 i
  | _ => ⟨S2000000x1, .f32⟩

abbrev bufTy : (tb : Table) → Fin (tcTables nBuf tb) → BufTy
  | .hbm, ⟨i, _⟩ => hbmTy i
  | .local _ .vmem, ⟨0, _⟩ => ⟨S1x16000, .f32⟩
  | .local _ .vmem, ⟨1, _⟩ => ⟨S1x16000, .f32⟩
  | .local _ .vmem, ⟨2, _⟩ => ⟨S1x16000, .f32⟩
  | .local _ .vmem, ⟨3, _⟩ => ⟨S1x16000, .f32⟩
  | .local _ .vmem, ⟨4, _⟩ => ⟨S1x16000, .f32⟩
  | .local _ .vmem, ⟨5, _⟩ => ⟨S1x16000, .f32⟩
  | .local _ .vmem, ⟨6, _⟩ => ⟨S250x15, .bf16⟩
  | .local _ .vmem, ⟨7, _⟩ => ⟨S250x1, .f32⟩
  | .local _ .vmem, ⟨8, _⟩ => ⟨S7x250x250, .bf16⟩
  | .local _ .vmem, ⟨9, _⟩ => ⟨S7x250x1, .f32⟩
  | .local _ .vmem, ⟨10, _⟩ => ⟨S15x250, .bf16⟩
  | .local _ .vmem, ⟨11, _⟩ => ⟨S15x1, .f32⟩
  | .local _ .vmem, ⟨12, _⟩ => ⟨S1x16000, .f32⟩
  | .local _ .vmem, ⟨13, _⟩ => ⟨S1x16000, .f32⟩
  | .local _ .vmem, ⟨14, _⟩ => ⟨S1x16000, .f32⟩
  | .local _ .vmem, ⟨15, _⟩ => ⟨S1x16000, .f32⟩
  | .local _ .vmem, ⟨16, _⟩ => ⟨S1x16000, .f32⟩
  | .local _ .vmem, ⟨17, _⟩ => ⟨S1x16000, .f32⟩
  | _, _ => ⟨S2000000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_0 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_1 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_c_2 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_call3_v0 : Ref sig .tc := ⟨.hbm, 70, rfl⟩
abbrev main_call3_v1 : Ref sig .tc := ⟨.hbm, 71, rfl⟩
abbrev main_call3_v2 : Ref sig .tc := ⟨.hbm, 72, rfl⟩
abbrev main_call3_v3 : Ref sig .tc := ⟨.hbm, 73, rfl⟩
abbrev main_call3_v4 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_c_3 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_call4_v0 : Ref sig .tc := ⟨.hbm, 86, rfl⟩
abbrev main_call4_v1 : Ref sig .tc := ⟨.hbm, 87, rfl⟩
abbrev main_call4_v2 : Ref sig .tc := ⟨.hbm, 88, rfl⟩
abbrev main_call4_v3 : Ref sig .tc := ⟨.hbm, 89, rfl⟩
abbrev main_call4_v4 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_c_4 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_call5_v0 : Ref sig .tc := ⟨.hbm, 102, rfl⟩
abbrev main_call5_v1 : Ref sig .tc := ⟨.hbm, 103, rfl⟩
abbrev main_call5_v2 : Ref sig .tc := ⟨.hbm, 104, rfl⟩
abbrev main_call5_v3 : Ref sig .tc := ⟨.hbm, 105, rfl⟩
abbrev main_call5_v4 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_c_5 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_call6_v0 : Ref sig .tc := ⟨.hbm, 118, rfl⟩
abbrev main_call6_v1 : Ref sig .tc := ⟨.hbm, 119, rfl⟩
abbrev main_call6_v2 : Ref sig .tc := ⟨.hbm, 120, rfl⟩
abbrev main_call6_v3 : Ref sig .tc := ⟨.hbm, 121, rfl⟩
abbrev main_call6_v4 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_c_6 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_call7_v0 : Ref sig .tc := ⟨.hbm, 134, rfl⟩
abbrev main_call7_v1 : Ref sig .tc := ⟨.hbm, 135, rfl⟩
abbrev main_call7_v2 : Ref sig .tc := ⟨.hbm, 136, rfl⟩
abbrev main_call7_v3 : Ref sig .tc := ⟨.hbm, 137, rfl⟩
abbrev main_call7_v4 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_c_7 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_call8_v0 : Ref sig .tc := ⟨.hbm, 207, rfl⟩
abbrev main_call8_v1 : Ref sig .tc := ⟨.hbm, 208, rfl⟩
abbrev main_call8_v2 : Ref sig .tc := ⟨.hbm, 209, rfl⟩
abbrev main_call8_v3 : Ref sig .tc := ⟨.hbm, 210, rfl⟩
abbrev main_call8_v4 : Ref sig .tc := ⟨.hbm, 211, rfl⟩
abbrev main_v149 : Ref sig .tc := ⟨.hbm, 212, rfl⟩
abbrev main_v150 : Ref sig .tc := ⟨.hbm, 213, rfl⟩
abbrev main_v151 : Ref sig .tc := ⟨.hbm, 214, rfl⟩
abbrev main_v152 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_v158_0 : Ref sig .tc := ⟨.hbm, 221, rfl⟩
abbrev main_v158_1 : Ref sig .tc := ⟨.hbm, 222, rfl⟩
abbrev main_v158_2 : Ref sig .tc := ⟨.hbm, 223, rfl⟩
abbrev main_v159 : Ref sig .tc := ⟨.hbm, 224, rfl⟩
abbrev main_v160 : Ref sig .tc := ⟨.hbm, 225, rfl⟩
abbrev main_v161 : Ref sig .tc := ⟨.hbm, 226, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x16000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S250x15 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S250x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S7x250x250 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S7x250x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S15x250 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S15x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x16000 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x16000 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x16000 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  transposes_S3x50_S50x3_1_0 : S3x50.Transposes [1, 0] S50x3
  bcast_S_S5x5 : S_.BroadcastsInDim S5x5 (![] : Fin 0 → Fin S5x5.rank)
  bcast_S5x5_S5x1x5x1_0_2 : S5x5.BroadcastsInDim S5x1x5x1 (![0, 2] : Fin 2 → Fin S5x1x5x1.rank)
  bcast_S50x3_S1x50x1x3_1_3 : S50x3.BroadcastsInDim S1x50x1x3 (![1, 3] : Fin 2 → Fin S1x50x1x3.rank)
  bcast_S5x1x5x1_S5x50x5x3_0_1_2_3 : S5x1x5x1.BroadcastsInDim S5x50x5x3 (![0, 1, 2, 3] : Fin 4 → Fin S5x50x5x3.rank)
  bcast_S1x50x1x3_S5x50x5x3_0_1_2_3 : S1x50x1x3.BroadcastsInDim S5x50x5x3 (![0, 1, 2, 3] : Fin 4 → Fin S5x50x5x3.rank)
  shapeCasts_S5x50x5x3_S250x15 : S5x50x5x3.ShapeCasts S250x15
  bitsLt_bf16_f32 : FTy.bits .bf16 < FTy.bits .f32
  shapeCasts_S50_S1x50 : S50.ShapeCasts S1x50
  bcast_S1x50_S5x50_0_1 : S1x50.BroadcastsInDim S5x50 (![0, 1] : Fin 2 → Fin S5x50.rank)
  shapeCasts_S5x50_S250 : S5x50.ShapeCasts S250
  shapeCasts_S250_S250x1 : S250.ShapeCasts S250x1
  slices_S7x50x50_S1x50x50_0_0_0 : S7x50x50.Slices ![0, 0, 0] S1x50x50
  shapeCasts_S1x50x50_S50x50 : S1x50x50.ShapeCasts S50x50
  transposes_S50x50_S50x50_1_0 : S50x50.Transposes [1, 0] S50x50
  bcast_S50x50_S1x50x1x50_1_3 : S50x50.BroadcastsInDim S1x50x1x50 (![1, 3] : Fin 2 → Fin S1x50x1x50.rank)
  bcast_S5x1x5x1_S5x50x5x50_0_1_2_3 : S5x1x5x1.BroadcastsInDim S5x50x5x50 (![0, 1, 2, 3] : Fin 4 → Fin S5x50x5x50.rank)
  bcast_S1x50x1x50_S5x50x5x50_0_1_2_3 : S1x50x1x50.BroadcastsInDim S5x50x5x50 (![0, 1, 2, 3] : Fin 4 → Fin S5x50x5x50.rank)
  shapeCasts_S5x50x5x50_S250x250 : S5x50x5x50.ShapeCasts S250x250
  slices_S7x50x50_S1x50x50_1_0_0 : S7x50x50.Slices ![1, 0, 0] S1x50x50
  slices_S7x50x50_S1x50x50_2_0_0 : S7x50x50.Slices ![2, 0, 0] S1x50x50
  slices_S7x50x50_S1x50x50_3_0_0 : S7x50x50.Slices ![3, 0, 0] S1x50x50
  slices_S7x50x50_S1x50x50_4_0_0 : S7x50x50.Slices ![4, 0, 0] S1x50x50
  slices_S7x50x50_S1x50x50_5_0_0 : S7x50x50.Slices ![5, 0, 0] S1x50x50
  slices_S7x50x50_S1x50x50_6_0_0 : S7x50x50.Slices ![6, 0, 0] S1x50x50
  bcast_S250x250_S1x250x250_1_2 : S250x250.BroadcastsInDim S1x250x250 (![1, 2] : Fin 2 → Fin S1x250x250.rank)
  concatenates_S1x250x250_S1x250x250_S1x250x250_S1x250x250_S1x250x250_S1x250x250_S1x250x250_S7x250x250_d0 : Shape.Concatenates [S1x250x250, S1x250x250, S1x250x250, S1x250x250, S1x250x250, S1x250x250, S1x250x250] S7x250x250 0
  slices_S7x50_S1x50_0_0 : S7x50.Slices ![0, 0] S1x50
  shapeCasts_S1x50_S50 : S1x50.ShapeCasts S50
  slices_S7x50_S1x50_1_0 : S7x50.Slices ![1, 0] S1x50
  slices_S7x50_S1x50_2_0 : S7x50.Slices ![2, 0] S1x50
  slices_S7x50_S1x50_3_0 : S7x50.Slices ![3, 0] S1x50
  slices_S7x50_S1x50_4_0 : S7x50.Slices ![4, 0] S1x50
  slices_S7x50_S1x50_5_0 : S7x50.Slices ![5, 0] S1x50
  slices_S7x50_S1x50_6_0 : S7x50.Slices ![6, 0] S1x50
  bcast_S250x1_S1x250x1_1_2 : S250x1.BroadcastsInDim S1x250x1 (![1, 2] : Fin 2 → Fin S1x250x1.rank)
  concatenates_S1x250x1_S1x250x1_S1x250x1_S1x250x1_S1x250x1_S1x250x1_S1x250x1_S7x250x1_d0 : Shape.Concatenates [S1x250x1, S1x250x1, S1x250x1, S1x250x1, S1x250x1, S1x250x1, S1x250x1] S7x250x1 0
  transposes_S50x3_S3x50_1_0 : S50x3.Transposes [1, 0] S3x50
  bcast_S3x50_S1x3x1x50_1_3 : S3x50.BroadcastsInDim S1x3x1x50 (![1, 3] : Fin 2 → Fin S1x3x1x50.rank)
  bcast_S5x1x5x1_S5x3x5x50_0_1_2_3 : S5x1x5x1.BroadcastsInDim S5x3x5x50 (![0, 1, 2, 3] : Fin 4 → Fin S5x3x5x50.rank)
  bcast_S1x3x1x50_S5x3x5x50_0_1_2_3 : S1x3x1x50.BroadcastsInDim S5x3x5x50 (![0, 1, 2, 3] : Fin 4 → Fin S5x3x5x50.rank)
  shapeCasts_S5x3x5x50_S15x250 : S5x3x5x50.ShapeCasts S15x250
  shapeCasts_S3_S1x3 : S3.ShapeCasts S1x3
  bcast_S1x3_S5x3_0_1 : S1x3.BroadcastsInDim S5x3 (![0, 1] : Fin 2 → Fin S5x3.rank)
  shapeCasts_S5x3_S15 : S5x3.ShapeCasts S15
  shapeCasts_S15_S15x1 : S15.ShapeCasts S15x1
  shapeCasts_S2000000x1_S1x2000000 : S2000000x1.ShapeCasts S1x2000000
  inb_S1x16000_S1x16000_0_0 : ∀ a, (![0, 0] : Fin 2 → Nat) a + S1x16000.size a ≤ S1x16000.size a
  h_S1x16000 : 0 < S1x16000.numel
  shapeCasts_S1x16000_S1x16000 : S1x16000.ShapeCasts S1x16000
  slices_S1x16000_o0_0_S1x3200 : S1x16000.Slices ![0, 0] S1x3200
  concatenates_S1x3200_S1x3200_S1x3200_S3x3200_d0 : Shape.Concatenates [S1x3200, S1x3200, S1x3200] S3x3200 0
  slices_S1x16000_o0_3200_S1x3200 : S1x16000.Slices ![0, 3200] S1x3200
  slices_S1x16000_o0_6400_S1x3200 : S1x16000.Slices ![0, 6400] S1x3200
  slices_S1x16000_o0_9600_S1x3200 : S1x16000.Slices ![0, 9600] S1x3200
  slices_S1x16000_o0_12800_S1x3200 : S1x16000.Slices ![0, 12800] S1x3200
  concatenates_S3x3200_S3x3200_S3x3200_S3x3200_S3x3200_S15x3200_d0 : Shape.Concatenates [S3x3200, S3x3200, S3x3200, S3x3200, S3x3200] S15x3200 0
  inb_S250x15_S250x15_0_0 : ∀ a, (![0, 0] : Fin 2 → Nat) a + S250x15.size a ≤ S250x15.size a
  h_S250x15 : 0 < S250x15.numel
  shapeCasts_S250x15_S250x15 : S250x15.ShapeCasts S250x15
  inb_S250x1_S250x1_0_0 : ∀ a, (![0, 0] : Fin 2 → Nat) a + S250x1.size a ≤ S250x1.size a
  h_S250x1 : 0 < S250x1.numel
  shapeCasts_S250x1_S250x1 : S250x1.ShapeCasts S250x1
  broadcasts_S250x1_S250x3200 : S250x1.Broadcasts S250x3200
  inb_S7x250x250_S1x250x250_0_0_0 : ∀ a, (![0, 0, 0] : Fin 3 → Nat) a + S1x250x250.size a ≤ S7x250x250.size a
  h_S1x250x250 : 0 < S1x250x250.numel
  shapeCasts_S1x250x250_S250x250 : S1x250x250.ShapeCasts S250x250
  inb_S7x250x1_S1x250x1_0_0_0 : ∀ a, (![0, 0, 0] : Fin 3 → Nat) a + S1x250x1.size a ≤ S7x250x1.size a
  h_S1x250x1 : 0 < S1x250x1.numel
  shapeCasts_S1x250x1_S250x1 : S1x250x1.ShapeCasts S250x1
  inb_S7x250x250_S1x250x250_1_0_0 : ∀ a, (![1, 0, 0] : Fin 3 → Nat) a + S1x250x250.size a ≤ S7x250x250.size a
  inb_S7x250x1_S1x250x1_1_0_0 : ∀ a, (![1, 0, 0] : Fin 3 → Nat) a + S1x250x1.size a ≤ S7x250x1.size a
  inb_S7x250x250_S1x250x250_2_0_0 : ∀ a, (![2, 0, 0] : Fin 3 → Nat) a + S1x250x250.size a ≤ S7x250x250.size a
  inb_S7x250x1_S1x250x1_2_0_0 : ∀ a, (![2, 0, 0] : Fin 3 → Nat) a + S1x250x1.size a ≤ S7x250x1.size a
  inb_S7x250x250_S1x250x250_3_0_0 : ∀ a, (![3, 0, 0] : Fin 3 → Nat) a + S1x250x250.size a ≤ S7x250x250.size a
  inb_S7x250x1_S1x250x1_3_0_0 : ∀ a, (![3, 0, 0] : Fin 3 → Nat) a + S1x250x1.size a ≤ S7x250x1.size a
  inb_S7x250x250_S1x250x250_4_0_0 : ∀ a, (![4, 0, 0] : Fin 3 → Nat) a + S1x250x250.size a ≤ S7x250x250.size a
  inb_S7x250x1_S1x250x1_4_0_0 : ∀ a, (![4, 0, 0] : Fin 3 → Nat) a + S1x250x1.size a ≤ S7x250x1.size a
  inb_S7x250x250_S1x250x250_5_0_0 : ∀ a, (![5, 0, 0] : Fin 3 → Nat) a + S1x250x250.size a ≤ S7x250x250.size a
  inb_S7x250x1_S1x250x1_5_0_0 : ∀ a, (![5, 0, 0] : Fin 3 → Nat) a + S1x250x1.size a ≤ S7x250x1.size a
  inb_S7x250x250_S1x250x250_6_0_0 : ∀ a, (![6, 0, 0] : Fin 3 → Nat) a + S1x250x250.size a ≤ S7x250x250.size a
  inb_S7x250x1_S1x250x1_6_0_0 : ∀ a, (![6, 0, 0] : Fin 3 → Nat) a + S1x250x1.size a ≤ S7x250x1.size a
  inb_S15x250_S15x250_0_0 : ∀ a, (![0, 0] : Fin 2 → Nat) a + S15x250.size a ≤ S15x250.size a
  h_S15x250 : 0 < S15x250.numel
  shapeCasts_S15x250_S15x250 : S15x250.ShapeCasts S15x250
  inb_S15x1_S15x1_0_0 : ∀ a, (![0, 0] : Fin 2 → Nat) a + S15x1.size a ≤ S15x1.size a
  h_S15x1 : 0 < S15x1.numel
  shapeCasts_S15x1_S15x1 : S15x1.ShapeCasts S15x1
  broadcasts_S15x1_S15x3200 : S15x1.Broadcasts S15x3200
  slices_S15x3200_o0_0_S1x3200 : S15x3200.Slices ![0, 0] S1x3200
  inb_S1x16000_S1x3200_0_0 : ∀ a, (![0, 0] : Fin 2 → Nat) a + S1x3200.size a ≤ S1x16000.size a
  h_S1x3200 : 0 < S1x3200.numel
  slices_S15x3200_o1_0_S1x3200 : S15x3200.Slices ![1, 0] S1x3200
  slices_S15x3200_o2_0_S1x3200 : S15x3200.Slices ![2, 0] S1x3200
  slices_S15x3200_o3_0_S1x3200 : S15x3200.Slices ![3, 0] S1x3200
  inb_S1x16000_S1x3200_0_3200 : ∀ a, (![0, 3200] : Fin 2 → Nat) a + S1x3200.size a ≤ S1x16000.size a
  slices_S15x3200_o4_0_S1x3200 : S15x3200.Slices ![4, 0] S1x3200
  slices_S15x3200_o5_0_S1x3200 : S15x3200.Slices ![5, 0] S1x3200
  slices_S15x3200_o6_0_S1x3200 : S15x3200.Slices ![6, 0] S1x3200
  inb_S1x16000_S1x3200_0_6400 : ∀ a, (![0, 6400] : Fin 2 → Nat) a + S1x3200.size a ≤ S1x16000.size a
  slices_S15x3200_o7_0_S1x3200 : S15x3200.Slices ![7, 0] S1x3200
  slices_S15x3200_o8_0_S1x3200 : S15x3200.Slices ![8, 0] S1x3200
  slices_S15x3200_o9_0_S1x3200 : S15x3200.Slices ![9, 0] S1x3200
  inb_S1x16000_S1x3200_0_9600 : ∀ a, (![0, 9600] : Fin 2 → Nat) a + S1x3200.size a ≤ S1x16000.size a
  slices_S15x3200_o10_0_S1x3200 : S15x3200.Slices ![10, 0] S1x3200
  slices_S15x3200_o11_0_S1x3200 : S15x3200.Slices ![11, 0] S1x3200
  slices_S15x3200_o12_0_S1x3200 : S15x3200.Slices ![12, 0] S1x3200
  inb_S1x16000_S1x3200_0_12800 : ∀ a, (![0, 12800] : Fin 2 → Nat) a + S1x3200.size a ≤ S1x16000.size a
  slices_S15x3200_o13_0_S1x3200 : S15x3200.Slices ![13, 0] S1x3200
  slices_S15x3200_o14_0_S1x3200 : S15x3200.Slices ![14, 0] S1x3200
  shapeCasts_S1x2000000_S2000000x1 : S1x2000000.ShapeCasts S2000000x1
  dot_S250x15_S15x3200_S250x3200_1_0_0_1_n_n_wf : DotDims.WF S250x15 S15x3200 S250x3200 [1] [0] [0] [1] [] []
  dot_S250x250_S250x3200_S250x3200_1_0_0_1_n_n_wf : DotDims.WF S250x250 S250x3200 S250x3200 [1] [0] [0] [1] [] []
  dot_S15x250_S250x3200_S15x3200_1_0_0_1_n_n_wf : DotDims.WF S15x250 S250x3200 S15x3200 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16000.size a ≤ S1x2000000.size a
  hwx0_0 : ∀ i : grid0.Coords, EltTy.bits .f32 = 32 ∨ (Rect.block (s := S1x2000000) S1x16000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16000.size a ≤ S1x2000000.size a
  hwx0_1 : ∀ i : grid0.Coords, EltTy.bits .f32 = 32 ∨ (Rect.block (s := S1x2000000) S1x16000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16000.size a ≤ S1x2000000.size a
  hwx0_2 : ∀ i : grid0.Coords, EltTy.bits .f32 = 32 ∨ (Rect.block (s := S1x2000000) S1x16000.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S250x15.size a ≤ S250x15.size a
  hwx0_3 : ∀ i : grid0.Coords, EltTy.bits .bf16 = 32 ∨ (Rect.block (s := S250x15) S250x15.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S250x1.size a ≤ S250x1.size a
  hwx0_4 : ∀ i : grid0.Coords, EltTy.bits .f32 = 32 ∨ (Rect.block (s := S250x1) S250x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S7x250x250.size a ≤ S7x250x250.size a
  hwx0_5 : ∀ i : grid0.Coords, EltTy.bits .bf16 = 32 ∨ (Rect.block (s := S7x250x250) S7x250x250.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S7x250x1.size a ≤ S7x250x1.size a
  hwx0_6 : ∀ i : grid0.Coords, EltTy.bits .f32 = 32 ∨ (Rect.block (s := S7x250x1) S7x250x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S15x250.size a ≤ S15x250.size a
  hwx0_7 : ∀ i : grid0.Coords, EltTy.bits .bf16 = 32 ∨ (Rect.block (s := S15x250) S15x250.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S15x1.size a ≤ S15x1.size a
  hwx0_8 : ∀ i : grid0.Coords, EltTy.bits .f32 = 32 ∨ (Rect.block (s := S15x1) S15x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x16000.size a ≤ S1x2000000.size a
  hwx0_9 : ∀ i : grid0.Coords, EltTy.bits .f32 = 32 ∨ (Rect.block (s := S1x2000000) S1x16000.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x16000.size a ≤ S1x2000000.size a
  hwx0_10 : ∀ i : grid0.Coords, EltTy.bits .f32 = 32 ∨ (Rect.block (s := S1x2000000) S1x16000.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x16000.size a ≤ S1x2000000.size a
  hwx0_11 : ∀ i : grid0.Coords, EltTy.bits .f32 = 32 ∨ (Rect.block (s := S1x2000000) S1x16000.size (cc0_transform_11 i) (hinb0_11 i)).WholeWords (EltTy.packing .f32)

variable [Facts₀]

def dot_S250x15_S15x3200_S250x3200_1_0_0_1_n_n : DotDims S250x15 S15x3200 S250x3200 where
  lhsContracting := [1]
  rhsContracting := [0]
  lhsNonContracting := [0]
  rhsNonContracting := [1]
  lhsBatch := []
  rhsBatch := []
  wf := dot_S250x15_S15x3200_S250x3200_1_0_0_1_n_n_wf
def dot_S250x250_S250x3200_S250x3200_1_0_0_1_n_n : DotDims S250x250 S250x3200 S250x3200 where
  lhsContracting := [1]
  rhsContracting := [0]
  lhsNonContracting := [0]
  rhsNonContracting := [1]
  lhsBatch := []
  rhsBatch := []
  wf := dot_S250x250_S250x3200_S250x3200_1_0_0_1_n_n_wf
def dot_S15x250_S250x3200_S15x3200_1_0_0_1_n_n : DotDims S15x250 S250x3200 S15x3200 where
  lhsContracting := [1]
  rhsContracting := [0]
  lhsNonContracting := [0]
  rhsNonContracting := [1]
  lhsBatch := []
  rhsBatch := []
  wf := dot_S15x250_S250x3200_S15x3200_1_0_0_1_n_n_wf

abbrev win0_0 : Pipeline.Window sig grid0 :=
  Pipeline.Window.ofSpec (Memref.whole main_v155) S1x16000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v156) S1x16000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v157) S1x16000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S250x15.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S250x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v91) S7x250x250.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v141) S7x250x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v150) S15x250.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v154) S15x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v158_0) S1x16000.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v158_1) S1x16000.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v158_2) S1x16000.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S2000000x1 : Shape := ⟨2, ![2000000, 1]⟩
abbrev S3x50 : Shape := ⟨2, ![3, 50]⟩
abbrev S50 : Shape := ⟨1, ![50]⟩
abbrev S7x50x50 : Shape := ⟨3, ![7, 50, 50]⟩
abbrev S7x50 : Shape := ⟨2, ![7, 50]⟩
abbrev S50x3 : Shape := ⟨2, ![50, 3]⟩
abbrev S3 : Shape := ⟨1, ![3]⟩
abbrev S2000000x3 : Shape := ⟨2, ![2000000, 3]⟩
abbrev S2000000x50 : Shape := ⟨2, ![2000000, 50]⟩
abbrev S1x50 : Shape := ⟨2, ![1, 50]⟩
abbrev S1x50x50 : Shape := ⟨3, ![1, 50, 50]⟩
abbrev S50x50 : Shape := ⟨2, ![50, 50]⟩
abbrev S1x3 : Shape := ⟨2, ![1, 3]⟩

abbrev nBuf : Space → Nat
  | .hbm => 85
  | .vmem => 0
  | .smem => 0
  | _ => 0

abbrev bufTy : (tb : Table) → Fin (tcTables nBuf tb) → BufTy
  | .hbm, ⟨0, _⟩ => ⟨S2000000x1, .f32⟩
  | .hbm, ⟨1, _⟩ => ⟨S2000000x1, .f32⟩
  | .hbm, ⟨2, _⟩ => ⟨S2000000x1, .f32⟩
  | .hbm, ⟨3, _⟩ => ⟨S3x50, .f32⟩
  | .hbm, ⟨4, _⟩ => ⟨S50, .f32⟩
  | .hbm, ⟨5, _⟩ => ⟨S7x50x50, .f32⟩
  | .hbm, ⟨6, _⟩ => ⟨S7x50, .f32⟩
  | .hbm, ⟨7, _⟩ => ⟨S50x3, .f32⟩
  | .hbm, ⟨8, _⟩ => ⟨S3, .f32⟩
  | .hbm, ⟨9, _⟩ => ⟨S2000000x3, .f32⟩
  | .hbm, ⟨10, _⟩ => ⟨S2000000x50, .f32⟩
  | .hbm, ⟨11, _⟩ => ⟨S1x50, .f32⟩
  | .hbm, ⟨12, _⟩ => ⟨S2000000x50, .f32⟩
  | .hbm, ⟨13, _⟩ => ⟨S2000000x50, .f32⟩
  | .hbm, ⟨14, _⟩ => ⟨S2000000x50, .f32⟩
  | .hbm, ⟨15, _⟩ => ⟨S1x50x50, .f32⟩
  | .hbm, ⟨16, _⟩ => ⟨S50x50, .f32⟩
  | .hbm, ⟨17, _⟩ => ⟨S2000000x50, .f32⟩
  | .hbm, ⟨18, _⟩ => ⟨S1x50, .f32⟩
  | .hbm, ⟨19, _⟩ => ⟨S50, .f32⟩
  | .hbm, ⟨20, _⟩ => ⟨S1x50, .f32⟩
  | .hbm, ⟨21, _⟩ => ⟨S2000000x50, .f32⟩
  | .hbm, ⟨22, _⟩ => ⟨S2000000x50, .f32⟩
  | .hbm, ⟨23, _⟩ => ⟨S2000000x50, .f32⟩
  | .hbm, ⟨24, _⟩ => ⟨S1x50x50, .f32⟩
  | .hbm, ⟨25, _⟩ => ⟨S50x50, .f32⟩
  | .hbm, ⟨26, _⟩ => ⟨S2000000x50, .f32⟩
  | .hbm, ⟨27, _⟩ => ⟨S1x50, .f32⟩
  | .hbm, ⟨28, _⟩ => ⟨S50, .f32⟩
  | .hbm, ⟨29, _⟩ => ⟨S1x50, .f32⟩
  | .hbm, ⟨30, _⟩ => ⟨S2000000x50, .f32⟩
  | .hbm, ⟨31, _⟩ => ⟨S2000000x50, .f32⟩
  | .hbm, ⟨32, _⟩ => ⟨S2000000x50, .f32⟩
  | .hbm, ⟨33, _⟩ => ⟨S1x50x50, .f32⟩
  | .hbm, ⟨34, _⟩ => ⟨S50x50, .f32⟩
  | .hbm, ⟨35, _⟩ => ⟨S2000000x50, .f32⟩
  | .hbm, ⟨36, _⟩ => ⟨S1x50, .f32⟩
  | .hbm, ⟨37, _⟩ => ⟨S50, .f32⟩
  | .hbm, ⟨38, _⟩ => ⟨S1x50, .f32⟩
  | .hbm, ⟨39, _⟩ => ⟨S2000000x50, .f32⟩
  | .hbm, ⟨40, _⟩ => ⟨S2000000x50, .f32⟩
  | .hbm, ⟨41, _⟩ => ⟨S2000000x50, .f32⟩
  | .hbm, ⟨42, _⟩ => ⟨S1x50x50, .f32⟩
  | .hbm, ⟨43, _⟩ => ⟨S50x50, .f32⟩
  | .hbm, ⟨44, _⟩ => ⟨S2000000x50, .f32⟩
  | .hbm, ⟨45, _⟩ => ⟨S1x50, .f32⟩
  | .hbm, ⟨46, _⟩ => ⟨S50, .f32⟩
  | .hbm, ⟨47, _⟩ => ⟨S1x50, .f32⟩
  | .hbm, ⟨48, _⟩ => ⟨S2000000x50, .f32⟩
  | .hbm, ⟨49, _⟩ => ⟨S2000000x50, .f32⟩
  | .hbm, ⟨50, _⟩ => ⟨S2000000x50, .f32⟩
  | .hbm, ⟨51, _⟩ => ⟨S1x50x50, .f32⟩
  | .hbm, ⟨52, _⟩ => ⟨S50x50, .f32⟩
  | .hbm, ⟨53, _⟩ => ⟨S2000000x50, .f32⟩
  | .hbm, ⟨54, _⟩ => ⟨S1x50, .f32⟩
  | .hbm, ⟨55, _⟩ => ⟨S50, .f32⟩
  | .hbm, ⟨56, _⟩ => ⟨S1x50, .f32⟩
  | .hbm, ⟨57, _⟩ => ⟨S2000000x50, .f32⟩
  | .hbm, ⟨58, _⟩ => ⟨S2000000x50, .f32⟩
  | .hbm, ⟨59, _⟩ => ⟨S2000000x50, .f32⟩
  | .hbm, ⟨60, _⟩ => ⟨S1x50x50, .f32⟩
  | .hbm, ⟨61, _⟩ => ⟨S50x50, .f32⟩
  | .hbm, ⟨62, _⟩ => ⟨S2000000x50, .f32⟩
  | .hbm, ⟨63, _⟩ => ⟨S1x50, .f32⟩
  | .hbm, ⟨64, _⟩ => ⟨S50, .f32⟩
  | .hbm, ⟨65, _⟩ => ⟨S1x50, .f32⟩
  | .hbm, ⟨66, _⟩ => ⟨S2000000x50, .f32⟩
  | .hbm, ⟨67, _⟩ => ⟨S2000000x50, .f32⟩
  | .hbm, ⟨68, _⟩ => ⟨S2000000x50, .f32⟩
  | .hbm, ⟨69, _⟩ => ⟨S1x50x50, .f32⟩
  | .hbm, ⟨70, _⟩ => ⟨S50x50, .f32⟩
  | .hbm, ⟨71, _⟩ => ⟨S2000000x50, .f32⟩
  | .hbm, ⟨72, _⟩ => ⟨S1x50, .f32⟩
  | .hbm, ⟨73, _⟩ => ⟨S50, .f32⟩
  | .hbm, ⟨74, _⟩ => ⟨S1x50, .f32⟩
  | .hbm, ⟨75, _⟩ => ⟨S2000000x50, .f32⟩
  | .hbm, ⟨76, _⟩ => ⟨S2000000x50, .f32⟩
  | .hbm, ⟨77, _⟩ => ⟨S2000000x50, .f32⟩
  | .hbm, ⟨78, _⟩ => ⟨S2000000x3, .f32⟩
  | .hbm, ⟨79, _⟩ => ⟨S1x3, .f32⟩
  | .hbm, ⟨80, _⟩ => ⟨S2000000x3, .f32⟩
  | .hbm, ⟨81, _⟩ => ⟨S2000000x3, .f32⟩
  | .hbm, ⟨82, _⟩ => ⟨S2000000x1, .f32⟩
  | .hbm, ⟨83, _⟩ => ⟨S2000000x1, .f32⟩
  | .hbm, ⟨84, _⟩ => ⟨S2000000x1, .f32⟩
  | _, _ => ⟨S2000000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩

abbrev nD : Nat := 1
abbrev τ : Topo := Topo.v7x

variable {F : FTy → Type} [FloatOps F]

class Facts₀ : Prop where
  concatenates_S2000000x1_S2000000x1_S2000000x1_S2000000x3_d1 : Shape.Concatenates [S2000000x1, S2000000x1, S2000000x1] S2000000x3 1
  bcast_S50_S1x50_1 : S50.BroadcastsInDim S1x50 (![1] : Fin 1 → Fin S1x50.rank)
  bcast_S1x50_S2000000x50_0_1 : S1x50.BroadcastsInDim S2000000x50 (![0, 1] : Fin 2 → Fin S2000000x50.rank)
  slices_S7x50x50_S1x50x50_0_0_0 : S7x50x50.Slices ![0, 0, 0] S1x50x50
  shapeCasts_S1x50x50_S50x50 : S1x50x50.ShapeCasts S50x50
  slices_S7x50_S1x50_0_0 : S7x50.Slices ![0, 0] S1x50
  shapeCasts_S1x50_S50 : S1x50.ShapeCasts S50
  slices_S7x50x50_S1x50x50_1_0_0 : S7x50x50.Slices ![1, 0, 0] S1x50x50
  slices_S7x50_S1x50_1_0 : S7x50.Slices ![1, 0] S1x50
  slices_S7x50x50_S1x50x50_2_0_0 : S7x50x50.Slices ![2, 0, 0] S1x50x50
  slices_S7x50_S1x50_2_0 : S7x50.Slices ![2, 0] S1x50
  slices_S7x50x50_S1x50x50_3_0_0 : S7x50x50.Slices ![3, 0, 0] S1x50x50
  slices_S7x50_S1x50_3_0 : S7x50.Slices ![3, 0] S1x50
  slices_S7x50x50_S1x50x50_4_0_0 : S7x50x50.Slices ![4, 0, 0] S1x50x50
  slices_S7x50_S1x50_4_0 : S7x50.Slices ![4, 0] S1x50
  slices_S7x50x50_S1x50x50_5_0_0 : S7x50x50.Slices ![5, 0, 0] S1x50x50
  slices_S7x50_S1x50_5_0 : S7x50.Slices ![5, 0] S1x50
  slices_S7x50x50_S1x50x50_6_0_0 : S7x50x50.Slices ![6, 0, 0] S1x50x50
  slices_S7x50_S1x50_6_0 : S7x50.Slices ![6, 0] S1x50
  bcast_S3_S1x3_1 : S3.BroadcastsInDim S1x3 (![1] : Fin 1 → Fin S1x3.rank)
  bcast_S1x3_S2000000x3_0_1 : S1x3.BroadcastsInDim S2000000x3 (![0, 1] : Fin 2 → Fin S2000000x3.rank)
  slices_S2000000x3_S2000000x1_0_0 : S2000000x3.Slices ![0, 0] S2000000x1
  slices_S2000000x3_S2000000x1_0_1 : S2000000x3.Slices ![0, 1] S2000000x1
  slices_S2000000x3_S2000000x1_0_2 : S2000000x3.Slices ![0, 2] S2000000x1
  dot_S2000000x3_S3x50_S2000000x50_1_0_0_1_n_n_wf : DotDims.WF S2000000x3 S3x50 S2000000x50 [1] [0] [0] [1] [] []
  dot_S2000000x50_S50x50_S2000000x50_1_0_0_1_n_n_wf : DotDims.WF S2000000x50 S50x50 S2000000x50 [1] [0] [0] [1] [] []
  dot_S2000000x50_S50x3_S2000000x3_1_0_0_1_n_n_wf : DotDims.WF S2000000x50 S50x3 S2000000x3 [1] [0] [0] [1] [] []

variable [Facts₀]

def dot_S2000000x3_S3x50_S2000000x50_1_0_0_1_n_n : DotDims S2000000x3 S3x50 S2000000x50 where
  lhsContracting := [1]
  rhsContracting := [0]
  lhsNonContracting := [0]
  rhsNonContracting := [1]
  lhsBatch := []
  rhsBatch := []
  wf := dot_S2000000x3_S3x50_S2000000x50_1_0_0_1_n_n_wf
def dot_S2000000x50_S50x50_S2000000x50_1_0_0_1_n_n : DotDims S2000000x50 S50x50 S2000000x50 where
  lhsContracting := [1]
  rhsContracting := [0]
  lhsNonContracting := [0]
  rhsNonContracting := [1]
  lhsBatch := []
  rhsBatch := []
  wf := dot_S2000000x50_S50x50_S2000000x50_1_0_0_1_n_n_wf
def dot_S2000000x50_S50x3_S2000000x3_1_0_0_1_n_n : DotDims S2000000x50 S50x3 S2000000x3 where
  lhsContracting := [1]
  rhsContracting := [0]
  lhsNonContracting := [0]
  rhsNonContracting := [1]
  lhsBatch := []
  rhsBatch := []
  wf := dot_S2000000x50_S50x3_S2000000x3_1_0_0_1_n_n_wf

class Facts : Prop extends Facts₀ where

variable [Facts]
-- ==== Proof.FrameKB.lean ====
/-
  The launch side of the frame of `Kernel`, at any float instance: @main is a prefix of host operations that build the
  block-diagonal weights and tiled biases, one region over 125 grid points, and three reshapes after it.  Here: the
  contents of every device buffer when the region is entered (`V`), that no host operation writes an argument array,
  each window's block at a grid point, that an input window's staging buffer holds that block at every point, and the
  frame claim's post read off a run whose post names every buffer.
-/
import proofs.«147603_j74036646248987_2_alg».proof.Defs
import proofs.«147603_j74036646248987_2_alg».proof.Proof.Gen.Kernel.Launch
import proofs.«147603_j74036646248987_2_alg».proof.Proof.Gen.Kernel.Skeleton
import proofs.«147603_j74036646248987_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The host operations before the region, stretch by stretch. -/
abbrev prefixOps : List (List (HloOp τ sig (Elt F))) := [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18]

/-- Core `c`'s device buffers when the region is entered: the launch contents run through the host prefix. -/
abbrev V0 (c : Dev nD) : Valuation τ sig (Elt F) := StableHlo.after (List.flatten (prefixOps (F := F))) (fun b => m (c, b))
/-- The same, read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is its host prefix, the region, and the three reshapes after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main prefixOps [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh⟩) main_chain

/-- The reshapes after the region touch the pipeline's arrays and buffers that bypass the region only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- Each writes its own result buffer, which is no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

/-- No host operation before the region writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does a reshape after it: argument 0 ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does a reshape after it: argument 1 ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does a reshape after it: argument 2 ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does a reshape after it: argument 3 ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the region writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does a reshape after it: argument 4 ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation before the region writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does a reshape after it: argument 5 ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host operation before the region writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does a reshape after it: argument 6 ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host operation before the region writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does a reshape after it: argument 7 ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- No host operation before the region writes argument 8. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does a reshape after it: argument 8 ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether fetched there or kept from the
    point before (its block index has then not moved). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether fetched there or kept from the
    point before (its block index has then not moved). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, whether fetched there or kept from the
    point before (its block index has then not moved). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, whether fetched there or kept from the
    point before (its block index has then not moved). -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, whether fetched there or kept from the
    point before (its block index has then not moved). -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, whether fetched there or kept from the
    point before (its block index has then not moved). -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, whether fetched there or kept from the
    point before (its block index has then not moved). -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, whether fetched there or kept from the
    point before (its block index has then not moved). -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current staging buffer holds its block at every point, whether fetched there or kept from the
    point before (its block index has then not moved). -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run that names every buffer -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c),
    ((h c).2 main_arg8 (Pipeline.mem_restRefs_of main_arg8 (by decide) (by decide))).trans (W_main_arg8 m dats c)⟩) h

end Cert.Kernel.Hand

end
-- ==== Proof.BodyKB.lean ====
/-
  The kernel body of `Kernel` at one grid point, at any float instance.  The body reads the three coordinate
  blocks and the six weight and bias blocks, runs the nine layers on a [250, 3200] activation (five row groups
  stacked along the feature axis), and stores the [15, 3200] result one row at a time: row 3g+k of the result goes to
  lanes [3200 g, 3200 g + 3200) of output k.  Here: what each output's staging buffer holds afterwards, as the
  overlay of its five stores, and the body's triple.
-/
import proofs.«147603_j74036646248987_2_alg».proof.Proof.FrameKB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body loads and stores through -/

abbrev rX : Rect S1x16000 := Rect.unit (s := S1x16000) ![0, 0] S1x16000.size inb_S1x16000_S1x16000_0_0
abbrev rWin : Rect S250x15 := Rect.unit (s := S250x15) ![0, 0] S250x15.size inb_S250x15_S250x15_0_0
abbrev rBin : Rect S250x1 := Rect.unit (s := S250x1) ![0, 0] S250x1.size inb_S250x1_S250x1_0_0
abbrev rWout : Rect S15x250 := Rect.unit (s := S15x250) ![0, 0] S15x250.size inb_S15x250_S15x250_0_0
abbrev rBout : Rect S15x1 := Rect.unit (s := S15x1) ![0, 0] S15x1.size inb_S15x1_S15x1_0_0
abbrev rW0 : Rect S7x250x250 := Rect.unit (s := S7x250x250) ![0, 0, 0] S1x250x250.size inb_S7x250x250_S1x250x250_0_0_0
abbrev rB0 : Rect S7x250x1 := Rect.unit (s := S7x250x1) ![0, 0, 0] S1x250x1.size inb_S7x250x1_S1x250x1_0_0_0
abbrev rW1 : Rect S7x250x250 := Rect.unit (s := S7x250x250) ![1, 0, 0] S1x250x250.size inb_S7x250x250_S1x250x250_1_0_0
abbrev rB1 : Rect S7x250x1 := Rect.unit (s := S7x250x1) ![1, 0, 0] S1x250x1.size inb_S7x250x1_S1x250x1_1_0_0
abbrev rW2 : Rect S7x250x250 := Rect.unit (s := S7x250x250) ![2, 0, 0] S1x250x250.size inb_S7x250x250_S1x250x250_2_0_0
abbrev rB2 : Rect S7x250x1 := Rect.unit (s := S7x250x1) ![2, 0, 0] S1x250x1.size inb_S7x250x1_S1x250x1_2_0_0
abbrev rW3 : Rect S7x250x250 := Rect.unit (s := S7x250x250) ![3, 0, 0] S1x250x250.size inb_S7x250x250_S1x250x250_3_0_0
abbrev rB3 : Rect S7x250x1 := Rect.unit (s := S7x250x1) ![3, 0, 0] S1x250x1.size inb_S7x250x1_S1x250x1_3_0_0
abbrev rW4 : Rect S7x250x250 := Rect.unit (s := S7x250x250) ![4, 0, 0] S1x250x250.size inb_S7x250x250_S1x250x250_4_0_0
abbrev rB4 : Rect S7x250x1 := Rect.unit (s := S7x250x1) ![4, 0, 0] S1x250x1.size inb_S7x250x1_S1x250x1_4_0_0
abbrev rW5 : Rect S7x250x250 := Rect.unit (s := S7x250x250) ![5, 0, 0] S1x250x250.size inb_S7x250x250_S1x250x250_5_0_0
abbrev rB5 : Rect S7x250x1 := Rect.unit (s := S7x250x1) ![5, 0, 0] S1x250x1.size inb_S7x250x1_S1x250x1_5_0_0
abbrev rW6 : Rect S7x250x250 := Rect.unit (s := S7x250x250) ![6, 0, 0] S1x250x250.size inb_S7x250x250_S1x250x250_6_0_0
abbrev rB6 : Rect S7x250x1 := Rect.unit (s := S7x250x1) ![6, 0, 0] S1x250x1.size inb_S7x250x1_S1x250x1_6_0_0
abbrev rO0 : Rect S1x16000 := Rect.unit (s := S1x16000) ![0, 0] S1x3200.size inb_S1x16000_S1x3200_0_0
abbrev rO1 : Rect S1x16000 := Rect.unit (s := S1x16000) ![0, 3200] S1x3200.size inb_S1x16000_S1x3200_0_3200
abbrev rO2 : Rect S1x16000 := Rect.unit (s := S1x16000) ![0, 6400] S1x3200.size inb_S1x16000_S1x3200_0_6400
abbrev rO3 : Rect S1x16000 := Rect.unit (s := S1x16000) ![0, 9600] S1x3200.size inb_S1x16000_S1x3200_0_9600
abbrev rO4 : Rect S1x16000 := Rect.unit (s := S1x16000) ![0, 12800] S1x3200.size inb_S1x16000_S1x3200_0_12800

/-! ## The body's arithmetic over the input blocks -/

/-- The activation after the input layer and the first four hidden layers. -/
def act4 (x0 : Vec F S1x16000 .f32) (x1 : Vec F S1x16000 .f32) (x2 : Vec F S1x16000 .f32) (x3 : Vec F S250x15 .bf16) (x4 : Vec F S250x1 .f32) (x5 : Vec F S7x250x250 .bf16) (x6 : Vec F S7x250x1 .f32) (x7 : Vec F S15x250 .bf16) (x8 : Vec F S15x1 .f32) : FVec F S250x3200 .f32 :=
  k0_pay5 (k0_pay2 (View.ld x5 rW0)) (k0_pay3 (View.ld x6 rB0))
    (k0_pay4 (View.ld x0 rX) (View.ld x1 rX) (View.ld x2 rX) (View.ld x3 rWin) (View.ld x4 rBin))
    (constant S250x3200 .f32 0x00000000#32) (View.ld x5 rW1) (View.ld x6 rB1) (View.ld x5 rW2) (View.ld x6 rB2) (View.ld x5 rW3) (View.ld x6 rB3)

/-- The fifth hidden layer's weights as the body reads them. -/
def w4 (x0 : Vec F S1x16000 .f32) (x1 : Vec F S1x16000 .f32) (x2 : Vec F S1x16000 .f32) (x3 : Vec F S250x15 .bf16) (x4 : Vec F S250x1 .f32) (x5 : Vec F S7x250x250 .bf16) (x6 : Vec F S7x250x1 .f32) (x7 : Vec F S15x250 .bf16) (x8 : Vec F S15x1 .f32) : FVec F S250x250 .bf16 := k0_pay6 (View.ld x5 rW4)

/-- The [15, 3200] result of the last layer. -/
def res15 (x0 : Vec F S1x16000 .f32) (x1 : Vec F S1x16000 .f32) (x2 : Vec F S1x16000 .f32) (x3 : Vec F S250x15 .bf16) (x4 : Vec F S250x1 .f32) (x5 : Vec F S7x250x250 .bf16) (x6 : Vec F S7x250x1 .f32) (x7 : Vec F S15x250 .bf16) (x8 : Vec F S15x1 .f32) : FVec F S15x3200 .f32 :=
  k0_pay7 (act4 x0 x1 x2 x3 x4 x5 x6 x7 x8) (w4 x0 x1 x2 x3 x4 x5 x6 x7 x8) (View.ld x6 rB4) (View.ld x5 rW5) (View.ld x6 rB5) (View.ld x5 rW6) (View.ld x6 rB6) (View.ld x7 rWout) (View.ld x8 rBout)

/-- Output 0's staging buffer after the body: rows 0, 3, 6, 9, 12 of the result, group by group (last store first). -/
def out0_9 (x0 : Vec F S1x16000 .f32) (x1 : Vec F S1x16000 .f32) (x2 : Vec F S1x16000 .f32) (x3 : Vec F S250x15 .bf16) (x4 : Vec F S250x1 .f32) (x5 : Vec F S7x250x250 .bf16) (x6 : Vec F S7x250x1 .f32) (x7 : Vec F S15x250 .bf16) (x8 : Vec F S15x1 .f32) : Vec F S1x16000 .f32 :=
  View.canon [⟨rO4, k0_pay20 (res15 x0 x1 x2 x3 x4 x5 x6 x7 x8)⟩, ⟨rO3, k0_pay17 (res15 x0 x1 x2 x3 x4 x5 x6 x7 x8)⟩, ⟨rO2, k0_pay14 (res15 x0 x1 x2 x3 x4 x5 x6 x7 x8)⟩, ⟨rO1, k0_pay11 (res15 x0 x1 x2 x3 x4 x5 x6 x7 x8)⟩,
    ⟨rO0, k0_pay8 (act4 x0 x1 x2 x3 x4 x5 x6 x7 x8) (w4 x0 x1 x2 x3 x4 x5 x6 x7 x8) (View.ld x6 rB4) (View.ld x5 rW5) (View.ld x6 rB5) (View.ld x5 rW6) (View.ld x6 rB6) (View.ld x7 rWout) (View.ld x8 rBout)⟩]
/-- Output 1's: rows 1, 4, 7, 10, 13. -/
def out0_10 (x0 : Vec F S1x16000 .f32) (x1 : Vec F S1x16000 .f32) (x2 : Vec F S1x16000 .f32) (x3 : Vec F S250x15 .bf16) (x4 : Vec F S250x1 .f32) (x5 : Vec F S7x250x250 .bf16) (x6 : Vec F S7x250x1 .f32) (x7 : Vec F S15x250 .bf16) (x8 : Vec F S15x1 .f32) : Vec F S1x16000 .f32 :=
  View.canon [⟨rO4, k0_pay21 (res15 x0 x1 x2 x3 x4 x5 x6 x7 x8)⟩, ⟨rO3, k0_pay18 (res15 x0 x1 x2 x3 x4 x5 x6 x7 x8)⟩, ⟨rO2, k0_pay15 (res15 x0 x1 x2 x3 x4 x5 x6 x7 x8)⟩, ⟨rO1, k0_pay12 (res15 x0 x1 x2 x3 x4 x5 x6 x7 x8)⟩,
    ⟨rO0, k0_pay9 (act4 x0 x1 x2 x3 x4 x5 x6 x7 x8) (w4 x0 x1 x2 x3 x4 x5 x6 x7 x8) (View.ld x6 rB4) (View.ld x5 rW5) (View.ld x6 rB5) (View.ld x5 rW6) (View.ld x6 rB6) (View.ld x7 rWout) (View.ld x8 rBout)⟩]
/-- Output 2's: rows 2, 5, 8, 11, 14. -/
def out0_11 (x0 : Vec F S1x16000 .f32) (x1 : Vec F S1x16000 .f32) (x2 : Vec F S1x16000 .f32) (x3 : Vec F S250x15 .bf16) (x4 : Vec F S250x1 .f32) (x5 : Vec F S7x250x250 .bf16) (x6 : Vec F S7x250x1 .f32) (x7 : Vec F S15x250 .bf16) (x8 : Vec F S15x1 .f32) : Vec F S1x16000 .f32 :=
  View.canon [⟨rO4, k0_pay1 (res15 x0 x1 x2 x3 x4 x5 x6 x7 x8)⟩, ⟨rO3, k0_pay19 (res15 x0 x1 x2 x3 x4 x5 x6 x7 x8)⟩, ⟨rO2, k0_pay16 (res15 x0 x1 x2 x3 x4 x5 x6 x7 x8)⟩, ⟨rO1, k0_pay13 (res15 x0 x1 x2 x3 x4 x5 x6 x7 x8)⟩,
    ⟨rO0, k0_pay10 (res15 x0 x1 x2 x3 x4 x5 x6 x7 x8)⟩]

/-- Five stores of 3200 lanes at lane offsets 0, 3200, …, 12800 tile a 16000-lane row. -/
theorem cover_out (p0 p1 p2 p3 p4 : Vec F S1x3200 .f32) (y : S1x16000.Idx) :
    ∃ pc ∈ ([⟨rO4, p4⟩, ⟨rO3, p3⟩, ⟨rO2, p2⟩, ⟨rO1, p1⟩, ⟨rO0, p0⟩] : List (View.Piece (Elt F) S1x16000 .f32)), y ∈ pc.1.set :=
  View.cover_of_tiled [⟨rO4, p4⟩, ⟨rO3, p3⟩, ⟨rO2, p2⟩, ⟨rO1, p1⟩, ⟨rO0, p0⟩] S1x3200.size (by rfl) y

/-! ## The body's triple -/

set_option maxHeartbeats 4000000 in
/-- On whole staging memrefs, the inputs' at contents reading `xW` and the outputs' at anything, the body runs to
    its continuation with the inputs as they were and each output's buffer reading `out0_W` of the inputs. -/
theorem sound_kernel (c : Dev nD) (E : Set ℕ) (i : grid0.Coords) (arg1 : Memref sig .tc .vmem S1x16000 .f32) (harg1 : arg1.IsWhole) (arg2 : Memref sig .tc .vmem S1x16000 .f32) (harg2 : arg2.IsWhole) (arg3 : Memref sig .tc .vmem S1x16000 .f32) (harg3 : arg3.IsWhole) (arg4 : Memref sig .tc .vmem S250x15 .bf16) (harg4 : arg4.IsWhole) (arg5 : Memref sig .tc .vmem S250x1 .f32) (harg5 : arg5.IsWhole) (arg6 : Memref sig .tc .vmem S7x250x250 .bf16) (harg6 : arg6.IsWhole) (arg7 : Memref sig .tc .vmem S7x250x1 .f32) (harg7 : arg7.IsWhole) (arg8 : Memref sig .tc .vmem S15x250 .bf16) (harg8 : arg8.IsWhole) (arg9 : Memref sig .tc .vmem S15x1 .f32) (harg9 : arg9.IsWhole) (arg10 : Memref sig .tc .vmem S1x16000 .f32) (harg10 : arg10.IsWhole) (arg11 : Memref sig .tc .vmem S1x16000 .f32) (harg11 : arg11.IsWhole) (arg12 : Memref sig .tc .vmem S1x16000 .f32) (harg12 : arg12.IsWhole)
    (x0 : Vec F S1x16000 .f32) (x1 : Vec F S1x16000 .f32) (x2 : Vec F S1x16000 .f32) (x3 : Vec F S250x15 .bf16) (x4 : Vec F S250x1 .f32) (x5 : Vec F S7x250x250 .bf16) (x6 : Vec F S7x250x1 .f32) (x7 : Vec F S15x250 .bf16) (x8 : Vec F S15x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (out0_9 x0 x1 x2 x3 x4 x5 x6 x7 x8) ∗ owns (c : Thread nD τ) arg11 fullShare (out0_10 x0 x1 x2 x3 x4 x5 x6 x7 x8) ∗ owns (c : Thread nD τ) arg12 fullShare (out0_11 x0 x1 x2 x3 x4 x5 x6 x7 x8)) -∗ K ⟨⟩))
      ⊢ wp frame (wpE (defs₀ (F := F)) Variants.none c none) E (cc0_kernel i arg1 harg1 arg2 harg2 arg3 harg3 arg4 harg4 arg5 harg5 arg6 harg6 arg7 harg7 arg8 harg8 arg9 harg9 arg10 harg10 arg11 harg11 arg12 harg12) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (cover_out _ _ _ _ _)
  isplitl [H10]
  · iexists _; isplitr
    swap; · iexact H10
    ipureintro
    exact View.read_writes_eq_canon _ _ _ (cover_out _ _ _ _ _)
  · iexists _; isplitr
    swap; · iexact H11
    ipureintro
    exact View.read_writes_eq_canon _ _ _ (cover_out _ _ _ _ _)

end Cert.Kernel.Hand

end
-- ==== Proof.RunKB.lean ====
/-
  The proof data of the one pipeline of `Kernel`, the body obligation at every grid point, the run of @main and the
  frame.  After the body at point `t` an input's staging buffer holds its block there and an output's holds the
  overlay of the body's five stores computed from the nine input blocks at `t`.
-/
import proofs.«147603_j74036646248987_2_alg».proof.Proof.BodyKB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data on core `c`: the arrays as the region finds them; what the body leaves in each staging buffer;
    the invariant is the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out0_9 (iblk m c 0 t) (iblk m c 1 t) (iblk m c 2 t) (iblk m c 3 t) (iblk m c 4 t) (iblk m c 5 t) (iblk m c 6 t) (iblk m c 7 t) (iblk m c 8 t)
    | ⟨10, _⟩ => out0_10 (iblk m c 0 t) (iblk m c 1 t) (iblk m c 2 t) (iblk m c 3 t) (iblk m c 4 t) (iblk m c 5 t) (iblk m c 6 t) (iblk m c 7 t) (iblk m c 8 t)
    | ⟨11, _⟩ => out0_11 (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = out0_9 (iblk m c 0 t) (iblk m c 1 t) (iblk m c 2 t) (iblk m c 3 t) (iblk m c 4 t) (iblk m c 5 t) (iblk m c 6 t) (iblk m c 7 t) (iblk m c 8 t) := by dsimp only [dats]
theorem after0_10 (c : Dev nD) (t : Fin cfg0.N) : (dats m 0 c).after 10 t = out0_10 (iblk m c 0 t) (iblk m c 1 t) (iblk m c 2 t) (iblk m c 3 t) (iblk m c 4 t) (iblk m c 5 t) (iblk m c 6 t) (iblk m c 7 t) (iblk m c 8 t) := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) (iblk m c 8 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

/-- The body at any point: the inputs' staging buffers hold their blocks, so the body's triple applies; the invariant
    and the core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of @main terminates; afterwards every array of the pipeline holds what the library
    computes from the proof data and every other unscoped buffer what the three reshapes after the region leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main terminates without a fault and leaves its nine argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.Kernel.Hand

end
-- ==== Proof.FrameKI.lean ====
/-
  The launch side of the frame of `KernelIdeal`, at any float instance: @main is a prefix of host operations that build the
  block-diagonal weights and tiled biases, one region over 125 grid points, and three reshapes after it.  Here: the
  contents of every device buffer when the region is entered (`V`), that no host operation writes an argument array,
  each window's block at a grid point, that an input window's staging buffer holds that block at every point, and the
  frame claim's post read off a run whose post names every buffer.
-/
import proofs.«147603_j74036646248987_2_alg».proof.Defs
import proofs.«147603_j74036646248987_2_alg».proof.Proof.Gen.KernelIdeal.Launch
import proofs.«147603_j74036646248987_2_alg».proof.Proof.Gen.KernelIdeal.Skeleton
import proofs.«147603_j74036646248987_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The host operations before the region, stretch by stretch. -/
abbrev prefixOps : List (List (HloOp τ sig (Elt F))) := [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18]

/-- Core `c`'s device buffers when the region is entered: the launch contents run through the host prefix. -/
abbrev V0 (c : Dev nD) : Valuation τ sig (Elt F) := StableHlo.after (List.flatten (prefixOps (F := F))) (fun b => m (c, b))
/-- The same, read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is its host prefix, the region, and the three reshapes after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main prefixOps [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh⟩) main_chain

/-- The reshapes after the region touch the pipeline's arrays and buffers that bypass the region only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- Each writes its own result buffer, which is no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

/-- No host operation before the region writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does a reshape after it: argument 0 ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does a reshape after it: argument 1 ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does a reshape after it: argument 2 ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does a reshape after it: argument 3 ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the region writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does a reshape after it: argument 4 ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation before the region writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does a reshape after it: argument 5 ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host operation before the region writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does a reshape after it: argument 6 ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host operation before the region writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does a reshape after it: argument 7 ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- No host operation before the region writes argument 8. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Nor does a reshape after it: argument 8 ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether fetched there or kept from the
    point before (its block index has then not moved). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether fetched there or kept from the
    point before (its block index has then not moved). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, whether fetched there or kept from the
    point before (its block index has then not moved). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, whether fetched there or kept from the
    point before (its block index has then not moved). -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, whether fetched there or kept from the
    point before (its block index has then not moved). -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, whether fetched there or kept from the
    point before (its block index has then not moved). -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, whether fetched there or kept from the
    point before (its block index has then not moved). -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, whether fetched there or kept from the
    point before (its block index has then not moved). -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current staging buffer holds its block at every point, whether fetched there or kept from the
    point before (its block index has then not moved). -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run that names every buffer -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c),
    ((h c).2 main_arg8 (Pipeline.mem_restRefs_of main_arg8 (by decide) (by decide))).trans (W_main_arg8 m dats c)⟩) h

end Cert.KernelIdeal.Hand

end
-- ==== Proof.BodyKI.lean ====
/-
  The kernel body of `KernelIdeal` at one grid point, at any float instance.  The body reads the three coordinate
  blocks and the six weight and bias blocks, runs the nine layers on a [250, 3200] activation (five row groups
  stacked along the feature axis), and stores the [15, 3200] result one row at a time: row 3g+k of the result goes to
  lanes [3200 g, 3200 g + 3200) of output k.  Here: what each output's staging buffer holds afterwards, as the
  overlay of its five stores, and the body's triple.
-/
import proofs.«147603_j74036646248987_2_alg».proof.Proof.FrameKI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body loads and stores through -/

abbrev rX : Rect S1x16000 := Rect.unit (s := S1x16000) ![0, 0] S1x16000.size inb_S1x16000_S1x16000_0_0
abbrev rWin : Rect S250x15 := Rect.unit (s := S250x15) ![0, 0] S250x15.size inb_S250x15_S250x15_0_0
abbrev rBin : Rect S250x1 := Rect.unit (s := S250x1) ![0, 0] S250x1.size inb_S250x1_S250x1_0_0
abbrev rWout : Rect S15x250 := Rect.unit (s := S15x250) ![0, 0] S15x250.size inb_S15x250_S15x250_0_0
abbrev rBout : Rect S15x1 := Rect.unit (s := S15x1) ![0, 0] S15x1.size inb_S15x1_S15x1_0_0
abbrev rW0 : Rect S7x250x250 := Rect.unit (s := S7x250x250) ![0, 0, 0] S1x250x250.size inb_S7x250x250_S1x250x250_0_0_0
abbrev rB0 : Rect S7x250x1 := Rect.unit (s := S7x250x1) ![0, 0, 0] S1x250x1.size inb_S7x250x1_S1x250x1_0_0_0
abbrev rW1 : Rect S7x250x250 := Rect.unit (s := S7x250x250) ![1, 0, 0] S1x250x250.size inb_S7x250x250_S1x250x250_1_0_0
abbrev rB1 : Rect S7x250x1 := Rect.unit (s := S7x250x1) ![1, 0, 0] S1x250x1.size inb_S7x250x1_S1x250x1_1_0_0
abbrev rW2 : Rect S7x250x250 := Rect.unit (s := S7x250x250) ![2, 0, 0] S1x250x250.size inb_S7x250x250_S1x250x250_2_0_0
abbrev rB2 : Rect S7x250x1 := Rect.unit (s := S7x250x1) ![2, 0, 0] S1x250x1.size inb_S7x250x1_S1x250x1_2_0_0
abbrev rW3 : Rect S7x250x250 := Rect.unit (s := S7x250x250) ![3, 0, 0] S1x250x250.size inb_S7x250x250_S1x250x250_3_0_0
abbrev rB3 : Rect S7x250x1 := Rect.unit (s := S7x250x1) ![3, 0, 0] S1x250x1.size inb_S7x250x1_S1x250x1_3_0_0
abbrev rW4 : Rect S7x250x250 := Rect.unit (s := S7x250x250) ![4, 0, 0] S1x250x250.size inb_S7x250x250_S1x250x250_4_0_0
abbrev rB4 : Rect S7x250x1 := Rect.unit (s := S7x250x1) ![4, 0, 0] S1x250x1.size inb_S7x250x1_S1x250x1_4_0_0
abbrev rW5 : Rect S7x250x250 := Rect.unit (s := S7x250x250) ![5, 0, 0] S1x250x250.size inb_S7x250x250_S1x250x250_5_0_0
abbrev rB5 : Rect S7x250x1 := Rect.unit (s := S7x250x1) ![5, 0, 0] S1x250x1.size inb_S7x250x1_S1x250x1_5_0_0
abbrev rW6 : Rect S7x250x250 := Rect.unit (s := S7x250x250) ![6, 0, 0] S1x250x250.size inb_S7x250x250_S1x250x250_6_0_0
abbrev rB6 : Rect S7x250x1 := Rect.unit (s := S7x250x1) ![6, 0, 0] S1x250x1.size inb_S7x250x1_S1x250x1_6_0_0
abbrev rO0 : Rect S1x16000 := Rect.unit (s := S1x16000) ![0, 0] S1x3200.size inb_S1x16000_S1x3200_0_0
abbrev rO1 : Rect S1x16000 := Rect.unit (s := S1x16000) ![0, 3200] S1x3200.size inb_S1x16000_S1x3200_0_3200
abbrev rO2 : Rect S1x16000 := Rect.unit (s := S1x16000) ![0, 6400] S1x3200.size inb_S1x16000_S1x3200_0_6400
abbrev rO3 : Rect S1x16000 := Rect.unit (s := S1x16000) ![0, 9600] S1x3200.size inb_S1x16000_S1x3200_0_9600
abbrev rO4 : Rect S1x16000 := Rect.unit (s := S1x16000) ![0, 12800] S1x3200.size inb_S1x16000_S1x3200_0_12800

/-! ## The body's arithmetic over the input blocks -/

/-- The activation after the input layer and the first four hidden layers. -/
def act4 (x0 : Vec F S1x16000 .f32) (x1 : Vec F S1x16000 .f32) (x2 : Vec F S1x16000 .f32) (x3 : Vec F S250x15 .bf16) (x4 : Vec F S250x1 .f32) (x5 : Vec F S7x250x250 .bf16) (x6 : Vec F S7x250x1 .f32) (x7 : Vec F S15x250 .bf16) (x8 : Vec F S15x1 .f32) : FVec F S250x3200 .f32 :=
  k0_pay5 (k0_pay2 (View.ld x5 rW0)) (k0_pay3 (View.ld x6 rB0))
    (k0_pay4 (View.ld x0 rX) (View.ld x1 rX) (View.ld x2 rX) (View.ld x3 rWin) (View.ld x4 rBin))
    (constant S250x3200 .f32 0x00000000#32) (View.ld x5 rW1) (View.ld x6 rB1) (View.ld x5 rW2) (View.ld x6 rB2) (View.ld x5 rW3) (View.ld x6 rB3)

/-- The fifth hidden layer's weights as the body reads them. -/
def w4 (x0 : Vec F S1x16000 .f32) (x1 : Vec F S1x16000 .f32) (x2 : Vec F S1x16000 .f32) (x3 : Vec F S250x15 .bf16) (x4 : Vec F S250x1 .f32) (x5 : Vec F S7x250x250 .bf16) (x6 : Vec F S7x250x1 .f32) (x7 : Vec F S15x250 .bf16) (x8 : Vec F S15x1 .f32) : FVec F S250x250 .bf16 := k0_pay6 (View.ld x5 rW4)

/-- The [15, 3200] result of the last layer. -/
def res15 (x0 : Vec F S1x16000 .f32) (x1 : Vec F S1x16000 .f32) (x2 : Vec F S1x16000 .f32) (x3 : Vec F S250x15 .bf16) (x4 : Vec F S250x1 .f32) (x5 : Vec F S7x250x250 .bf16) (x6 : Vec F S7x250x1 .f32) (x7 : Vec F S15x250 .bf16) (x8 : Vec F S15x1 .f32) : FVec F S15x3200 .f32 :=
  k0_pay7 (act4 x0 x1 x2 x3 x4 x5 x6 x7 x8) (w4 x0 x1 x2 x3 x4 x5 x6 x7 x8) (View.ld x6 rB4) (View.ld x5 rW5) (View.ld x6 rB5) (View.ld x5 rW6) (View.ld x6 rB6) (View.ld x7 rWout) (View.ld x8 rBout)

/-- Output 0's staging buffer after the body: rows 0, 3, 6, 9, 12 of the result, group by group (last store first). -/
def out0_9 (x0 : Vec F S1x16000 .f32) (x1 : Vec F S1x16000 .f32) (x2 : Vec F S1x16000 .f32) (x3 : Vec F S250x15 .bf16) (x4 : Vec F S250x1 .f32) (x5 : Vec F S7x250x250 .bf16) (x6 : Vec F S7x250x1 .f32) (x7 : Vec F S15x250 .bf16) (x8 : Vec F S15x1 .f32) : Vec F S1x16000 .f32 :=
  View.canon [⟨rO4, k0_pay20 (res15 x0 x1 x2 x3 x4 x5 x6 x7 x8)⟩, ⟨rO3, k0_pay17 (res15 x0 x1 x2 x3 x4 x5 x6 x7 x8)⟩, ⟨rO2, k0_pay14 (res15 x0 x1 x2 x3 x4 x5 x6 x7 x8)⟩, ⟨rO1, k0_pay11 (res15 x0 x1 x2 x3 x4 x5 x6 x7 x8)⟩,
    ⟨rO0, k0_pay8 (act4 x0 x1 x2 x3 x4 x5 x6 x7 x8) (w4 x0 x1 x2 x3 x4 x5 x6 x7 x8) (View.ld x6 rB4) (View.ld x5 rW5) (View.ld x6 rB5) (View.ld x5 rW6) (View.ld x6 rB6) (View.ld x7 rWout) (View.ld x8 rBout)⟩]
/-- Output 1's: rows 1, 4, 7, 10, 13. -/
def out0_10 (x0 : Vec F S1x16000 .f32) (x1 : Vec F S1x16000 .f32) (x2 : Vec F S1x16000 .f32) (x3 : Vec F S250x15 .bf16) (x4 : Vec F S250x1 .f32) (x5 : Vec F S7x250x250 .bf16) (x6 : Vec F S7x250x1 .f32) (x7 : Vec F S15x250 .bf16) (x8 : Vec F S15x1 .f32) : Vec F S1x16000 .f32 :=
  View.canon [⟨rO4, k0_pay21 (res15 x0 x1 x2 x3 x4 x5 x6 x7 x8)⟩, ⟨rO3, k0_pay18 (res15 x0 x1 x2 x3 x4 x5 x6 x7 x8)⟩, ⟨rO2, k0_pay15 (res15 x0 x1 x2 x3 x4 x5 x6 x7 x8)⟩, ⟨rO1, k0_pay12 (res15 x0 x1 x2 x3 x4 x5 x6 x7 x8)⟩,
    ⟨rO0, k0_pay9 (act4 x0 x1 x2 x3 x4 x5 x6 x7 x8) (w4 x0 x1 x2 x3 x4 x5 x6 x7 x8) (View.ld x6 rB4) (View.ld x5 rW5) (View.ld x6 rB5) (View.ld x5 rW6) (View.ld x6 rB6) (View.ld x7 rWout) (View.ld x8 rBout)⟩]
/-- Output 2's: rows 2, 5, 8, 11, 14. -/
def out0_11 (x0 : Vec F S1x16000 .f32) (x1 : Vec F S1x16000 .f32) (x2 : Vec F S1x16000 .f32) (x3 : Vec F S250x15 .bf16) (x4 : Vec F S250x1 .f32) (x5 : Vec F S7x250x250 .bf16) (x6 : Vec F S7x250x1 .f32) (x7 : Vec F S15x250 .bf16) (x8 : Vec F S15x1 .f32) : Vec F S1x16000 .f32 :=
  View.canon [⟨rO4, k0_pay1 (res15 x0 x1 x2 x3 x4 x5 x6 x7 x8)⟩, ⟨rO3, k0_pay19 (res15 x0 x1 x2 x3 x4 x5 x6 x7 x8)⟩, ⟨rO2, k0_pay16 (res15 x0 x1 x2 x3 x4 x5 x6 x7 x8)⟩, ⟨rO1, k0_pay13 (res15 x0 x1 x2 x3 x4 x5 x6 x7 x8)⟩,
    ⟨rO0, k0_pay10 (res15 x0 x1 x2 x3 x4 x5 x6 x7 x8)⟩]

/-- Five stores of 3200 lanes at lane offsets 0, 3200, …, 12800 tile a 16000-lane row. -/
theorem cover_out (p0 p1 p2 p3 p4 : Vec F S1x3200 .f32) (y : S1x16000.Idx) :
    ∃ pc ∈ ([⟨rO4, p4⟩, ⟨rO3, p3⟩, ⟨rO2, p2⟩, ⟨rO1, p1⟩, ⟨rO0, p0⟩] : List (View.Piece (Elt F) S1x16000 .f32)), y ∈ pc.1.set :=
  View.cover_of_tiled [⟨rO4, p4⟩, ⟨rO3, p3⟩, ⟨rO2, p2⟩, ⟨rO1, p1⟩, ⟨rO0, p0⟩] S1x3200.size (by rfl) y

/-! ## The body's triple -/

set_option maxHeartbeats 4000000 in
/-- On whole staging memrefs, the inputs' at contents reading `xW` and the outputs' at anything, the body runs to
    its continuation with the inputs as they were and each output's buffer reading `out0_W` of the inputs. -/
theorem sound_kernel (c : Dev nD) (E : Set ℕ) (i : grid0.Coords) (arg1 : Memref sig .tc .vmem S1x16000 .f32) (harg1 : arg1.IsWhole) (arg2 : Memref sig .tc .vmem S1x16000 .f32) (harg2 : arg2.IsWhole) (arg3 : Memref sig .tc .vmem S1x16000 .f32) (harg3 : arg3.IsWhole) (arg4 : Memref sig .tc .vmem S250x15 .bf16) (harg4 : arg4.IsWhole) (arg5 : Memref sig .tc .vmem S250x1 .f32) (harg5 : arg5.IsWhole) (arg6 : Memref sig .tc .vmem S7x250x250 .bf16) (harg6 : arg6.IsWhole) (arg7 : Memref sig .tc .vmem S7x250x1 .f32) (harg7 : arg7.IsWhole) (arg8 : Memref sig .tc .vmem S15x250 .bf16) (harg8 : arg8.IsWhole) (arg9 : Memref sig .tc .vmem S15x1 .f32) (harg9 : arg9.IsWhole) (arg10 : Memref sig .tc .vmem S1x16000 .f32) (harg10 : arg10.IsWhole) (arg11 : Memref sig .tc .vmem S1x16000 .f32) (harg11 : arg11.IsWhole) (arg12 : Memref sig .tc .vmem S1x16000 .f32) (harg12 : arg12.IsWhole)
    (x0 : Vec F S1x16000 .f32) (x1 : Vec F S1x16000 .f32) (x2 : Vec F S1x16000 .f32) (x3 : Vec F S250x15 .bf16) (x4 : Vec F S250x1 .f32) (x5 : Vec F S7x250x250 .bf16) (x6 : Vec F S7x250x1 .f32) (x7 : Vec F S15x250 .bf16) (x8 : Vec F S15x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (out0_9 x0 x1 x2 x3 x4 x5 x6 x7 x8) ∗ owns (c : Thread nD τ) arg11 fullShare (out0_10 x0 x1 x2 x3 x4 x5 x6 x7 x8) ∗ owns (c : Thread nD τ) arg12 fullShare (out0_11 x0 x1 x2 x3 x4 x5 x6 x7 x8)) -∗ K ⟨⟩))
      ⊢ wp frame (wpE (defs₀ (F := F)) Variants.none c none) E (cc0_kernel i arg1 harg1 arg2 harg2 arg3 harg3 arg4 harg4 arg5 harg5 arg6 harg6 arg7 harg7 arg8 harg8 arg9 harg9 arg10 harg10 arg11 harg11 arg12 harg12) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (cover_out _ _ _ _ _)
  isplitl [H10]
  · iexists _; isplitr
    swap; · iexact H10
    ipureintro
    exact View.read_writes_eq_canon _ _ _ (cover_out _ _ _ _ _)
  · iexists _; isplitr
    swap; · iexact H11
    ipureintro
    exact View.read_writes_eq_canon _ _ _ (cover_out _ _ _ _ _)

end Cert.KernelIdeal.Hand

end
-- ==== Proof.RunKI.lean ====
/-
  The proof data of the one pipeline of `KernelIdeal`, the body obligation at every grid point, the run of @main and the
  frame.  After the body at point `t` an input's staging buffer holds its block there and an output's holds the
  overlay of the body's five stores computed from the nine input blocks at `t`.
-/
import proofs.«147603_j74036646248987_2_alg».proof.Proof.BodyKI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data on core `c`: the arrays as the region finds them; what the body leaves in each staging buffer;
    the invariant is the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out0_9 (iblk m c 0 t) (iblk m c 1 t) (iblk m c 2 t) (iblk m c 3 t) (iblk m c 4 t) (iblk m c 5 t) (iblk m c 6 t) (iblk m c 7 t) (iblk m c 8 t)
    | ⟨10, _⟩ => out0_10 (iblk m c 0 t) (iblk m c 1 t) (iblk m c 2 t) (iblk m c 3 t) (iblk m c 4 t) (iblk m c 5 t) (iblk m c 6 t) (iblk m c 7 t) (iblk m c 8 t)
    | ⟨11, _⟩ => out0_11 (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = out0_9 (iblk m c 0 t) (iblk m c 1 t) (iblk m c 2 t) (iblk m c 3 t) (iblk m c 4 t) (iblk m c 5 t) (iblk m c 6 t) (iblk m c 7 t) (iblk m c 8 t) := by dsimp only [dats]
theorem after0_10 (c : Dev nD) (t : Fin cfg0.N) : (dats m 0 c).after 10 t = out0_10 (iblk m c 0 t) (iblk m c 1 t) (iblk m c 2 t) (iblk m c 3 t) (iblk m c 4 t) (iblk m c 5 t) (iblk m c 6 t) (iblk m c 7 t) (iblk m c 8 t) := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) (iblk m c 8 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

/-- The body at any point: the inputs' staging buffers hold their blocks, so the body's triple applies; the invariant
    and the core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of @main terminates; afterwards every array of the pipeline holds what the library
    computes from the proof data and every other unscoped buffer what the three reshapes after the region leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main terminates without a fault and leaves its nine argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.KernelIdeal.Hand

end
-- ==== Proof.Spec.lean ====
/-
  The network both programs compute, on the extended reals, and the one law that joins them.

  A layer is affine: entry `a` of `h · W + b` is `(∑ k, h k * W k a) + b a`; a hidden layer takes `tanh` of it.  The
  reference applies nine such layers to each row `(x n, y n, z n)`.  The kernel stacks five rows' activations along
  the feature axis and multiplies by the block-diagonal matrix `kron (eye 5) Wᵀ`.  In a row of that matrix only the
  entries of one diagonal block are not `0 * w`, and `0 * w = 0` for every extended real `w`, so the sum over the
  stacked axis is the sum over that block (`sum_blockdiag`).  No distributivity and no cancellation is used: the
  law holds at the infinities too.
-/
import Idealize.ShloMosaic.PureOps.Ideal
import Idealize.ShloMosaic.Lib.ValueIdx

noncomputable section

open scoped BigOperators

namespace Cert.Mlp

open Idealize.ShloMosaic

/-- An entry of the identity matrix. -/
def dlt {G : ℕ} (g g' : Fin G) : EReal := if g = g' then 1 else 0

theorem dlt_self {G : ℕ} (g : Fin G) : dlt g g = 1 := if_pos rfl
theorem dlt_ne {G : ℕ} {g g' : Fin G} (h : g ≠ g') : dlt g g' = 0 := if_neg h

/-- Entry `a` of `h · W + b`. -/
def affine {K N : ℕ} (W : Fin K → Fin N → EReal) (b : Fin N → EReal) (h : Fin K → EReal) (a : Fin N) : EReal :=
  (∑ k, h k * W k a) + b a

/-- A hidden layer: `tanh` of the affine layer. -/
def hidden {K N : ℕ} (W : Fin K → Fin N → EReal) (b : Fin N → EReal) (h : Fin K → EReal) (a : Fin N) : EReal :=
  Ideal.tanh (affine W b h a)

/-- The network on one row `u = (x, y, z)`: the input layer, seven hidden layers, the output layer. -/
def net (Win : Fin 3 → Fin 50 → EReal) (bin : Fin 50 → EReal) (Wm : Fin 7 → Fin 50 → Fin 50 → EReal)
    (bm : Fin 7 → Fin 50 → EReal) (Wo : Fin 50 → Fin 3 → EReal) (bo : Fin 3 → EReal) (u : Fin 3 → EReal) : Fin 3 → EReal :=
  affine Wo bo (hidden (Wm 6) (bm 6) (hidden (Wm 5) (bm 5) (hidden (Wm 4) (bm 4) (hidden (Wm 3) (bm 3)
    (hidden (Wm 2) (bm 2) (hidden (Wm 1) (bm 1) (hidden (Wm 0) (bm 0) (hidden Win bin u))))))))

/-- Coordinate `k` of three. -/
def sel3 {α : Type} (k : Fin 3) (a b c : α) : α := match k with | ⟨0, _⟩ => a | ⟨1, _⟩ => b | ⟨2, _⟩ => c

open Idealize.ShloMosaic.ValueIdx in
/-- Output `k` of the network on every row of the nine argument arrays: what both programs return, as a column [N, 1]. -/
def rowOut (A0 A1 A2 : (⟨2, ![2000000, 1]⟩ : Shape).Idx → EReal) (A3 : (⟨2, ![3, 50]⟩ : Shape).Idx → EReal) (A4 : (⟨1, ![50]⟩ : Shape).Idx → EReal)
    (A5 : (⟨3, ![7, 50, 50]⟩ : Shape).Idx → EReal) (A6 : (⟨2, ![7, 50]⟩ : Shape).Idx → EReal) (A7 : (⟨2, ![50, 3]⟩ : Shape).Idx → EReal)
    (A8 : (⟨1, ![3]⟩ : Shape).Idx → EReal) (k : Fin 3) : (⟨2, ![2000000, 1]⟩ : Shape).Idx → EReal := fun i =>
  net (fun k a => A3 (ix2 k a)) (fun a => A4 (ix1 a)) (fun l b a => A5 (ix3 l b a)) (fun l a => A6 (ix2 l a)) (fun a k => A7 (ix2 a k))
    (fun k => A8 (ix1 k)) (fun k' => sel3 k' A0 A1 A2 (ix2 (i 0) (0 : Fin 1))) k

/-- The stacked axis of `G` groups of `n` features: position `b + n * g`. -/
abbrev stack (G n : ℕ) : Fin G × Fin n ≃ Fin (G * n) := finProdFinEquiv

theorem stack_val (G n : ℕ) (g : Fin G) (b : Fin n) : (stack G n (g, b)).val = b.val + n * g.val := rfl

/-- Five groups of fifty features stacked: position `a + 50 * g`. -/
def st50 : Fin 5 × Fin 50 ≃ Fin 250 := finProdFinEquiv
theorem st50_val (g : Fin 5) (a : Fin 50) : (st50 (g, a)).val = a.val + 50 * g.val := rfl
/-- Five groups of three coordinates stacked: position `k + 3 * g`. -/
def st3 : Fin 5 × Fin 3 ≃ Fin 15 := finProdFinEquiv
theorem st3_val (g : Fin 5) (k : Fin 3) : (st3 (g, k)).val = k.val + 3 * g.val := rfl

/-- A row of a block-diagonal matrix against a stacked vector: only the row's own block contributes. -/
theorem sum_blockdiag {G n N : ℕ} (e : Fin G × Fin n ≃ Fin N) (g : Fin G) (w : Fin n → EReal) (W h : Fin N → EReal)
    (hW : ∀ (g' : Fin G) (b : Fin n), W (e (g', b)) = dlt g g' * w b) :
    ∑ s, W s * h s = ∑ b, w b * h (e (g, b)) := by
  rw [← Equiv.sum_comp e, Fintype.sum_prod_type, Finset.sum_eq_single g]
  · refine Finset.sum_congr rfl fun b _ => ?_
    rw [hW, dlt_self, one_mul]
  · intro g' _ hne
    refine Finset.sum_eq_zero fun b _ => ?_
    rw [hW, dlt_ne (Ne.symm hne), zero_mul, zero_mul]
  · intro h; exact absurd (Finset.mem_univ g) h

/-- The kernel's form of an affine layer on the stacked axis is the reference's on the group's own features. -/
theorem affine_blockdiag {G n k N K : ℕ} (eo : Fin G × Fin n ≃ Fin N) (ei : Fin G × Fin k ≃ Fin K) (g : Fin G) (a : Fin n)
    (W : Fin k → Fin n → EReal) (b : Fin n → EReal) (Wbd : Fin N → Fin K → EReal) (bbd : Fin N → EReal) (h : Fin K → EReal)
    (hW : ∀ (g' : Fin G) (c : Fin k), Wbd (eo (g, a)) (ei (g', c)) = dlt g g' * W c a) (hb : bbd (eo (g, a)) = b a) :
    (∑ s, Wbd (eo (g, a)) s * h s) + bbd (eo (g, a)) = affine W b (fun c => h (ei (g, c))) a := by
  unfold affine
  rw [sum_blockdiag ei g (fun c => W c a) (Wbd (eo (g, a))) h hW, hb]
  exact congrArg (· + b a) (Finset.sum_congr rfl fun c _ => mul_comm _ _)

end Cert.Mlp

end
-- ==== Proof.LibLayout.lean ====
/-
  Keepdims column and row forms, for any element type and any extents.

  Read at coordinates: a vector [a] laid out as a column [a, 1] by a cast, and a column [a, 1] repeated along a second
  axis to [a, b] by a broadcast, both read, at (p, ·), the entry p of what they were given.
  As arrays: a vector cast to a column [a, 1] (to a row [1, a]) is the same array as the vector broadcast along a new
  trailing (leading) unit axis — the two ways a program may spell keepdims.
-/
import Idealize.ShloMosaic.Lib.Pipeline.Value
import Idealize.ShloMosaic.Lib.ValueIdx
import Idealize.ShloMosaic.Lib.ValueLayout

namespace Cert.Layout

open Idealize.ShloMosaic Idealize.ShloMosaic.ValueIdx

variable {α : Type}

/-- An [a] array cast to [a, 1] reads, at (p, u), the operand at p, whatever the unit coordinate u: the row-major
    position of (p, u) in [a, 1] is p·1 + u = p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An [a, 1] column broadcast to [a, b] reads, at (p, c), the column's entry p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector laid out as a column by a cast is the vector broadcast along a new trailing unit axis: both read, at
    (p, u), the vector's entry p. -/
theorem col_cast_eq_bcast {a : ℕ} (x : (⟨1, ![a]⟩ : Shape).Idx → α) (h : (⟨1, ![a]⟩ : Shape).ShapeCasts ⟨2, ![a, 1]⟩)
    (dims : Fin 1 → Fin 2) (hd : dims 0 = 0) (h' : (⟨1, ![a]⟩ : Shape).BroadcastsInDim ⟨2, ![a, 1]⟩ dims) :
    shapeCast ⟨2, ![a, 1]⟩ x h = broadcastInDim ⟨2, ![a, 1]⟩ dims h' x := by
  funext i
  obtain ⟨p, u, rfl⟩ : ∃ (p : Fin a) (u : Fin 1), i = ix2 p u := ⟨i 0, i 1, eq_ix2 i⟩
  rw [shapeCast_a_a1_apply]
  symm
  refine broadcastInDim_apply dims h' x (ix2 p u) (ix1 p) fun ax => ?_
  match ax with
  | ⟨0, _⟩ =>
    show p.val = if a = 1 then 0 else (ix2 p u (dims 0)).val
    rw [hd]
    show p.val = if a = 1 then 0 else p.val
    split
    · have := p.isLt; omega
    · rfl

/-- A vector laid out as a row by a cast is the vector broadcast along a new leading unit axis: both read, at
    (u, p), the vector's entry p. -/
theorem row_cast_eq_bcast {a : ℕ} (x : (⟨1, ![a]⟩ : Shape).Idx → α) (h : (⟨1, ![a]⟩ : Shape).ShapeCasts ⟨2, ![1, a]⟩)
    (dims : Fin 1 → Fin 2) (hd : dims 0 = 1) (h' : (⟨1, ![a]⟩ : Shape).BroadcastsInDim ⟨2, ![1, a]⟩ dims) :
    shapeCast ⟨2, ![1, a]⟩ x h = broadcastInDim ⟨2, ![1, a]⟩ dims h' x := by
  funext i
  obtain ⟨u, p, rfl⟩ : ∃ (u : Fin 1) (p : Fin a), i = ix2 u p := ⟨i 0, i 1, eq_ix2 i⟩
  rw [shapeCast_a_1a_apply]
  symm
  refine broadcastInDim_apply dims h' x (ix2 u p) (ix1 p) fun ax => ?_
  match ax with
  | ⟨0, _⟩ =>
    show p.val = if a = 1 then 0 else (ix2 u p (dims 0)).val
    rw [hd]
    show p.val = if a = 1 then 0 else p.val
    split
    · have := p.isLt; omega
    · rfl

end Cert.Layout
-- ==== Proof.HostRead.lean ====
/-
  The host side of the kernel program, read at an index on the extended reals.  Before the region the program builds,
  from the nine arguments: `kron (eye 5) Wᵀ` for the input, the seven hidden and the output weight matrices (each a
  product of two broadcasts reshaped to two axes), the seven hidden ones stacked along a new leading axis; each bias
  tiled five times into a column, the seven hidden ones stacked; and each coordinate column [N, 1] viewed as a row [1, N].
  Here each of these is a definition over the argument it is built from, and a lemma reading it at coordinates.
-/
import proofs.«147603_j74036646248987_2_alg».proof.KernelIdeal
import proofs.«147603_j74036646248987_2_alg».proof.Proof.Gen.KernelIdeal
import proofs.«147603_j74036646248987_2_alg».proof.Proof.Spec
import proofs.«147603_j74036646248987_2_alg».proof.Proof.LibLayout
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HostRead

open Cert.KernelIdeal Cert.KernelIdeal.Facts₀ Cert.KernelIdeal.Facts Cert.Mlp
open Idealize.ShloMosaic Idealize.ShloMosaic.ValueIdx

variable {F : FTy → Type} [FloatOps F]

/-! ## The identity matrix -/

/-- `eye 5` as the host program computes it: is the row number equal to the column number, converted to a float. -/
def eye5 : FVec F S5x5 .f32 :=
  uitofp .f32 (cmpi .eq (addi (iotaInDim S5x5 32 0) (broadcastInDim S5x5 ![] bcast_S_S5x5 (constantI S_ 32 0#32))) (iotaInDim S5x5 32 1))

/-- On the extended reals its entries are `1` on the diagonal and `0` off it. -/
theorem eye5_apply (g g' : Fin 5) : eye5 (F := Ideal) (ix2 g g') = dlt g g' := by
  have key : ∀ g g' : Fin 5, IntOp.cmpi .eq (IntOp.addi (BitVec.ofNat 32 g.val) 0#32) (BitVec.ofNat 32 g'.val) = if g = g' then 1#1 else 0#1 := by decide
  show (((IntOp.cmpi .eq (IntOp.addi (BitVec.ofNat 32 g.val) 0#32) (BitVec.ofNat 32 g'.val)).toNat : ℝ) : EReal) = _
  rw [key, dlt]
  split <;> simp

/-- `kron (eye 5) M` for `M : [50, 3]`, as the host program builds it: both factors broadcast to [5, 50, 5, 3],
    multiplied, and reshaped to [250, 15]. -/
def kronIn (E : FVec F S5x5 .f32) (M : FVec F S50x3 .f32) : FVec F S250x15 .f32 :=
  shapeCast S250x15 (mulf (broadcastInDim S5x50x5x3 ![0, 1, 2, 3] bcast_S5x1x5x1_S5x50x5x3_0_1_2_3 (broadcastInDim S5x1x5x1 ![0, 2] bcast_S5x5_S5x1x5x1_0_2 E))
    (broadcastInDim S5x50x5x3 ![0, 1, 2, 3] bcast_S1x50x1x3_S5x50x5x3_0_1_2_3 (broadcastInDim S1x50x1x3 ![1, 3] bcast_S50x3_S1x50x1x3_1_3 M))) shapeCasts_S5x50x5x3_S250x15

/-- Entry (a + 50g, k' + 3g') of it is `E (g, g') * M (a, k)`: the reshape keeps the row-major position. -/
theorem kronIn_apply (E : FVec Ideal S5x5 .f32) (M : FVec Ideal S50x3 .f32) (g : Fin 5) (p : Fin 50) (g' : Fin 5) (q : Fin 3) :
    kronIn E M (ix2 (st50 (g, p)) (st3 (g', q))) = E (ix2 g g') * M (ix2 p q) := by
  unfold kronIn
  refine (shapeCast_apply _ shapeCasts_S5x50x5x3_S250x15 (ix2 (st50 (g, p)) (st3 (g', q))) (ix4 g p g' q) ?_).trans ?_
  · rw [Shape.rowMajor_val_four, Shape.rowMajor_val_two]
    show ((g.val * 50 + p.val) * 5 + g'.val) * 3 + q.val = (st50 (g, p)).val * 15 + (st3 (g', q)).val
    rw [st50_val, st3_val]; omega
  · show broadcastInDim S5x50x5x3 ![0, 1, 2, 3] bcast_S5x1x5x1_S5x50x5x3_0_1_2_3 (broadcastInDim S5x1x5x1 ![0, 2] bcast_S5x5_S5x1x5x1_0_2 E) (ix4 g p g' q)
        * broadcastInDim S5x50x5x3 ![0, 1, 2, 3] bcast_S1x50x1x3_S5x50x5x3_0_1_2_3 (broadcastInDim S1x50x1x3 ![1, 3] bcast_S50x3_S1x50x1x3_1_3 M) (ix4 g p g' q) = _
    rw [broadcastInDim_apply ![0, 1, 2, 3] bcast_S5x1x5x1_S5x50x5x3_0_1_2_3 _ (ix4 g p g' q) (ix4 g (0 : Fin 1) g' (0 : Fin 1)) (fun ax => match ax with
        | ⟨0, _⟩ => by show g.val = if (5 : Nat) = 1 then 0 else g.val; rw [if_neg (by decide)]
        | ⟨1, _⟩ => by show (0 : Nat) = if (1 : Nat) = 1 then 0 else p.val; rw [if_pos rfl]
        | ⟨2, _⟩ => by show g'.val = if (5 : Nat) = 1 then 0 else g'.val; rw [if_neg (by decide)]
        | ⟨3, _⟩ => by show (0 : Nat) = if (1 : Nat) = 1 then 0 else q.val; rw [if_pos rfl]),
      broadcastInDim_apply ![0, 2] bcast_S5x5_S5x1x5x1_0_2 E (ix4 g (0 : Fin 1) g' (0 : Fin 1)) (ix2 g g') (fun ax => match ax with
        | ⟨0, _⟩ => by show g.val = if (5 : Nat) = 1 then 0 else g.val; rw [if_neg (by decide)]
        | ⟨1, _⟩ => by show g'.val = if (5 : Nat) = 1 then 0 else g'.val; rw [if_neg (by decide)]),
      broadcastInDim_apply ![0, 1, 2, 3] bcast_S1x50x1x3_S5x50x5x3_0_1_2_3 _ (ix4 g p g' q) (ix4 (0 : Fin 1) p (0 : Fin 1) q) (fun ax => match ax with
        | ⟨0, _⟩ => by show (0 : Nat) = if (1 : Nat) = 1 then 0 else g.val; rw [if_pos rfl]
        | ⟨1, _⟩ => by show p.val = if (50 : Nat) = 1 then 0 else p.val; rw [if_neg (by decide)]
        | ⟨2, _⟩ => by show (0 : Nat) = if (1 : Nat) = 1 then 0 else g'.val; rw [if_pos rfl]
        | ⟨3, _⟩ => by show q.val = if (3 : Nat) = 1 then 0 else q.val; rw [if_neg (by decide)]),
      broadcastInDim_apply ![1, 3] bcast_S50x3_S1x50x1x3_1_3 M (ix4 (0 : Fin 1) p (0 : Fin 1) q) (ix2 p q) (fun ax => match ax with
        | ⟨0, _⟩ => by show p.val = if (50 : Nat) = 1 then 0 else p.val; rw [if_neg (by decide)]
        | ⟨1, _⟩ => by show q.val = if (3 : Nat) = 1 then 0 else q.val; rw [if_neg (by decide)])]

/-- `kron (eye 5) M` for `M : [50, 50]`, as the host program builds it: both factors broadcast to [5, 50, 5, 50],
    multiplied, and reshaped to [250, 250]. -/
def kronMid (E : FVec F S5x5 .f32) (M : FVec F S50x50 .f32) : FVec F S250x250 .f32 :=
  shapeCast S250x250 (mulf (broadcastInDim S5x50x5x50 ![0, 1, 2, 3] bcast_S5x1x5x1_S5x50x5x50_0_1_2_3 (broadcastInDim S5x1x5x1 ![0, 2] bcast_S5x5_S5x1x5x1_0_2 E))
    (broadcastInDim S5x50x5x50 ![0, 1, 2, 3] bcast_S1x50x1x50_S5x50x5x50_0_1_2_3 (broadcastInDim S1x50x1x50 ![1, 3] bcast_S50x50_S1x50x1x50_1_3 M))) shapeCasts_S5x50x5x50_S250x250

/-- Entry (a + 50g, b + 50g') of it is `E (g, g') * M (a, b)`: the reshape keeps the row-major position. -/
theorem kronMid_apply (E : FVec Ideal S5x5 .f32) (M : FVec Ideal S50x50 .f32) (g : Fin 5) (p : Fin 50) (g' : Fin 5) (q : Fin 50) :
    kronMid E M (ix2 (st50 (g, p)) (st50 (g', q))) = E (ix2 g g') * M (ix2 p q) := by
  unfold kronMid
  refine (shapeCast_apply _ shapeCasts_S5x50x5x50_S250x250 (ix2 (st50 (g, p)) (st50 (g', q))) (ix4 g p g' q) ?_).trans ?_
  · rw [Shape.rowMajor_val_four, Shape.rowMajor_val_two]
    show ((g.val * 50 + p.val) * 5 + g'.val) * 50 + q.val = (st50 (g, p)).val * 250 + (st50 (g', q)).val
    rw [st50_val, st50_val]; omega
  · show broadcastInDim S5x50x5x50 ![0, 1, 2, 3] bcast_S5x1x5x1_S5x50x5x50_0_1_2_3 (broadcastInDim S5x1x5x1 ![0, 2] bcast_S5x5_S5x1x5x1_0_2 E) (ix4 g p g' q)
        * broadcastInDim S5x50x5x50 ![0, 1, 2, 3] bcast_S1x50x1x50_S5x50x5x50_0_1_2_3 (broadcastInDim S1x50x1x50 ![1, 3] bcast_S50x50_S1x50x1x50_1_3 M) (ix4 g p g' q) = _
    rw [broadcastInDim_apply ![0, 1, 2, 3] bcast_S5x1x5x1_S5x50x5x50_0_1_2_3 _ (ix4 g p g' q) (ix4 g (0 : Fin 1) g' (0 : Fin 1)) (fun ax => match ax with
        | ⟨0, _⟩ => by show g.val = if (5 : Nat) = 1 then 0 else g.val; rw [if_neg (by decide)]
        | ⟨1, _⟩ => by show (0 : Nat) = if (1 : Nat) = 1 then 0 else p.val; rw [if_pos rfl]
        | ⟨2, _⟩ => by show g'.val = if (5 : Nat) = 1 then 0 else g'.val; rw [if_neg (by decide)]
        | ⟨3, _⟩ => by show (0 : Nat) = if (1 : Nat) = 1 then 0 else q.val; rw [if_pos rfl]),
      broadcastInDim_apply ![0, 2] bcast_S5x5_S5x1x5x1_0_2 E (ix4 g (0 : Fin 1) g' (0 : Fin 1)) (ix2 g g') (fun ax => match ax with
        | ⟨0, _⟩ => by show g.val = if (5 : Nat) = 1 then 0 else g.val; rw [if_neg (by decide)]
        | ⟨1, _⟩ => by show g'.val = if (5 : Nat) = 1 then 0 else g'.val; rw [if_neg (by decide)]),
      broadcastInDim_apply ![0, 1, 2, 3] bcast_S1x50x1x50_S5x50x5x50_0_1_2_3 _ (ix4 g p g' q) (ix4 (0 : Fin 1) p (0 : Fin 1) q) (fun ax => match ax with
        | ⟨0, _⟩ => by show (0 : Nat) = if (1 : Nat) = 1 then 0 else g.val; rw [if_pos rfl]
        | ⟨1, _⟩ => by show p.val = if (50 : Nat) = 1 then 0 else p.val; rw [if_neg (by decide)]
        | ⟨2, _⟩ => by show (0 : Nat) = if (1 : Nat) = 1 then 0 else g'.val; rw [if_pos rfl]
        | ⟨3, _⟩ => by show q.val = if (50 : Nat) = 1 then 0 else q.val; rw [if_neg (by decide)]),
      broadcastInDim_apply ![1, 3] bcast_S50x50_S1x50x1x50_1_3 M (ix4 (0 : Fin 1) p (0 : Fin 1) q) (ix2 p q) (fun ax => match ax with
        | ⟨0, _⟩ => by show p.val = if (50 : Nat) = 1 then 0 else p.val; rw [if_neg (by decide)]
        | ⟨1, _⟩ => by show q.val = if (50 : Nat) = 1 then 0 else q.val; rw [if_neg (by decide)])]

/-- `kron (eye 5) M` for `M : [3, 50]`, as the host program builds it: both factors broadcast to [5, 3, 5, 50],
    multiplied, and reshaped to [15, 250]. -/
def kronOut (E : FVec F S5x5 .f32) (M : FVec F S3x50 .f32) : FVec F S15x250 .f32 :=
  shapeCast S15x250 (mulf (broadcastInDim S5x3x5x50 ![0, 1, 2, 3] bcast_S5x1x5x1_S5x3x5x50_0_1_2_3 (broadcastInDim S5x1x5x1 ![0, 2] bcast_S5x5_S5x1x5x1_0_2 E))
    (broadcastInDim S5x3x5x50 ![0, 1, 2, 3] bcast_S1x3x1x50_S5x3x5x50_0_1_2_3 (broadcastInDim S1x3x1x50 ![1, 3] bcast_S3x50_S1x3x1x50_1_3 M))) shapeCasts_S5x3x5x50_S15x250

/-- Entry (k + 3g, b + 50g') of it is `E (g, g') * M (k, a)`: the reshape keeps the row-major position. -/
theorem kronOut_apply (E : FVec Ideal S5x5 .f32) (M : FVec Ideal S3x50 .f32) (g : Fin 5) (p : Fin 3) (g' : Fin 5) (q : Fin 50) :
    kronOut E M (ix2 (st3 (g, p)) (st50 (g', q))) = E (ix2 g g') * M (ix2 p q) := by
  unfold kronOut
  refine (shapeCast_apply _ shapeCasts_S5x3x5x50_S15x250 (ix2 (st3 (g, p)) (st50 (g', q))) (ix4 g p g' q) ?_).trans ?_
  · rw [Shape.rowMajor_val_four, Shape.rowMajor_val_two]
    show ((g.val * 3 + p.val) * 5 + g'.val) * 50 + q.val = (st3 (g, p)).val * 250 + (st50 (g', q)).val
    rw [st3_val, st50_val]; omega
  · show broadcastInDim S5x3x5x50 ![0, 1, 2, 3] bcast_S5x1x5x1_S5x3x5x50_0_1_2_3 (broadcastInDim S5x1x5x1 ![0, 2] bcast_S5x5_S5x1x5x1_0_2 E) (ix4 g p g' q)
        * broadcastInDim S5x3x5x50 ![0, 1, 2, 3] bcast_S1x3x1x50_S5x3x5x50_0_1_2_3 (broadcastInDim S1x3x1x50 ![1, 3] bcast_S3x50_S1x3x1x50_1_3 M) (ix4 g p g' q) = _
    rw [broadcastInDim_apply ![0, 1, 2, 3] bcast_S5x1x5x1_S5x3x5x50_0_1_2_3 _ (ix4 g p g' q) (ix4 g (0 : Fin 1) g' (0 : Fin 1)) (fun ax => match ax with
        | ⟨0, _⟩ => by show g.val = if (5 : Nat) = 1 then 0 else g.val; rw [if_neg (by decide)]
        | ⟨1, _⟩ => by show (0 : Nat) = if (1 : Nat) = 1 then 0 else p.val; rw [if_pos rfl]
        | ⟨2, _⟩ => by show g'.val = if (5 : Nat) = 1 then 0 else g'.val; rw [if_neg (by decide)]
        | ⟨3, _⟩ => by show (0 : Nat) = if (1 : Nat) = 1 then 0 else q.val; rw [if_pos rfl]),
      broadcastInDim_apply ![0, 2] bcast_S5x5_S5x1x5x1_0_2 E (ix4 g (0 : Fin 1) g' (0 : Fin 1)) (ix2 g g') (fun ax => match ax with
        | ⟨0, _⟩ => by show g.val = if (5 : Nat) = 1 then 0 else g.val; rw [if_neg (by decide)]
        | ⟨1, _⟩ => by show g'.val = if (5 : Nat) = 1 then 0 else g'.val; rw [if_neg (by decide)]),
      broadcastInDim_apply ![0, 1, 2, 3] bcast_S1x3x1x50_S5x3x5x50_0_1_2_3 _ (ix4 g p g' q) (ix4 (0 : Fin 1) p (0 : Fin 1) q) (fun ax => match ax with
        | ⟨0, _⟩ => by show (0 : Nat) = if (1 : Nat) = 1 then 0 else g.val; rw [if_pos rfl]
        | ⟨1, _⟩ => by show p.val = if (3 : Nat) = 1 then 0 else p.val; rw [if_neg (by decide)]
        | ⟨2, _⟩ => by show (0 : Nat) = if (1 : Nat) = 1 then 0 else g'.val; rw [if_pos rfl]
        | ⟨3, _⟩ => by show q.val = if (50 : Nat) = 1 then 0 else q.val; rw [if_neg (by decide)]),
      broadcastInDim_apply ![1, 3] bcast_S3x50_S1x3x1x50_1_3 M (ix4 (0 : Fin 1) p (0 : Fin 1) q) (ix2 p q) (fun ax => match ax with
        | ⟨0, _⟩ => by show p.val = if (3 : Nat) = 1 then 0 else p.val; rw [if_neg (by decide)]
        | ⟨1, _⟩ => by show q.val = if (50 : Nat) = 1 then 0 else q.val; rw [if_neg (by decide)])]

/-! ## The tiled biases -/

/-- A length-50 bias tiled five times into a column [250, 1], as the host program builds it. -/
def tile50 (v : FVec F S50 .f32) : FVec F S250x1 .f32 :=
  shapeCast S250x1 (shapeCast S250 (broadcastInDim S5x50 ![0, 1] bcast_S1x50_S5x50_0_1 (shapeCast S1x50 v shapeCasts_S50_S1x50)) shapeCasts_S5x50_S250) shapeCasts_S250_S250x1

/-- Its entry at stacked position (g, a) is the bias's entry a. -/
theorem tile50_apply (v : FVec Ideal S50 .f32) (g : Fin 5) (a : Fin 50) (u : Fin 1) :
    tile50 v (ix2 (st50 (g, a)) u) = v (ix1 a) := by
  unfold tile50
  rw [Cert.Layout.shapeCast_a_a1_apply]
  refine (shapeCast_apply _ shapeCasts_S5x50_S250 (ix1 (st50 (g, a))) (ix2 g a) ?_).trans ?_
  · rw [Shape.rowMajor_val_two, Shape.rowMajor_val_one]
    show g.val * 50 + a.val = (st50 (g, a)).val
    rw [st50_val]; omega
  rw [broadcastInDim_apply ![0, 1] bcast_S1x50_S5x50_0_1 _ (ix2 g a) (ix2 (0 : Fin 1) a) (fun ax => match ax with
      | ⟨0, _⟩ => by show (0 : Nat) = if (1 : Nat) = 1 then 0 else g.val; rw [if_pos rfl]
      | ⟨1, _⟩ => by show a.val = if (50 : Nat) = 1 then 0 else a.val; rw [if_neg (by decide)])]
  refine shapeCast_apply _ shapeCasts_S50_S1x50 (ix2 (0 : Fin 1) a) (ix1 a) ?_
  rw [Shape.rowMajor_val_two, Shape.rowMajor_val_one]
  show a.val = 0 * 50 + a.val
  omega

/-- A length-3 bias tiled five times into a column [15, 1], as the host program builds it. -/
def tile3 (v : FVec F S3 .f32) : FVec F S15x1 .f32 :=
  shapeCast S15x1 (shapeCast S15 (broadcastInDim S5x3 ![0, 1] bcast_S1x3_S5x3_0_1 (shapeCast S1x3 v shapeCasts_S3_S1x3)) shapeCasts_S5x3_S15) shapeCasts_S15_S15x1

/-- Its entry at stacked position (g, a) is the bias's entry a. -/
theorem tile3_apply (v : FVec Ideal S3 .f32) (g : Fin 5) (a : Fin 3) (u : Fin 1) :
    tile3 v (ix2 (st3 (g, a)) u) = v (ix1 a) := by
  unfold tile3
  rw [Cert.Layout.shapeCast_a_a1_apply]
  refine (shapeCast_apply _ shapeCasts_S5x3_S15 (ix1 (st3 (g, a))) (ix2 g a) ?_).trans ?_
  · rw [Shape.rowMajor_val_two, Shape.rowMajor_val_one]
    show g.val * 3 + a.val = (st3 (g, a)).val
    rw [st3_val]; omega
  rw [broadcastInDim_apply ![0, 1] bcast_S1x3_S5x3_0_1 _ (ix2 g a) (ix2 (0 : Fin 1) a) (fun ax => match ax with
      | ⟨0, _⟩ => by show (0 : Nat) = if (1 : Nat) = 1 then 0 else g.val; rw [if_pos rfl]
      | ⟨1, _⟩ => by show a.val = if (3 : Nat) = 1 then 0 else a.val; rw [if_neg (by decide)])]
  refine shapeCast_apply _ shapeCasts_S3_S1x3 (ix2 (0 : Fin 1) a) (ix1 a) ?_
  rw [Shape.rowMajor_val_two, Shape.rowMajor_val_one]
  show a.val = 0 * 3 + a.val
  omega

/-! ## The transposed weights -/

/-- `W_inᵀ` read at (a, k) is `W_in (k, a)`. -/
theorem transpose_in_apply (A : FVec Ideal S3x50 .f32) (a : Fin 50) (k : Fin 3) :
    transpose S50x3 [1, 0] A transposes_S3x50_S50x3_1_0 (ix2 a k) = A (ix2 k a) :=
  transpose_apply [1, 0] A transposes_S3x50_S50x3_1_0 (ix2 a k) (ix2 k a) (fun b => match b with
    | ⟨0, _⟩ => rfl
    | ⟨1, _⟩ => rfl)

/-- `W_outᵀ` read at (k, a) is `W_out (a, k)`. -/
theorem transpose_out_apply (A : FVec Ideal S50x3 .f32) (k : Fin 3) (a : Fin 50) :
    transpose S3x50 [1, 0] A transposes_S50x3_S3x50_1_0 (ix2 k a) = A (ix2 a k) :=
  transpose_apply [1, 0] A transposes_S50x3_S3x50_1_0 (ix2 k a) (ix2 a k) (fun b => match b with
    | ⟨0, _⟩ => rfl
    | ⟨1, _⟩ => rfl)

/-- Hidden layer 0's weights transposed: slice 0 of the [7, 50, 50] argument, viewed [50, 50], transposed. -/
def wT0 (A : FVec F S7x50x50 .f32) : FVec F S50x50 .f32 :=
  transpose S50x50 [1, 0] (shapeCast S50x50 (extractStridedSlice S1x50x50 ![0, 0, 0] A slices_S7x50x50_S1x50x50_0_0_0) shapeCasts_S1x50x50_S50x50) transposes_S50x50_S50x50_1_0

theorem wT0_apply (A : FVec Ideal S7x50x50 .f32) (a b : Fin 50) : wT0 A (ix2 a b) = A (ix3 (0 : Fin 7) b a) := by
  unfold wT0
  rw [transpose_apply [1, 0] _ transposes_S50x50_S50x50_1_0 (ix2 a b) (ix2 b a) (fun c => match c with
    | ⟨0, _⟩ => rfl
    | ⟨1, _⟩ => rfl)]
  refine (shapeCast_apply _ shapeCasts_S1x50x50_S50x50 (ix2 b a) (ix3 (0 : Fin 1) b a) ?_).trans ?_
  · rw [Shape.rowMajor_val_three, Shape.rowMajor_val_two]
    show (0 * 50 + b.val) * 50 + a.val = b.val * 50 + a.val
    omega
  exact extractStridedSlice_apply ![0, 0, 0] A slices_S7x50x50_S1x50x50_0_0_0 (ix3 (0 : Fin 1) b a) (ix3 (0 : Fin 7) b a) (fun ax => match ax with
    | ⟨0, _⟩ => by show 0 = 0 + 0; omega
    | ⟨1, _⟩ => by show b.val = 0 + b.val; omega
    | ⟨2, _⟩ => by show a.val = 0 + a.val; omega)

/-- Hidden layer 0's bias: row 0 of the [7, 50] argument as a vector. -/
def bRow0 (A : FVec F S7x50 .f32) : FVec F S50 .f32 :=
  shapeCast S50 (extractStridedSlice S1x50 ![0, 0] A slices_S7x50_S1x50_0_0) shapeCasts_S1x50_S50

theorem bRow0_apply (A : FVec Ideal S7x50 .f32) (a : Fin 50) : bRow0 A (ix1 a) = A (ix2 (0 : Fin 7) a) := by
  unfold bRow0
  refine (shapeCast_apply _ shapeCasts_S1x50_S50 (ix1 a) (ix2 (0 : Fin 1) a) ?_).trans ?_
  · rw [Shape.rowMajor_val_two, Shape.rowMajor_val_one]
    show 0 * 50 + a.val = a.val
    omega
  exact extractStridedSlice_apply ![0, 0] A slices_S7x50_S1x50_0_0 (ix2 (0 : Fin 1) a) (ix2 (0 : Fin 7) a) (fun ax => match ax with
    | ⟨0, _⟩ => by show 0 = 0 + 0; omega
    | ⟨1, _⟩ => by show a.val = 0 + a.val; omega)

/-- Hidden layer 1's weights transposed: slice 1 of the [7, 50, 50] argument, viewed [50, 50], transposed. -/
def wT1 (A : FVec F S7x50x50 .f32) : FVec F S50x50 .f32 :=
  transpose S50x50 [1, 0] (shapeCast S50x50 (extractStridedSlice S1x50x50 ![1, 0, 0] A slices_S7x50x50_S1x50x50_1_0_0) shapeCasts_S1x50x50_S50x50) transposes_S50x50_S50x50_1_0

theorem wT1_apply (A : FVec Ideal S7x50x50 .f32) (a b : Fin 50) : wT1 A (ix2 a b) = A (ix3 (1 : Fin 7) b a) := by
  unfold wT1
  rw [transpose_apply [1, 0] _ transposes_S50x50_S50x50_1_0 (ix2 a b) (ix2 b a) (fun c => match c with
    | ⟨0, _⟩ => rfl
    | ⟨1, _⟩ => rfl)]
  refine (shapeCast_apply _ shapeCasts_S1x50x50_S50x50 (ix2 b a) (ix3 (0 : Fin 1) b a) ?_).trans ?_
  · rw [Shape.rowMajor_val_three, Shape.rowMajor_val_two]
    show (0 * 50 + b.val) * 50 + a.val = b.val * 50 + a.val
    omega
  exact extractStridedSlice_apply ![1, 0, 0] A slices_S7x50x50_S1x50x50_1_0_0 (ix3 (0 : Fin 1) b a) (ix3 (1 : Fin 7) b a) (fun ax => match ax with
    | ⟨0, _⟩ => by show 1 = 1 + 0; omega
    | ⟨1, _⟩ => by show b.val = 0 + b.val; omega
    | ⟨2, _⟩ => by show a.val = 0 + a.val; omega)

/-- Hidden layer 1's bias: row 1 of the [7, 50] argument as a vector. -/
def bRow1 (A : FVec F S7x50 .f32) : FVec F S50 .f32 :=
  shapeCast S50 (extractStridedSlice S1x50 ![1, 0] A slices_S7x50_S1x50_1_0) shapeCasts_S1x50_S50

theorem bRow1_apply (A : FVec Ideal S7x50 .f32) (a : Fin 50) : bRow1 A (ix1 a) = A (ix2 (1 : Fin 7) a) := by
  unfold bRow1
  refine (shapeCast_apply _ shapeCasts_S1x50_S50 (ix1 a) (ix2 (0 : Fin 1) a) ?_).trans ?_
  · rw [Shape.rowMajor_val_two, Shape.rowMajor_val_one]
    show 0 * 50 + a.val = a.val
    omega
  exact extractStridedSlice_apply ![1, 0] A slices_S7x50_S1x50_1_0 (ix2 (0 : Fin 1) a) (ix2 (1 : Fin 7) a) (fun ax => match ax with
    | ⟨0, _⟩ => by show 1 = 1 + 0; omega
    | ⟨1, _⟩ => by show a.val = 0 + a.val; omega)

/-- Hidden layer 2's weights transposed: slice 2 of the [7, 50, 50] argument, viewed [50, 50], transposed. -/
def wT2 (A : FVec F S7x50x50 .f32) : FVec F S50x50 .f32 :=
  transpose S50x50 [1, 0] (shapeCast S50x50 (extractStridedSlice S1x50x50 ![2, 0, 0] A slices_S7x50x50_S1x50x50_2_0_0) shapeCasts_S1x50x50_S50x50) transposes_S50x50_S50x50_1_0

theorem wT2_apply (A : FVec Ideal S7x50x50 .f32) (a b : Fin 50) : wT2 A (ix2 a b) = A (ix3 (2 : Fin 7) b a) := by
  unfold wT2
  rw [transpose_apply [1, 0] _ transposes_S50x50_S50x50_1_0 (ix2 a b) (ix2 b a) (fun c => match c with
    | ⟨0, _⟩ => rfl
    | ⟨1, _⟩ => rfl)]
  refine (shapeCast_apply _ shapeCasts_S1x50x50_S50x50 (ix2 b a) (ix3 (0 : Fin 1) b a) ?_).trans ?_
  · rw [Shape.rowMajor_val_three, Shape.rowMajor_val_two]
    show (0 * 50 + b.val) * 50 + a.val = b.val * 50 + a.val
    omega
  exact extractStridedSlice_apply ![2, 0, 0] A slices_S7x50x50_S1x50x50_2_0_0 (ix3 (0 : Fin 1) b a) (ix3 (2 : Fin 7) b a) (fun ax => match ax with
    | ⟨0, _⟩ => by show 2 = 2 + 0; omega
    | ⟨1, _⟩ => by show b.val = 0 + b.val; omega
    | ⟨2, _⟩ => by show a.val = 0 + a.val; omega)

/-- Hidden layer 2's bias: row 2 of the [7, 50] argument as a vector. -/
def bRow2 (A : FVec F S7x50 .f32) : FVec F S50 .f32 :=
  shapeCast S50 (extractStridedSlice S1x50 ![2, 0] A slices_S7x50_S1x50_2_0) shapeCasts_S1x50_S50

theorem bRow2_apply (A : FVec Ideal S7x50 .f32) (a : Fin 50) : bRow2 A (ix1 a) = A (ix2 (2 : Fin 7) a) := by
  unfold bRow2
  refine (shapeCast_apply _ shapeCasts_S1x50_S50 (ix1 a) (ix2 (0 : Fin 1) a) ?_).trans ?_
  · rw [Shape.rowMajor_val_two, Shape.rowMajor_val_one]
    show 0 * 50 + a.val = a.val
    omega
  exact extractStridedSlice_apply ![2, 0] A slices_S7x50_S1x50_2_0 (ix2 (0 : Fin 1) a) (ix2 (2 : Fin 7) a) (fun ax => match ax with
    | ⟨0, _⟩ => by show 2 = 2 + 0; omega
    | ⟨1, _⟩ => by show a.val = 0 + a.val; omega)

/-- Hidden layer 3's weights transposed: slice 3 of the [7, 50, 50] argument, viewed [50, 50], transposed. -/
def wT3 (A : FVec F S7x50x50 .f32) : FVec F S50x50 .f32 :=
  transpose S50x50 [1, 0] (shapeCast S50x50 (extractStridedSlice S1x50x50 ![3, 0, 0] A slices_S7x50x50_S1x50x50_3_0_0) shapeCasts_S1x50x50_S50x50) transposes_S50x50_S50x50_1_0

theorem wT3_apply (A : FVec Ideal S7x50x50 .f32) (a b : Fin 50) : wT3 A (ix2 a b) = A (ix3 (3 : Fin 7) b a) := by
  unfold wT3
  rw [transpose_apply [1, 0] _ transposes_S50x50_S50x50_1_0 (ix2 a b) (ix2 b a) (fun c => match c with
    | ⟨0, _⟩ => rfl
    | ⟨1, _⟩ => rfl)]
  refine (shapeCast_apply _ shapeCasts_S1x50x50_S50x50 (ix2 b a) (ix3 (0 : Fin 1) b a) ?_).trans ?_
  · rw [Shape.rowMajor_val_three, Shape.rowMajor_val_two]
    show (0 * 50 + b.val) * 50 + a.val = b.val * 50 + a.val
    omega
  exact extractStridedSlice_apply ![3, 0, 0] A slices_S7x50x50_S1x50x50_3_0_0 (ix3 (0 : Fin 1) b a) (ix3 (3 : Fin 7) b a) (fun ax => match ax with
    | ⟨0, _⟩ => by show 3 = 3 + 0; omega
    | ⟨1, _⟩ => by show b.val = 0 + b.val; omega
    | ⟨2, _⟩ => by show a.val = 0 + a.val; omega)

/-- Hidden layer 3's bias: row 3 of the [7, 50] argument as a vector. -/
def bRow3 (A : FVec F S7x50 .f32) : FVec F S50 .f32 :=
  shapeCast S50 (extractStridedSlice S1x50 ![3, 0] A slices_S7x50_S1x50_3_0) shapeCasts_S1x50_S50

theorem bRow3_apply (A : FVec Ideal S7x50 .f32) (a : Fin 50) : bRow3 A (ix1 a) = A (ix2 (3 : Fin 7) a) := by
  unfold bRow3
  refine (shapeCast_apply _ shapeCasts_S1x50_S50 (ix1 a) (ix2 (0 : Fin 1) a) ?_).trans ?_
  · rw [Shape.rowMajor_val_two, Shape.rowMajor_val_one]
    show 0 * 50 + a.val = a.val
    omega
  exact extractStridedSlice_apply ![3, 0] A slices_S7x50_S1x50_3_0 (ix2 (0 : Fin 1) a) (ix2 (3 : Fin 7) a) (fun ax => match ax with
    | ⟨0, _⟩ => by show 3 = 3 + 0; omega
    | ⟨1, _⟩ => by show a.val = 0 + a.val; omega)

/-- Hidden layer 4's weights transposed: slice 4 of the [7, 50, 50] argument, viewed [50, 50], transposed. -/
def wT4 (A : FVec F S7x50x50 .f32) : FVec F S50x50 .f32 :=
  transpose S50x50 [1, 0] (shapeCast S50x50 (extractStridedSlice S1x50x50 ![4, 0, 0] A slices_S7x50x50_S1x50x50_4_0_0) shapeCasts_S1x50x50_S50x50) transposes_S50x50_S50x50_1_0

theorem wT4_apply (A : FVec Ideal S7x50x50 .f32) (a b : Fin 50) : wT4 A (ix2 a b) = A (ix3 (4 : Fin 7) b a) := by
  unfold wT4
  rw [transpose_apply [1, 0] _ transposes_S50x50_S50x50_1_0 (ix2 a b) (ix2 b a) (fun c => match c with
    | ⟨0, _⟩ => rfl
    | ⟨1, _⟩ => rfl)]
  refine (shapeCast_apply _ shapeCasts_S1x50x50_S50x50 (ix2 b a) (ix3 (0 : Fin 1) b a) ?_).trans ?_
  · rw [Shape.rowMajor_val_three, Shape.rowMajor_val_two]
    show (0 * 50 + b.val) * 50 + a.val = b.val * 50 + a.val
    omega
  exact extractStridedSlice_apply ![4, 0, 0] A slices_S7x50x50_S1x50x50_4_0_0 (ix3 (0 : Fin 1) b a) (ix3 (4 : Fin 7) b a) (fun ax => match ax with
    | ⟨0, _⟩ => by show 4 = 4 + 0; omega
    | ⟨1, _⟩ => by show b.val = 0 + b.val; omega
    | ⟨2, _⟩ => by show a.val = 0 + a.val; omega)

/-- Hidden layer 4's bias: row 4 of the [7, 50] argument as a vector. -/
def bRow4 (A : FVec F S7x50 .f32) : FVec F S50 .f32 :=
  shapeCast S50 (extractStridedSlice S1x50 ![4, 0] A slices_S7x50_S1x50_4_0) shapeCasts_S1x50_S50

theorem bRow4_apply (A : FVec Ideal S7x50 .f32) (a : Fin 50) : bRow4 A (ix1 a) = A (ix2 (4 : Fin 7) a) := by
  unfold bRow4
  refine (shapeCast_apply _ shapeCasts_S1x50_S50 (ix1 a) (ix2 (0 : Fin 1) a) ?_).trans ?_
  · rw [Shape.rowMajor_val_two, Shape.rowMajor_val_one]
    show 0 * 50 + a.val = a.val
    omega
  exact extractStridedSlice_apply ![4, 0] A slices_S7x50_S1x50_4_0 (ix2 (0 : Fin 1) a) (ix2 (4 : Fin 7) a) (fun ax => match ax with
    | ⟨0, _⟩ => by show 4 = 4 + 0; omega
    | ⟨1, _⟩ => by show a.val = 0 + a.val; omega)

/-- Hidden layer 5's weights transposed: slice 5 of the [7, 50, 50] argument, viewed [50, 50], transposed. -/
def wT5 (A : FVec F S7x50x50 .f32) : FVec F S50x50 .f32 :=
  transpose S50x50 [1, 0] (shapeCast S50x50 (extractStridedSlice S1x50x50 ![5, 0, 0] A slices_S7x50x50_S1x50x50_5_0_0) shapeCasts_S1x50x50_S50x50) transposes_S50x50_S50x50_1_0

theorem wT5_apply (A : FVec Ideal S7x50x50 .f32) (a b : Fin 50) : wT5 A (ix2 a b) = A (ix3 (5 : Fin 7) b a) := by
  unfold wT5
  rw [transpose_apply [1, 0] _ transposes_S50x50_S50x50_1_0 (ix2 a b) (ix2 b a) (fun c => match c with
    | ⟨0, _⟩ => rfl
    | ⟨1, _⟩ => rfl)]
  refine (shapeCast_apply _ shapeCasts_S1x50x50_S50x50 (ix2 b a) (ix3 (0 : Fin 1) b a) ?_).trans ?_
  · rw [Shape.rowMajor_val_three, Shape.rowMajor_val_two]
    show (0 * 50 + b.val) * 50 + a.val = b.val * 50 + a.val
    omega
  exact extractStridedSlice_apply ![5, 0, 0] A slices_S7x50x50_S1x50x50_5_0_0 (ix3 (0 : Fin 1) b a) (ix3 (5 : Fin 7) b a) (fun ax => match ax with
    | ⟨0, _⟩ => by show 5 = 5 + 0; omega
    | ⟨1, _⟩ => by show b.val = 0 + b.val; omega
    | ⟨2, _⟩ => by show a.val = 0 + a.val; omega)

/-- Hidden layer 5's bias: row 5 of the [7, 50] argument as a vector. -/
def bRow5 (A : FVec F S7x50 .f32) : FVec F S50 .f32 :=
  shapeCast S50 (extractStridedSlice S1x50 ![5, 0] A slices_S7x50_S1x50_5_0) shapeCasts_S1x50_S50

theorem bRow5_apply (A : FVec Ideal S7x50 .f32) (a : Fin 50) : bRow5 A (ix1 a) = A (ix2 (5 : Fin 7) a) := by
  unfold bRow5
  refine (shapeCast_apply _ shapeCasts_S1x50_S50 (ix1 a) (ix2 (0 : Fin 1) a) ?_).trans ?_
  · rw [Shape.rowMajor_val_two, Shape.rowMajor_val_one]
    show 0 * 50 + a.val = a.val
    omega
  exact extractStridedSlice_apply ![5, 0] A slices_S7x50_S1x50_5_0 (ix2 (0 : Fin 1) a) (ix2 (5 : Fin 7) a) (fun ax => match ax with
    | ⟨0, _⟩ => by show 5 = 5 + 0; omega
    | ⟨1, _⟩ => by show a.val = 0 + a.val; omega)

/-- Hidden layer 6's weights transposed: slice 6 of the [7, 50, 50] argument, viewed [50, 50], transposed. -/
def wT6 (A : FVec F S7x50x50 .f32) : FVec F S50x50 .f32 :=
  transpose S50x50 [1, 0] (shapeCast S50x50 (extractStridedSlice S1x50x50 ![6, 0, 0] A slices_S7x50x50_S1x50x50_6_0_0) shapeCasts_S1x50x50_S50x50) transposes_S50x50_S50x50_1_0

theorem wT6_apply (A : FVec Ideal S7x50x50 .f32) (a b : Fin 50) : wT6 A (ix2 a b) = A (ix3 (6 : Fin 7) b a) := by
  unfold wT6
  rw [transpose_apply [1, 0] _ transposes_S50x50_S50x50_1_0 (ix2 a b) (ix2 b a) (fun c => match c with
    | ⟨0, _⟩ => rfl
    | ⟨1, _⟩ => rfl)]
  refine (shapeCast_apply _ shapeCasts_S1x50x50_S50x50 (ix2 b a) (ix3 (0 : Fin 1) b a) ?_).trans ?_
  · rw [Shape.rowMajor_val_three, Shape.rowMajor_val_two]
    show (0 * 50 + b.val) * 50 + a.val = b.val * 50 + a.val
    omega
  exact extractStridedSlice_apply ![6, 0, 0] A slices_S7x50x50_S1x50x50_6_0_0 (ix3 (0 : Fin 1) b a) (ix3 (6 : Fin 7) b a) (fun ax => match ax with
    | ⟨0, _⟩ => by show 6 = 6 + 0; omega
    | ⟨1, _⟩ => by show b.val = 0 + b.val; omega
    | ⟨2, _⟩ => by show a.val = 0 + a.val; omega)

/-- Hidden layer 6's bias: row 6 of the [7, 50] argument as a vector. -/
def bRow6 (A : FVec F S7x50 .f32) : FVec F S50 .f32 :=
  shapeCast S50 (extractStridedSlice S1x50 ![6, 0] A slices_S7x50_S1x50_6_0) shapeCasts_S1x50_S50

theorem bRow6_apply (A : FVec Ideal S7x50 .f32) (a : Fin 50) : bRow6 A (ix1 a) = A (ix2 (6 : Fin 7) a) := by
  unfold bRow6
  refine (shapeCast_apply _ shapeCasts_S1x50_S50 (ix1 a) (ix2 (0 : Fin 1) a) ?_).trans ?_
  · rw [Shape.rowMajor_val_two, Shape.rowMajor_val_one]
    show 0 * 50 + a.val = a.val
    omega
  exact extractStridedSlice_apply ![6, 0] A slices_S7x50_S1x50_6_0 (ix2 (0 : Fin 1) a) (ix2 (6 : Fin 7) a) (fun ax => match ax with
    | ⟨0, _⟩ => by show 6 = 6 + 0; omega
    | ⟨1, _⟩ => by show a.val = 0 + a.val; omega)

/-! ## The coordinate columns as rows -/

/-- A column [N, 1] viewed as a row [1, N] reads, at (0, n), the column's entry n. -/
theorem row_apply (A : FVec Ideal S2000000x1 .f32) (n : Fin 2000000) :
    shapeCast S1x2000000 A shapeCasts_S2000000x1_S1x2000000 (ix2 (0 : Fin 1) n) = A (ix2 n (0 : Fin 1)) := by
  refine shapeCast_apply _ shapeCasts_S2000000x1_S1x2000000 (ix2 (0 : Fin 1) n) (ix2 n (0 : Fin 1)) ?_
  rw [Shape.rowMajor_val_two, Shape.rowMajor_val_two]
  show n.val * 1 + 0 = 0 * 2000000 + n.val
  omega

/-- A row [1, N] viewed as a column [N, 1] reads, at (n, 0), the row's entry n. -/
theorem col_apply (A : FVec Ideal S1x2000000 .f32) (n : Fin 2000000) (u : Fin 1) :
    shapeCast S2000000x1 A shapeCasts_S1x2000000_S2000000x1 (ix2 n u) = A (ix2 (0 : Fin 1) n) := by
  refine shapeCast_apply _ shapeCasts_S1x2000000_S2000000x1 (ix2 n u) (ix2 (0 : Fin 1) n) ?_
  rw [Shape.rowMajor_val_two, Shape.rowMajor_val_two]
  show 0 * 2000000 + n.val = n.val * 1 + u.val
  have := u.isLt
  omega

/-! ## The seven hidden layers stacked -/

/-- Hidden layer 0's block-diagonal weights with a leading unit axis. -/
def wP0 (A : FVec F S7x50x50 .f32) : FVec F S1x250x250 .f32 :=
  broadcastInDim S1x250x250 ![1, 2] bcast_S250x250_S1x250x250_1_2 (kronMid eye5 (wT0 A))
/-- Hidden layer 0's tiled bias with a leading unit axis. -/
def bP0 (A : FVec F S7x50 .f32) : FVec F S1x250x1 .f32 :=
  broadcastInDim S1x250x1 ![1, 2] bcast_S250x1_S1x250x1_1_2 (tile50 (bRow0 A))

theorem wP0_apply (A : FVec Ideal S7x50x50 .f32) (u : Fin 1) (g : Fin 5) (a : Fin 50) (g' : Fin 5) (b : Fin 50) :
    wP0 A (ix3 u (st50 (g, a)) (st50 (g', b))) = dlt g g' * A (ix3 (0 : Fin 7) b a) := by
  unfold wP0
  rw [broadcastInDim_apply ![1, 2] bcast_S250x250_S1x250x250_1_2 _ (ix3 u (st50 (g, a)) (st50 (g', b))) (ix2 (st50 (g, a)) (st50 (g', b))) (fun ax => match ax with
      | ⟨0, _⟩ => by show (st50 (g, a)).val = if (250 : Nat) = 1 then 0 else (st50 (g, a)).val; rw [if_neg (by decide)]
      | ⟨1, _⟩ => by show (st50 (g', b)).val = if (250 : Nat) = 1 then 0 else (st50 (g', b)).val; rw [if_neg (by decide)]),
    kronMid_apply, eye5_apply, wT0_apply]

theorem bP0_apply (A : FVec Ideal S7x50 .f32) (u : Fin 1) (g : Fin 5) (a : Fin 50) (u' : Fin 1) :
    bP0 A (ix3 u (st50 (g, a)) u') = A (ix2 (0 : Fin 7) a) := by
  unfold bP0
  rw [broadcastInDim_apply ![1, 2] bcast_S250x1_S1x250x1_1_2 _ (ix3 u (st50 (g, a)) u') (ix2 (st50 (g, a)) u') (fun ax => match ax with
      | ⟨0, _⟩ => by show (st50 (g, a)).val = if (250 : Nat) = 1 then 0 else (st50 (g, a)).val; rw [if_neg (by decide)]
      | ⟨1, _⟩ => by show u'.val = if (1 : Nat) = 1 then 0 else u'.val; rw [if_pos rfl]; omega),
    tile50_apply, bRow0_apply]

/-- Hidden layer 1's block-diagonal weights with a leading unit axis. -/
def wP1 (A : FVec F S7x50x50 .f32) : FVec F S1x250x250 .f32 :=
  broadcastInDim S1x250x250 ![1, 2] bcast_S250x250_S1x250x250_1_2 (kronMid eye5 (wT1 A))
/-- Hidden layer 1's tiled bias with a leading unit axis. -/
def bP1 (A : FVec F S7x50 .f32) : FVec F S1x250x1 .f32 :=
  broadcastInDim S1x250x1 ![1, 2] bcast_S250x1_S1x250x1_1_2 (tile50 (bRow1 A))

theorem wP1_apply (A : FVec Ideal S7x50x50 .f32) (u : Fin 1) (g : Fin 5) (a : Fin 50) (g' : Fin 5) (b : Fin 50) :
    wP1 A (ix3 u (st50 (g, a)) (st50 (g', b))) = dlt g g' * A (ix3 (1 : Fin 7) b a) := by
  unfold wP1
  rw [broadcastInDim_apply ![1, 2] bcast_S250x250_S1x250x250_1_2 _ (ix3 u (st50 (g, a)) (st50 (g', b))) (ix2 (st50 (g, a)) (st50 (g', b))) (fun ax => match ax with
      | ⟨0, _⟩ => by show (st50 (g, a)).val = if (250 : Nat) = 1 then 0 else (st50 (g, a)).val; rw [if_neg (by decide)]
      | ⟨1, _⟩ => by show (st50 (g', b)).val = if (250 : Nat) = 1 then 0 else (st50 (g', b)).val; rw [if_neg (by decide)]),
    kronMid_apply, eye5_apply, wT1_apply]

theorem bP1_apply (A : FVec Ideal S7x50 .f32) (u : Fin 1) (g : Fin 5) (a : Fin 50) (u' : Fin 1) :
    bP1 A (ix3 u (st50 (g, a)) u') = A (ix2 (1 : Fin 7) a) := by
  unfold bP1
  rw [broadcastInDim_apply ![1, 2] bcast_S250x1_S1x250x1_1_2 _ (ix3 u (st50 (g, a)) u') (ix2 (st50 (g, a)) u') (fun ax => match ax with
      | ⟨0, _⟩ => by show (st50 (g, a)).val = if (250 : Nat) = 1 then 0 else (st50 (g, a)).val; rw [if_neg (by decide)]
      | ⟨1, _⟩ => by show u'.val = if (1 : Nat) = 1 then 0 else u'.val; rw [if_pos rfl]; omega),
    tile50_apply, bRow1_apply]

/-- Hidden layer 2's block-diagonal weights with a leading unit axis. -/
def wP2 (A : FVec F S7x50x50 .f32) : FVec F S1x250x250 .f32 :=
  broadcastInDim S1x250x250 ![1, 2] bcast_S250x250_S1x250x250_1_2 (kronMid eye5 (wT2 A))
/-- Hidden layer 2's tiled bias with a leading unit axis. -/
def bP2 (A : FVec F S7x50 .f32) : FVec F S1x250x1 .f32 :=
  broadcastInDim S1x250x1 ![1, 2] bcast_S250x1_S1x250x1_1_2 (tile50 (bRow2 A))

theorem wP2_apply (A : FVec Ideal S7x50x50 .f32) (u : Fin 1) (g : Fin 5) (a : Fin 50) (g' : Fin 5) (b : Fin 50) :
    wP2 A (ix3 u (st50 (g, a)) (st50 (g', b))) = dlt g g' * A (ix3 (2 : Fin 7) b a) := by
  unfold wP2
  rw [broadcastInDim_apply ![1, 2] bcast_S250x250_S1x250x250_1_2 _ (ix3 u (st50 (g, a)) (st50 (g', b))) (ix2 (st50 (g, a)) (st50 (g', b))) (fun ax => match ax with
      | ⟨0, _⟩ => by show (st50 (g, a)).val = if (250 : Nat) = 1 then 0 else (st50 (g, a)).val; rw [if_neg (by decide)]
      | ⟨1, _⟩ => by show (st50 (g', b)).val = if (250 : Nat) = 1 then 0 else (st50 (g', b)).val; rw [if_neg (by decide)]),
    kronMid_apply, eye5_apply, wT2_apply]

theorem bP2_apply (A : FVec Ideal S7x50 .f32) (u : Fin 1) (g : Fin 5) (a : Fin 50) (u' : Fin 1) :
    bP2 A (ix3 u (st50 (g, a)) u') = A (ix2 (2 : Fin 7) a) := by
  unfold bP2
  rw [broadcastInDim_apply ![1, 2] bcast_S250x1_S1x250x1_1_2 _ (ix3 u (st50 (g, a)) u') (ix2 (st50 (g, a)) u') (fun ax => match ax with
      | ⟨0, _⟩ => by show (st50 (g, a)).val = if (250 : Nat) = 1 then 0 else (st50 (g, a)).val; rw [if_neg (by decide)]
      | ⟨1, _⟩ => by show u'.val = if (1 : Nat) = 1 then 0 else u'.val; rw [if_pos rfl]; omega),
    tile50_apply, bRow2_apply]

/-- Hidden layer 3's block-diagonal weights with a leading unit axis. -/
def wP3 (A : FVec F S7x50x50 .f32) : FVec F S1x250x250 .f32 :=
  broadcastInDim S1x250x250 ![1, 2] bcast_S250x250_S1x250x250_1_2 (kronMid eye5 (wT3 A))
/-- Hidden layer 3's tiled bias with a leading unit axis. -/
def bP3 (A : FVec F S7x50 .f32) : FVec F S1x250x1 .f32 :=
  broadcastInDim S1x250x1 ![1, 2] bcast_S250x1_S1x250x1_1_2 (tile50 (bRow3 A))

theorem wP3_apply (A : FVec Ideal S7x50x50 .f32) (u : Fin 1) (g : Fin 5) (a : Fin 50) (g' : Fin 5) (b : Fin 50) :
    wP3 A (ix3 u (st50 (g, a)) (st50 (g', b))) = dlt g g' * A (ix3 (3 : Fin 7) b a) := by
  unfold wP3
  rw [broadcastInDim_apply ![1, 2] bcast_S250x250_S1x250x250_1_2 _ (ix3 u (st50 (g, a)) (st50 (g', b))) (ix2 (st50 (g, a)) (st50 (g', b))) (fun ax => match ax with
      | ⟨0, _⟩ => by show (st50 (g, a)).val = if (250 : Nat) = 1 then 0 else (st50 (g, a)).val; rw [if_neg (by decide)]
      | ⟨1, _⟩ => by show (st50 (g', b)).val = if (250 : Nat) = 1 then 0 else (st50 (g', b)).val; rw [if_neg (by decide)]),
    kronMid_apply, eye5_apply, wT3_apply]

theorem bP3_apply (A : FVec Ideal S7x50 .f32) (u : Fin 1) (g : Fin 5) (a : Fin 50) (u' : Fin 1) :
    bP3 A (ix3 u (st50 (g, a)) u') = A (ix2 (3 : Fin 7) a) := by
  unfold bP3
  rw [broadcastInDim_apply ![1, 2] bcast_S250x1_S1x250x1_1_2 _ (ix3 u (st50 (g, a)) u') (ix2 (st50 (g, a)) u') (fun ax => match ax with
      | ⟨0, _⟩ => by show (st50 (g, a)).val = if (250 : Nat) = 1 then 0 else (st50 (g, a)).val; rw [if_neg (by decide)]
      | ⟨1, _⟩ => by show u'.val = if (1 : Nat) = 1 then 0 else u'.val; rw [if_pos rfl]; omega),
    tile50_apply, bRow3_apply]

/-- Hidden layer 4's block-diagonal weights with a leading unit axis. -/
def wP4 (A : FVec F S7x50x50 .f32) : FVec F S1x250x250 .f32 :=
  broadcastInDim S1x250x250 ![1, 2] bcast_S250x250_S1x250x250_1_2 (kronMid eye5 (wT4 A))
/-- Hidden layer 4's tiled bias with a leading unit axis. -/
def bP4 (A : FVec F S7x50 .f32) : FVec F S1x250x1 .f32 :=
  broadcastInDim S1x250x1 ![1, 2] bcast_S250x1_S1x250x1_1_2 (tile50 (bRow4 A))

theorem wP4_apply (A : FVec Ideal S7x50x50 .f32) (u : Fin 1) (g : Fin 5) (a : Fin 50) (g' : Fin 5) (b : Fin 50) :
    wP4 A (ix3 u (st50 (g, a)) (st50 (g', b))) = dlt g g' * A (ix3 (4 : Fin 7) b a) := by
  unfold wP4
  rw [broadcastInDim_apply ![1, 2] bcast_S250x250_S1x250x250_1_2 _ (ix3 u (st50 (g, a)) (st50 (g', b))) (ix2 (st50 (g, a)) (st50 (g', b))) (fun ax => match ax with
      | ⟨0, _⟩ => by show (st50 (g, a)).val = if (250 : Nat) = 1 then 0 else (st50 (g, a)).val; rw [if_neg (by decide)]
      | ⟨1, _⟩ => by show (st50 (g', b)).val = if (250 : Nat) = 1 then 0 else (st50 (g', b)).val; rw [if_neg (by decide)]),
    kronMid_apply, eye5_apply, wT4_apply]

theorem bP4_apply (A : FVec Ideal S7x50 .f32) (u : Fin 1) (g : Fin 5) (a : Fin 50) (u' : Fin 1) :
    bP4 A (ix3 u (st50 (g, a)) u') = A (ix2 (4 : Fin 7) a) := by
  unfold bP4
  rw [broadcastInDim_apply ![1, 2] bcast_S250x1_S1x250x1_1_2 _ (ix3 u (st50 (g, a)) u') (ix2 (st50 (g, a)) u') (fun ax => match ax with
      | ⟨0, _⟩ => by show (st50 (g, a)).val = if (250 : Nat) = 1 then 0 else (st50 (g, a)).val; rw [if_neg (by decide)]
      | ⟨1, _⟩ => by show u'.val = if (1 : Nat) = 1 then 0 else u'.val; rw [if_pos rfl]; omega),
    tile50_apply, bRow4_apply]

/-- Hidden layer 5's block-diagonal weights with a leading unit axis. -/
def wP5 (A : FVec F S7x50x50 .f32) : FVec F S1x250x250 .f32 :=
  broadcastInDim S1x250x250 ![1, 2] bcast_S250x250_S1x250x250_1_2 (kronMid eye5 (wT5 A))
/-- Hidden layer 5's tiled bias with a leading unit axis. -/
def bP5 (A : FVec F S7x50 .f32) : FVec F S1x250x1 .f32 :=
  broadcastInDim S1x250x1 ![1, 2] bcast_S250x1_S1x250x1_1_2 (tile50 (bRow5 A))

theorem wP5_apply (A : FVec Ideal S7x50x50 .f32) (u : Fin 1) (g : Fin 5) (a : Fin 50) (g' : Fin 5) (b : Fin 50) :
    wP5 A (ix3 u (st50 (g, a)) (st50 (g', b))) = dlt g g' * A (ix3 (5 : Fin 7) b a) := by
  unfold wP5
  rw [broadcastInDim_apply ![1, 2] bcast_S250x250_S1x250x250_1_2 _ (ix3 u (st50 (g, a)) (st50 (g', b))) (ix2 (st50 (g, a)) (st50 (g', b))) (fun ax => match ax with
      | ⟨0, _⟩ => by show (st50 (g, a)).val = if (250 : Nat) = 1 then 0 else (st50 (g, a)).val; rw [if_neg (by decide)]
      | ⟨1, _⟩ => by show (st50 (g', b)).val = if (250 : Nat) = 1 then 0 else (st50 (g', b)).val; rw [if_neg (by decide)]),
    kronMid_apply, eye5_apply, wT5_apply]

theorem bP5_apply (A : FVec Ideal S7x50 .f32) (u : Fin 1) (g : Fin 5) (a : Fin 50) (u' : Fin 1) :
    bP5 A (ix3 u (st50 (g, a)) u') = A (ix2 (5 : Fin 7) a) := by
  unfold bP5
  rw [broadcastInDim_apply ![1, 2] bcast_S250x1_S1x250x1_1_2 _ (ix3 u (st50 (g, a)) u') (ix2 (st50 (g, a)) u') (fun ax => match ax with
      | ⟨0, _⟩ => by show (st50 (g, a)).val = if (250 : Nat) = 1 then 0 else (st50 (g, a)).val; rw [if_neg (by decide)]
      | ⟨1, _⟩ => by show u'.val = if (1 : Nat) = 1 then 0 else u'.val; rw [if_pos rfl]; omega),
    tile50_apply, bRow5_apply]

/-- Hidden layer 6's block-diagonal weights with a leading unit axis. -/
def wP6 (A : FVec F S7x50x50 .f32) : FVec F S1x250x250 .f32 :=
  broadcastInDim S1x250x250 ![1, 2] bcast_S250x250_S1x250x250_1_2 (kronMid eye5 (wT6 A))
/-- Hidden layer 6's tiled bias with a leading unit axis. -/
def bP6 (A : FVec F S7x50 .f32) : FVec F S1x250x1 .f32 :=
  broadcastInDim S1x250x1 ![1, 2] bcast_S250x1_S1x250x1_1_2 (tile50 (bRow6 A))

theorem wP6_apply (A : FVec Ideal S7x50x50 .f32) (u : Fin 1) (g : Fin 5) (a : Fin 50) (g' : Fin 5) (b : Fin 50) :
    wP6 A (ix3 u (st50 (g, a)) (st50 (g', b))) = dlt g g' * A (ix3 (6 : Fin 7) b a) := by
  unfold wP6
  rw [broadcastInDim_apply ![1, 2] bcast_S250x250_S1x250x250_1_2 _ (ix3 u (st50 (g, a)) (st50 (g', b))) (ix2 (st50 (g, a)) (st50 (g', b))) (fun ax => match ax with
      | ⟨0, _⟩ => by show (st50 (g, a)).val = if (250 : Nat) = 1 then 0 else (st50 (g, a)).val; rw [if_neg (by decide)]
      | ⟨1, _⟩ => by show (st50 (g', b)).val = if (250 : Nat) = 1 then 0 else (st50 (g', b)).val; rw [if_neg (by decide)]),
    kronMid_apply, eye5_apply, wT6_apply]

theorem bP6_apply (A : FVec Ideal S7x50 .f32) (u : Fin 1) (g : Fin 5) (a : Fin 50) (u' : Fin 1) :
    bP6 A (ix3 u (st50 (g, a)) u') = A (ix2 (6 : Fin 7) a) := by
  unfold bP6
  rw [broadcastInDim_apply ![1, 2] bcast_S250x1_S1x250x1_1_2 _ (ix3 u (st50 (g, a)) u') (ix2 (st50 (g, a)) u') (fun ax => match ax with
      | ⟨0, _⟩ => by show (st50 (g, a)).val = if (250 : Nat) = 1 then 0 else (st50 (g, a)).val; rw [if_neg (by decide)]
      | ⟨1, _⟩ => by show u'.val = if (1 : Nat) = 1 then 0 else u'.val; rw [if_pos rfl]; omega),
    tile50_apply, bRow6_apply]

/-- The seven hidden layers' block-diagonal weights stacked along a new leading axis. -/
def wStack (A : FVec F S7x50x50 .f32) : FVec F S7x250x250 .f32 :=
  concatenate S7x250x250 0 [⟨S1x250x250, wP0 A⟩, ⟨S1x250x250, wP1 A⟩, ⟨S1x250x250, wP2 A⟩, ⟨S1x250x250, wP3 A⟩, ⟨S1x250x250, wP4 A⟩, ⟨S1x250x250, wP5 A⟩, ⟨S1x250x250, wP6 A⟩]
    concatenates_S1x250x250_S1x250x250_S1x250x250_S1x250x250_S1x250x250_S1x250x250_S1x250x250_S7x250x250_d0

/-- The seven hidden layers' tiled biases stacked along a new leading axis. -/
def bStack (A : FVec F S7x50 .f32) : FVec F S7x250x1 .f32 :=
  concatenate S7x250x1 0 [⟨S1x250x1, bP0 A⟩, ⟨S1x250x1, bP1 A⟩, ⟨S1x250x1, bP2 A⟩, ⟨S1x250x1, bP3 A⟩, ⟨S1x250x1, bP4 A⟩, ⟨S1x250x1, bP5 A⟩, ⟨S1x250x1, bP6 A⟩]
    concatenates_S1x250x1_S1x250x1_S1x250x1_S1x250x1_S1x250x1_S1x250x1_S1x250x1_S7x250x1_d0

theorem wStack_apply_0 (A : FVec Ideal S7x50x50 .f32) (g : Fin 5) (a : Fin 50) (g' : Fin 5) (b : Fin 50) :
    wStack A (ix3 (0 : Fin 7) (st50 (g, a)) (st50 (g', b))) = dlt g g' * A (ix3 (0 : Fin 7) b a) := by
  unfold wStack
  refine (concatenate_apply_piece (t := S7x250x250) (0 : Fin 3) [⟨S1x250x250, wP0 A⟩, ⟨S1x250x250, wP1 A⟩, ⟨S1x250x250, wP2 A⟩, ⟨S1x250x250, wP3 A⟩, ⟨S1x250x250, wP4 A⟩, ⟨S1x250x250, wP5 A⟩, ⟨S1x250x250, wP6 A⟩]
    concatenates_S1x250x250_S1x250x250_S1x250x250_S1x250x250_S1x250x250_S1x250x250_S1x250x250_S7x250x250_d0
    (ix3 (0 : Fin 7) (st50 (g, a)) (st50 (g', b))) 0 (by simp) S1x250x250 (wP0 A) rfl rfl 0 (by rfl) (ix3 (0 : Fin 1) (st50 (g, a)) (st50 (g', b)))
    (fun c hc => by match c with
      | ⟨0, _⟩ => exact absurd rfl hc
      | ⟨1, _⟩ => rfl
      | ⟨2, _⟩ => rfl) (by rfl)).trans ?_
  exact wP0_apply A _ g a g' b

theorem bStack_apply_0 (A : FVec Ideal S7x50 .f32) (g : Fin 5) (a : Fin 50) (u : Fin 1) :
    bStack A (ix3 (0 : Fin 7) (st50 (g, a)) u) = A (ix2 (0 : Fin 7) a) := by
  unfold bStack
  refine (concatenate_apply_piece (t := S7x250x1) (0 : Fin 3) [⟨S1x250x1, bP0 A⟩, ⟨S1x250x1, bP1 A⟩, ⟨S1x250x1, bP2 A⟩, ⟨S1x250x1, bP3 A⟩, ⟨S1x250x1, bP4 A⟩, ⟨S1x250x1, bP5 A⟩, ⟨S1x250x1, bP6 A⟩]
    concatenates_S1x250x1_S1x250x1_S1x250x1_S1x250x1_S1x250x1_S1x250x1_S1x250x1_S7x250x1_d0
    (ix3 (0 : Fin 7) (st50 (g, a)) u) 0 (by simp) S1x250x1 (bP0 A) rfl rfl 0 (by rfl) (ix3 (0 : Fin 1) (st50 (g, a)) u)
    (fun c hc => by match c with
      | ⟨0, _⟩ => exact absurd rfl hc
      | ⟨1, _⟩ => rfl
      | ⟨2, _⟩ => rfl) (by rfl)).trans ?_
  exact bP0_apply A _ g a u

theorem wStack_apply_1 (A : FVec Ideal S7x50x50 .f32) (g : Fin 5) (a : Fin 50) (g' : Fin 5) (b : Fin 50) :
    wStack A (ix3 (1 : Fin 7) (st50 (g, a)) (st50 (g', b))) = dlt g g' * A (ix3 (1 : Fin 7) b a) := by
  unfold wStack
  refine (concatenate_apply_piece (t := S7x250x250) (0 : Fin 3) [⟨S1x250x250, wP0 A⟩, ⟨S1x250x250, wP1 A⟩, ⟨S1x250x250, wP2 A⟩, ⟨S1x250x250, wP3 A⟩, ⟨S1x250x250, wP4 A⟩, ⟨S1x250x250, wP5 A⟩, ⟨S1x250x250, wP6 A⟩]
    concatenates_S1x250x250_S1x250x250_S1x250x250_S1x250x250_S1x250x250_S1x250x250_S1x250x250_S7x250x250_d0
    (ix3 (1 : Fin 7) (st50 (g, a)) (st50 (g', b))) 1 (by simp) S1x250x250 (wP1 A) rfl rfl 1 (by rfl) (ix3 (0 : Fin 1) (st50 (g, a)) (st50 (g', b)))
    (fun c hc => by match c with
      | ⟨0, _⟩ => exact absurd rfl hc
      | ⟨1, _⟩ => rfl
      | ⟨2, _⟩ => rfl) (by rfl)).trans ?_
  exact wP1_apply A _ g a g' b

theorem bStack_apply_1 (A : FVec Ideal S7x50 .f32) (g : Fin 5) (a : Fin 50) (u : Fin 1) :
    bStack A (ix3 (1 : Fin 7) (st50 (g, a)) u) = A (ix2 (1 : Fin 7) a) := by
  unfold bStack
  refine (concatenate_apply_piece (t := S7x250x1) (0 : Fin 3) [⟨S1x250x1, bP0 A⟩, ⟨S1x250x1, bP1 A⟩, ⟨S1x250x1, bP2 A⟩, ⟨S1x250x1, bP3 A⟩, ⟨S1x250x1, bP4 A⟩, ⟨S1x250x1, bP5 A⟩, ⟨S1x250x1, bP6 A⟩]
    concatenates_S1x250x1_S1x250x1_S1x250x1_S1x250x1_S1x250x1_S1x250x1_S1x250x1_S7x250x1_d0
    (ix3 (1 : Fin 7) (st50 (g, a)) u) 1 (by simp) S1x250x1 (bP1 A) rfl rfl 1 (by rfl) (ix3 (0 : Fin 1) (st50 (g, a)) u)
    (fun c hc => by match c with
      | ⟨0, _⟩ => exact absurd rfl hc
      | ⟨1, _⟩ => rfl
      | ⟨2, _⟩ => rfl) (by rfl)).trans ?_
  exact bP1_apply A _ g a u

theorem wStack_apply_2 (A : FVec Ideal S7x50x50 .f32) (g : Fin 5) (a : Fin 50) (g' : Fin 5) (b : Fin 50) :
    wStack A (ix3 (2 : Fin 7) (st50 (g, a)) (st50 (g', b))) = dlt g g' * A (ix3 (2 : Fin 7) b a) := by
  unfold wStack
  refine (concatenate_apply_piece (t := S7x250x250) (0 : Fin 3) [⟨S1x250x250, wP0 A⟩, ⟨S1x250x250, wP1 A⟩, ⟨S1x250x250, wP2 A⟩, ⟨S1x250x250, wP3 A⟩, ⟨S1x250x250, wP4 A⟩, ⟨S1x250x250, wP5 A⟩, ⟨S1x250x250, wP6 A⟩]
    concatenates_S1x250x250_S1x250x250_S1x250x250_S1x250x250_S1x250x250_S1x250x250_S1x250x250_S7x250x250_d0
    (ix3 (2 : Fin 7) (st50 (g, a)) (st50 (g', b))) 2 (by simp) S1x250x250 (wP2 A) rfl rfl 2 (by rfl) (ix3 (0 : Fin 1) (st50 (g, a)) (st50 (g', b)))
    (fun c hc => by match c with
      | ⟨0, _⟩ => exact absurd rfl hc
      | ⟨1, _⟩ => rfl
      | ⟨2, _⟩ => rfl) (by rfl)).trans ?_
  exact wP2_apply A _ g a g' b

theorem bStack_apply_2 (A : FVec Ideal S7x50 .f32) (g : Fin 5) (a : Fin 50) (u : Fin 1) :
    bStack A (ix3 (2 : Fin 7) (st50 (g, a)) u) = A (ix2 (2 : Fin 7) a) := by
  unfold bStack
  refine (concatenate_apply_piece (t := S7x250x1) (0 : Fin 3) [⟨S1x250x1, bP0 A⟩, ⟨S1x250x1, bP1 A⟩, ⟨S1x250x1, bP2 A⟩, ⟨S1x250x1, bP3 A⟩, ⟨S1x250x1, bP4 A⟩, ⟨S1x250x1, bP5 A⟩, ⟨S1x250x1, bP6 A⟩]
    concatenates_S1x250x1_S1x250x1_S1x250x1_S1x250x1_S1x250x1_S1x250x1_S1x250x1_S7x250x1_d0
    (ix3 (2 : Fin 7) (st50 (g, a)) u) 2 (by simp) S1x250x1 (bP2 A) rfl rfl 2 (by rfl) (ix3 (0 : Fin 1) (st50 (g, a)) u)
    (fun c hc => by match c with
      | ⟨0, _⟩ => exact absurd rfl hc
      | ⟨1, _⟩ => rfl
      | ⟨2, _⟩ => rfl) (by rfl)).trans ?_
  exact bP2_apply A _ g a u

theorem wStack_apply_3 (A : FVec Ideal S7x50x50 .f32) (g : Fin 5) (a : Fin 50) (g' : Fin 5) (b : Fin 50) :
    wStack A (ix3 (3 : Fin 7) (st50 (g, a)) (st50 (g', b))) = dlt g g' * A (ix3 (3 : Fin 7) b a) := by
  unfold wStack
  refine (concatenate_apply_piece (t := S7x250x250) (0 : Fin 3) [⟨S1x250x250, wP0 A⟩, ⟨S1x250x250, wP1 A⟩, ⟨S1x250x250, wP2 A⟩, ⟨S1x250x250, wP3 A⟩, ⟨S1x250x250, wP4 A⟩, ⟨S1x250x250, wP5 A⟩, ⟨S1x250x250, wP6 A⟩]
    concatenates_S1x250x250_S1x250x250_S1x250x250_S1x250x250_S1x250x250_S1x250x250_S1x250x250_S7x250x250_d0
    (ix3 (3 : Fin 7) (st50 (g, a)) (st50 (g', b))) 3 (by simp) S1x250x250 (wP3 A) rfl rfl 3 (by rfl) (ix3 (0 : Fin 1) (st50 (g, a)) (st50 (g', b)))
    (fun c hc => by match c with
      | ⟨0, _⟩ => exact absurd rfl hc
      | ⟨1, _⟩ => rfl
      | ⟨2, _⟩ => rfl) (by rfl)).trans ?_
  exact wP3_apply A _ g a g' b

theorem bStack_apply_3 (A : FVec Ideal S7x50 .f32) (g : Fin 5) (a : Fin 50) (u : Fin 1) :
    bStack A (ix3 (3 : Fin 7) (st50 (g, a)) u) = A (ix2 (3 : Fin 7) a) := by
  unfold bStack
  refine (concatenate_apply_piece (t := S7x250x1) (0 : Fin 3) [⟨S1x250x1, bP0 A⟩, ⟨S1x250x1, bP1 A⟩, ⟨S1x250x1, bP2 A⟩, ⟨S1x250x1, bP3 A⟩, ⟨S1x250x1, bP4 A⟩, ⟨S1x250x1, bP5 A⟩, ⟨S1x250x1, bP6 A⟩]
    concatenates_S1x250x1_S1x250x1_S1x250x1_S1x250x1_S1x250x1_S1x250x1_S1x250x1_S7x250x1_d0
    (ix3 (3 : Fin 7) (st50 (g, a)) u) 3 (by simp) S1x250x1 (bP3 A) rfl rfl 3 (by rfl) (ix3 (0 : Fin 1) (st50 (g, a)) u)
    (fun c hc => by match c with
      | ⟨0, _⟩ => exact absurd rfl hc
      | ⟨1, _⟩ => rfl
      | ⟨2, _⟩ => rfl) (by rfl)).trans ?_
  exact bP3_apply A _ g a u

theorem wStack_apply_4 (A : FVec Ideal S7x50x50 .f32) (g : Fin 5) (a : Fin 50) (g' : Fin 5) (b : Fin 50) :
    wStack A (ix3 (4 : Fin 7) (st50 (g, a)) (st50 (g', b))) = dlt g g' * A (ix3 (4 : Fin 7) b a) := by
  unfold wStack
  refine (concatenate_apply_piece (t := S7x250x250) (0 : Fin 3) [⟨S1x250x250, wP0 A⟩, ⟨S1x250x250, wP1 A⟩, ⟨S1x250x250, wP2 A⟩, ⟨S1x250x250, wP3 A⟩, ⟨S1x250x250, wP4 A⟩, ⟨S1x250x250, wP5 A⟩, ⟨S1x250x250, wP6 A⟩]
    concatenates_S1x250x250_S1x250x250_S1x250x250_S1x250x250_S1x250x250_S1x250x250_S1x250x250_S7x250x250_d0
    (ix3 (4 : Fin 7) (st50 (g, a)) (st50 (g', b))) 4 (by simp) S1x250x250 (wP4 A) rfl rfl 4 (by rfl) (ix3 (0 : Fin 1) (st50 (g, a)) (st50 (g', b)))
    (fun c hc => by match c with
      | ⟨0, _⟩ => exact absurd rfl hc
      | ⟨1, _⟩ => rfl
      | ⟨2, _⟩ => rfl) (by rfl)).trans ?_
  exact wP4_apply A _ g a g' b

theorem bStack_apply_4 (A : FVec Ideal S7x50 .f32) (g : Fin 5) (a : Fin 50) (u : Fin 1) :
    bStack A (ix3 (4 : Fin 7) (st50 (g, a)) u) = A (ix2 (4 : Fin 7) a) := by
  unfold bStack
  refine (concatenate_apply_piece (t := S7x250x1) (0 : Fin 3) [⟨S1x250x1, bP0 A⟩, ⟨S1x250x1, bP1 A⟩, ⟨S1x250x1, bP2 A⟩, ⟨S1x250x1, bP3 A⟩, ⟨S1x250x1, bP4 A⟩, ⟨S1x250x1, bP5 A⟩, ⟨S1x250x1, bP6 A⟩]
    concatenates_S1x250x1_S1x250x1_S1x250x1_S1x250x1_S1x250x1_S1x250x1_S1x250x1_S7x250x1_d0
    (ix3 (4 : Fin 7) (st50 (g, a)) u) 4 (by simp) S1x250x1 (bP4 A) rfl rfl 4 (by rfl) (ix3 (0 : Fin 1) (st50 (g, a)) u)
    (fun c hc => by match c with
      | ⟨0, _⟩ => exact absurd rfl hc
      | ⟨1, _⟩ => rfl
      | ⟨2, _⟩ => rfl) (by rfl)).trans ?_
  exact bP4_apply A _ g a u

theorem wStack_apply_5 (A : FVec Ideal S7x50x50 .f32) (g : Fin 5) (a : Fin 50) (g' : Fin 5) (b : Fin 50) :
    wStack A (ix3 (5 : Fin 7) (st50 (g, a)) (st50 (g', b))) = dlt g g' * A (ix3 (5 : Fin 7) b a) := by
  unfold wStack
  refine (concatenate_apply_piece (t := S7x250x250) (0 : Fin 3) [⟨S1x250x250, wP0 A⟩, ⟨S1x250x250, wP1 A⟩, ⟨S1x250x250, wP2 A⟩, ⟨S1x250x250, wP3 A⟩, ⟨S1x250x250, wP4 A⟩, ⟨S1x250x250, wP5 A⟩, ⟨S1x250x250, wP6 A⟩]
    concatenates_S1x250x250_S1x250x250_S1x250x250_S1x250x250_S1x250x250_S1x250x250_S1x250x250_S7x250x250_d0
    (ix3 (5 : Fin 7) (st50 (g, a)) (st50 (g', b))) 5 (by simp) S1x250x250 (wP5 A) rfl rfl 5 (by rfl) (ix3 (0 : Fin 1) (st50 (g, a)) (st50 (g', b)))
    (fun c hc => by match c with
      | ⟨0, _⟩ => exact absurd rfl hc
      | ⟨1, _⟩ => rfl
      | ⟨2, _⟩ => rfl) (by rfl)).trans ?_
  exact wP5_apply A _ g a g' b

theorem bStack_apply_5 (A : FVec Ideal S7x50 .f32) (g : Fin 5) (a : Fin 50) (u : Fin 1) :
    bStack A (ix3 (5 : Fin 7) (st50 (g, a)) u) = A (ix2 (5 : Fin 7) a) := by
  unfold bStack
  refine (concatenate_apply_piece (t := S7x250x1) (0 : Fin 3) [⟨S1x250x1, bP0 A⟩, ⟨S1x250x1, bP1 A⟩, ⟨S1x250x1, bP2 A⟩, ⟨S1x250x1, bP3 A⟩, ⟨S1x250x1, bP4 A⟩, ⟨S1x250x1, bP5 A⟩, ⟨S1x250x1, bP6 A⟩]
    concatenates_S1x250x1_S1x250x1_S1x250x1_S1x250x1_S1x250x1_S1x250x1_S1x250x1_S7x250x1_d0
    (ix3 (5 : Fin 7) (st50 (g, a)) u) 5 (by simp) S1x250x1 (bP5 A) rfl rfl 5 (by rfl) (ix3 (0 : Fin 1) (st50 (g, a)) u)
    (fun c hc => by match c with
      | ⟨0, _⟩ => exact absurd rfl hc
      | ⟨1, _⟩ => rfl
      | ⟨2, _⟩ => rfl) (by rfl)).trans ?_
  exact bP5_apply A _ g a u

theorem wStack_apply_6 (A : FVec Ideal S7x50x50 .f32) (g : Fin 5) (a : Fin 50) (g' : Fin 5) (b : Fin 50) :
    wStack A (ix3 (6 : Fin 7) (st50 (g, a)) (st50 (g', b))) = dlt g g' * A (ix3 (6 : Fin 7) b a) := by
  unfold wStack
  refine (concatenate_apply_piece (t := S7x250x250) (0 : Fin 3) [⟨S1x250x250, wP0 A⟩, ⟨S1x250x250, wP1 A⟩, ⟨S1x250x250, wP2 A⟩, ⟨S1x250x250, wP3 A⟩, ⟨S1x250x250, wP4 A⟩, ⟨S1x250x250, wP5 A⟩, ⟨S1x250x250, wP6 A⟩]
    concatenates_S1x250x250_S1x250x250_S1x250x250_S1x250x250_S1x250x250_S1x250x250_S1x250x250_S7x250x250_d0
    (ix3 (6 : Fin 7) (st50 (g, a)) (st50 (g', b))) 6 (by simp) S1x250x250 (wP6 A) rfl rfl 6 (by rfl) (ix3 (0 : Fin 1) (st50 (g, a)) (st50 (g', b)))
    (fun c hc => by match c with
      | ⟨0, _⟩ => exact absurd rfl hc
      | ⟨1, _⟩ => rfl
      | ⟨2, _⟩ => rfl) (by rfl)).trans ?_
  exact wP6_apply A _ g a g' b

theorem bStack_apply_6 (A : FVec Ideal S7x50 .f32) (g : Fin 5) (a : Fin 50) (u : Fin 1) :
    bStack A (ix3 (6 : Fin 7) (st50 (g, a)) u) = A (ix2 (6 : Fin 7) a) := by
  unfold bStack
  refine (concatenate_apply_piece (t := S7x250x1) (0 : Fin 3) [⟨S1x250x1, bP0 A⟩, ⟨S1x250x1, bP1 A⟩, ⟨S1x250x1, bP2 A⟩, ⟨S1x250x1, bP3 A⟩, ⟨S1x250x1, bP4 A⟩, ⟨S1x250x1, bP5 A⟩, ⟨S1x250x1, bP6 A⟩]
    concatenates_S1x250x1_S1x250x1_S1x250x1_S1x250x1_S1x250x1_S1x250x1_S1x250x1_S7x250x1_d0
    (ix3 (6 : Fin 7) (st50 (g, a)) u) 6 (by simp) S1x250x1 (bP6 A) rfl rfl 6 (by rfl) (ix3 (0 : Fin 1) (st50 (g, a)) u)
    (fun c hc => by match c with
      | ⟨0, _⟩ => exact absurd rfl hc
      | ⟨1, _⟩ => rfl
      | ⟨2, _⟩ => rfl) (by rfl)).trans ?_
  exact bP6_apply A _ g a u

/-- The stacked weights at (l, a + 50 g, b + 50 g'): `eye (g, g') * W_mid (l, b, a)`. -/
theorem wStack_apply (A : FVec Ideal S7x50x50 .f32) (l : Fin 7) (g : Fin 5) (a : Fin 50) (g' : Fin 5) (b : Fin 50) :
    wStack A (ix3 l (st50 (g, a)) (st50 (g', b))) = dlt g g' * A (ix3 l b a) := by
  fin_cases l
  · exact wStack_apply_0 A g a g' b
  · exact wStack_apply_1 A g a g' b
  · exact wStack_apply_2 A g a g' b
  · exact wStack_apply_3 A g a g' b
  · exact wStack_apply_4 A g a g' b
  · exact wStack_apply_5 A g a g' b
  · exact wStack_apply_6 A g a g' b

/-- The stacked biases at (l, a + 50 g, ·): `b_mid (l, a)`. -/
theorem bStack_apply (A : FVec Ideal S7x50 .f32) (l : Fin 7) (g : Fin 5) (a : Fin 50) (u : Fin 1) :
    bStack A (ix3 l (st50 (g, a)) u) = A (ix2 l a) := by
  fin_cases l
  · exact bStack_apply_0 A g a u
  · exact bStack_apply_1 A g a u
  · exact bStack_apply_2 A g a u
  · exact bStack_apply_3 A g a u
  · exact bStack_apply_4 A g a u
  · exact bStack_apply_5 A g a u
  · exact bStack_apply_6 A g a u

end Cert.KernelIdeal.HostRead

end
-- ==== Proof.HostKI.lean ====
/-
  The arrays the region finds, as functions of the nine arguments, and the blocks the body is handed.

  Run through the host prefix, each window's array is one of the forms of `HostRead`: a coordinate column viewed as
  a row, `kron (eye 5) Wᵀ`, a tiled bias, or the seven hidden layers' stacked.  A parameter window's block at every
  grid point is its whole array; a coordinate window's block at point `t` is lanes [16000 t, 16000 t + 16000).
-/
import proofs.«147603_j74036646248987_2_alg».proof.Proof.RunKI
import proofs.«147603_j74036646248987_2_alg».proof.Proof.HostRead
import Idealize.ShloMosaic.Lib.StableHlo.Run

set_option maxRecDepth 16384

noncomputable section

namespace Cert.KernelIdeal.Hand

open Cert.KernelIdeal Cert.KernelIdeal.Gen Cert.KernelIdeal.HostRead Cert.Mlp
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A host operation of seven operands at its own result buffer: its function of the seven operands' contents. -/
theorem nary7_result' {τ' : Topo} {sig' : RefSig} {Val : EltTy → Type} {x0 x1 x2 x3 x4 x5 x6 y : Ref sig' .tc}
    (f : ((k : Fin 7) → ((![x0, x1, x2, x3, x4, x5, x6] : Fin 7 → Ref sig' .tc) k).ty.Contents Val) → y.ty.Contents Val) (hxs hy)
    (G : Valuation τ' sig' Val) :
    (StableHlo.nary (τ := τ') ![x0, x1, x2, x3, x4, x5, x6] y f hxs hy).result G (no_index (Proc.devRef .tc y))
      = f (Fin.cons (G (Proc.devRef .tc x0)) (Fin.cons (G (Proc.devRef .tc x1)) (Fin.cons (G (Proc.devRef .tc x2)) (Fin.cons (G (Proc.devRef .tc x3))
          (Fin.cons (G (Proc.devRef .tc x4)) (Fin.cons (G (Proc.devRef .tc x5)) (Fin.cons (G (Proc.devRef .tc x6)) (fun i => i.elim0)))))))) := by
  rw [StableHlo.nary_result]; congr 1; funext k; fin_cases k <;> rfl

variable (m : (ℓ : Loc nD τ sig) → Buf (Elt F) ℓ)

/-! ## The windows' arrays as the region finds them -/

set_option maxHeartbeats 4000000 in
theorem V_win0 (c : Dev nD) : (V m c main_v155 : S1x2000000.Idx → Elt F .f32) =
    shapeCast S1x2000000 (m ((c : Thread nD τ).loc main_arg0)) shapeCasts_S2000000x1_S1x2000000 := by
  dsimp only [V, V0, prefixOps]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  simp (disch := decide) only [StableHlo.after_cons, StableHlo.after_nil, nary7_result', StableHlo.nullary_result', StableHlo.unary_result', StableHlo.binary_result', StableHlo.ternary_result', StableHlo.quaternary_result', StableHlo.reshape_result', StableHlo.nary4_result', StableHlo.nary_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne']
  rfl

set_option maxHeartbeats 4000000 in
theorem V_win1 (c : Dev nD) : (V m c main_v156 : S1x2000000.Idx → Elt F .f32) =
    shapeCast S1x2000000 (m ((c : Thread nD τ).loc main_arg1)) shapeCasts_S2000000x1_S1x2000000 := by
  dsimp only [V, V0, prefixOps]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  simp (disch := decide) only [StableHlo.after_cons, StableHlo.after_nil, nary7_result', StableHlo.nullary_result', StableHlo.unary_result', StableHlo.binary_result', StableHlo.ternary_result', StableHlo.quaternary_result', StableHlo.reshape_result', StableHlo.nary4_result', StableHlo.nary_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne']
  rfl

set_option maxHeartbeats 4000000 in
theorem V_win2 (c : Dev nD) : (V m c main_v157 : S1x2000000.Idx → Elt F .f32) =
    shapeCast S1x2000000 (m ((c : Thread nD τ).loc main_arg2)) shapeCasts_S2000000x1_S1x2000000 := by
  dsimp only [V, V0, prefixOps]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  simp (disch := decide) only [StableHlo.after_cons, StableHlo.after_nil, nary7_result', StableHlo.nullary_result', StableHlo.unary_result', StableHlo.binary_result', StableHlo.ternary_result', StableHlo.quaternary_result', StableHlo.reshape_result', StableHlo.nary4_result', StableHlo.nary_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne']
  rfl

set_option maxHeartbeats 4000000 in
theorem V_win3 (c : Dev nD) : (V m c main_v8 : S250x15.Idx → Elt F .bf16) =
    truncf .bf16 (kronIn eye5 (transpose S50x3 [1, 0] (m ((c : Thread nD τ).loc main_arg3)) transposes_S3x50_S50x3_1_0)) bitsLt_bf16_f32 := by
  dsimp only [V, V0, prefixOps]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  simp (disch := decide) only [StableHlo.after_cons, StableHlo.after_nil, nary7_result', StableHlo.nullary_result', StableHlo.unary_result', StableHlo.binary_result', StableHlo.ternary_result', StableHlo.quaternary_result', StableHlo.reshape_result', StableHlo.nary4_result', StableHlo.nary_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne']
  rfl

set_option maxHeartbeats 4000000 in
theorem V_win4 (c : Dev nD) : (V m c main_v12 : S250x1.Idx → Elt F .f32) = tile50 (m ((c : Thread nD τ).loc main_arg4)) := by
  dsimp only [V, V0, prefixOps]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  simp (disch := decide) only [StableHlo.after_cons, StableHlo.after_nil, nary7_result', StableHlo.nullary_result', StableHlo.unary_result', StableHlo.binary_result', StableHlo.ternary_result', StableHlo.quaternary_result', StableHlo.reshape_result', StableHlo.nary4_result', StableHlo.nary_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne']
  rfl

set_option maxHeartbeats 16000000 in
theorem V_win5 (c : Dev nD) : (V m c main_v91 : S7x250x250.Idx → Elt F .bf16) = truncf .bf16 (wStack (m ((c : Thread nD τ).loc main_arg5))) bitsLt_bf16_f32 := by
  dsimp only [V, V0, prefixOps]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  simp (disch := decide) only [StableHlo.after_cons, StableHlo.after_nil, nary7_result', StableHlo.nullary_result', StableHlo.unary_result', StableHlo.binary_result', StableHlo.ternary_result', StableHlo.quaternary_result', StableHlo.reshape_result', StableHlo.nary4_result', StableHlo.nary_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne']
  rfl

set_option maxHeartbeats 16000000 in
theorem V_win6 (c : Dev nD) : (V m c main_v141 : S7x250x1.Idx → Elt F .f32) = bStack (m ((c : Thread nD τ).loc main_arg6)) := by
  dsimp only [V, V0, prefixOps]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  simp (disch := decide) only [StableHlo.after_cons, StableHlo.after_nil, nary7_result', StableHlo.nullary_result', StableHlo.unary_result', StableHlo.binary_result', StableHlo.ternary_result', StableHlo.quaternary_result', StableHlo.reshape_result', StableHlo.nary4_result', StableHlo.nary_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne']
  rfl

set_option maxHeartbeats 4000000 in
theorem V_win7 (c : Dev nD) : (V m c main_v150 : S15x250.Idx → Elt F .bf16) =
    truncf .bf16 (kronOut eye5 (transpose S3x50 [1, 0] (m ((c : Thread nD τ).loc main_arg7)) transposes_S50x3_S3x50_1_0)) bitsLt_bf16_f32 := by
  dsimp only [V, V0, prefixOps]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  simp (disch := decide) only [StableHlo.after_cons, StableHlo.after_nil, nary7_result', StableHlo.nullary_result', StableHlo.unary_result', StableHlo.binary_result', StableHlo.ternary_result', StableHlo.quaternary_result', StableHlo.reshape_result', StableHlo.nary4_result', StableHlo.nary_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne']
  rfl

set_option maxHeartbeats 4000000 in
theorem V_win8 (c : Dev nD) : (V m c main_v154 : S15x1.Idx → Elt F .f32) = tile3 (m ((c : Thread nD τ).loc main_arg8)) := by
  dsimp only [V, V0, prefixOps]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  simp (disch := decide) only [StableHlo.after_cons, StableHlo.after_nil, nary7_result', StableHlo.nullary_result', StableHlo.unary_result', StableHlo.binary_result', StableHlo.ternary_result', StableHlo.quaternary_result', StableHlo.reshape_result', StableHlo.nary4_result', StableHlo.nary_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne']
  rfl

end Cert.KernelIdeal.Hand

end
-- ==== Proof.Layers.lean ====
/-
  The kernel body's arithmetic read at an index on the extended reals.

  The body's activation is [250, 3200]: row `a + 50 g` holds feature `a` of the row group `g`, lane `j` of group `g` is
  row `3200 g + j` of the block.  Each layer multiplies by a matrix whose rows are those of `kron (eye 5) Wᵀ`; by
  `Cert.Mlp.affine_blockdiag` the entry at (a + 50 g, j) is the reference's affine layer over group `g`'s own features.
  So, layer by layer, the stacked activation at (a + 50 g, j) is the network's hidden activation `a` on the block's
  row `3200 g + j`, and the [15, 3200] result at (k + 3 g, j) is the network's output `k` on that row.
-/
import proofs.«147603_j74036646248987_2_alg».proof.Proof.BodyKI
import proofs.«147603_j74036646248987_2_alg».proof.Proof.Spec
import proofs.«147603_j74036646248987_2_alg».proof.Proof.LibLayout
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Layers

open Cert.KernelIdeal Cert.KernelIdeal.Gen Cert.KernelIdeal.Hand Cert.Mlp
open Idealize.ShloMosaic Idealize.ShloMosaic.ValueIdx

/-! ## The three matrix products at an index -/

theorem lhs0_in (i : S250x3200.Idx) (q : dot_S250x15_S15x3200_S250x3200_1_0_0_1_n_n.contr.Idx) : (dot_S250x15_S15x3200_S250x3200_1_0_0_1_n_n.lhsIdx i q 0).val = (i 0).val := by
  unfold DotDims.lhsIdx
  rw [dif_neg (show ¬(0 : Fin S250x15.rank) ∈ dot_S250x15_S15x3200_S250x3200_1_0_0_1_n_n.lhsBatch by decide), dif_pos (show (0 : Fin S250x15.rank) ∈ dot_S250x15_S15x3200_S250x3200_1_0_0_1_n_n.lhsNonContracting by decide)]
  rfl
theorem rhs1_in (i : S250x3200.Idx) (q : dot_S250x15_S15x3200_S250x3200_1_0_0_1_n_n.contr.Idx) : (dot_S250x15_S15x3200_S250x3200_1_0_0_1_n_n.rhsIdx i q 1).val = (i 1).val := by
  unfold DotDims.rhsIdx
  rw [dif_neg (show ¬(1 : Fin S15x3200.rank) ∈ dot_S250x15_S15x3200_S250x3200_1_0_0_1_n_n.rhsBatch by decide), dif_pos (show (1 : Fin S15x3200.rank) ∈ dot_S250x15_S15x3200_S250x3200_1_0_0_1_n_n.rhsNonContracting by decide)]
  rfl
/-- The [250, 15] × [15, 3200] product into the zero accumulator, at (r, j): the sum over the 15 contracted positions. -/
theorem mm_in {φ₁ φ₂ : FTy} (lhs : FVec Ideal S250x15 φ₁) (rhs : FVec Ideal S15x3200 φ₂) (r : Fin 250) (j : Fin 3200) :
    matmul dot_S250x15_S15x3200_S250x3200_1_0_0_1_n_n none lhs rhs (constant S250x3200 .f32 0x00000000#32) (ix2 r j) = ∑ k : Fin 15, lhs (ix2 r k) * rhs (ix2 k j) := by
  simp only [matmul]
  rw [Ideal.matmul_constant_zero_apply, ← Equiv.sum_comp (ValueIdx.contrEquiv1 dot_S250x15_S15x3200_S250x3200_1_0_0_1_n_n 15 rfl rfl).symm]
  refine Finset.sum_congr rfl fun k _ => ?_
  have hk := ValueIdx.contrEquiv1_symm_val dot_S250x15_S15x3200_S250x3200_1_0_0_1_n_n 15 rfl rfl k
  have el : dot_S250x15_S15x3200_S250x3200_1_0_0_1_n_n.lhsIdx (ix2 r j) ((ValueIdx.contrEquiv1 dot_S250x15_S15x3200_S250x3200_1_0_0_1_n_n 15 rfl rfl).symm k) = ix2 r k := funext fun a => Fin.ext (by
    match a with
    | ⟨0, _⟩ => exact lhs0_in _ _
    | ⟨1, _⟩ => exact (dot_S250x15_S15x3200_S250x3200_1_0_0_1_n_n.lhsIdx_val_of_single rfl _ _).trans hk)
  have er : dot_S250x15_S15x3200_S250x3200_1_0_0_1_n_n.rhsIdx (ix2 r j) ((ValueIdx.contrEquiv1 dot_S250x15_S15x3200_S250x3200_1_0_0_1_n_n 15 rfl rfl).symm k) = ix2 k j := funext fun a => Fin.ext (by
    match a with
    | ⟨0, _⟩ => exact (dot_S250x15_S15x3200_S250x3200_1_0_0_1_n_n.rhsIdx_val_of_single rfl _ _).trans hk
    | ⟨1, _⟩ => exact rhs1_in _ _)
  rw [el, er]

theorem lhs0_mid (i : S250x3200.Idx) (q : dot_S250x250_S250x3200_S250x3200_1_0_0_1_n_n.contr.Idx) : (dot_S250x250_S250x3200_S250x3200_1_0_0_1_n_n.lhsIdx i q 0).val = (i 0).val := by
  unfold DotDims.lhsIdx
  rw [dif_neg (show ¬(0 : Fin S250x250.rank) ∈ dot_S250x250_S250x3200_S250x3200_1_0_0_1_n_n.lhsBatch by decide), dif_pos (show (0 : Fin S250x250.rank) ∈ dot_S250x250_S250x3200_S250x3200_1_0_0_1_n_n.lhsNonContracting by decide)]
  rfl
theorem rhs1_mid (i : S250x3200.Idx) (q : dot_S250x250_S250x3200_S250x3200_1_0_0_1_n_n.contr.Idx) : (dot_S250x250_S250x3200_S250x3200_1_0_0_1_n_n.rhsIdx i q 1).val = (i 1).val := by
  unfold DotDims.rhsIdx
  rw [dif_neg (show ¬(1 : Fin S250x3200.rank) ∈ dot_S250x250_S250x3200_S250x3200_1_0_0_1_n_n.rhsBatch by decide), dif_pos (show (1 : Fin S250x3200.rank) ∈ dot_S250x250_S250x3200_S250x3200_1_0_0_1_n_n.rhsNonContracting by decide)]
  rfl
/-- The [250, 250] × [250, 3200] product into the zero accumulator, at (r, j): the sum over the 250 contracted positions. -/
theorem mm_mid {φ₁ φ₂ : FTy} (lhs : FVec Ideal S250x250 φ₁) (rhs : FVec Ideal S250x3200 φ₂) (r : Fin 250) (j : Fin 3200) :
    matmul dot_S250x250_S250x3200_S250x3200_1_0_0_1_n_n none lhs rhs (constant S250x3200 .f32 0x00000000#32) (ix2 r j) = ∑ k : Fin 250, lhs (ix2 r k) * rhs (ix2 k j) := by
  simp only [matmul]
  rw [Ideal.matmul_constant_zero_apply, ← Equiv.sum_comp (ValueIdx.contrEquiv1 dot_S250x250_S250x3200_S250x3200_1_0_0_1_n_n 250 rfl rfl).symm]
  refine Finset.sum_congr rfl fun k _ => ?_
  have hk := ValueIdx.contrEquiv1_symm_val dot_S250x250_S250x3200_S250x3200_1_0_0_1_n_n 250 rfl rfl k
  have el : dot_S250x250_S250x3200_S250x3200_1_0_0_1_n_n.lhsIdx (ix2 r j) ((ValueIdx.contrEquiv1 dot_S250x250_S250x3200_S250x3200_1_0_0_1_n_n 250 rfl rfl).symm k) = ix2 r k := funext fun a => Fin.ext (by
    match a with
    | ⟨0, _⟩ => exact lhs0_mid _ _
    | ⟨1, _⟩ => exact (dot_S250x250_S250x3200_S250x3200_1_0_0_1_n_n.lhsIdx_val_of_single rfl _ _).trans hk)
  have er : dot_S250x250_S250x3200_S250x3200_1_0_0_1_n_n.rhsIdx (ix2 r j) ((ValueIdx.contrEquiv1 dot_S250x250_S250x3200_S250x3200_1_0_0_1_n_n 250 rfl rfl).symm k) = ix2 k j := funext fun a => Fin.ext (by
    match a with
    | ⟨0, _⟩ => exact (dot_S250x250_S250x3200_S250x3200_1_0_0_1_n_n.rhsIdx_val_of_single rfl _ _).trans hk
    | ⟨1, _⟩ => exact rhs1_mid _ _)
  rw [el, er]

theorem lhs0_out (i : S15x3200.Idx) (q : dot_S15x250_S250x3200_S15x3200_1_0_0_1_n_n.contr.Idx) : (dot_S15x250_S250x3200_S15x3200_1_0_0_1_n_n.lhsIdx i q 0).val = (i 0).val := by
  unfold DotDims.lhsIdx
  rw [dif_neg (show ¬(0 : Fin S15x250.rank) ∈ dot_S15x250_S250x3200_S15x3200_1_0_0_1_n_n.lhsBatch by decide), dif_pos (show (0 : Fin S15x250.rank) ∈ dot_S15x250_S250x3200_S15x3200_1_0_0_1_n_n.lhsNonContracting by decide)]
  rfl
theorem rhs1_out (i : S15x3200.Idx) (q : dot_S15x250_S250x3200_S15x3200_1_0_0_1_n_n.contr.Idx) : (dot_S15x250_S250x3200_S15x3200_1_0_0_1_n_n.rhsIdx i q 1).val = (i 1).val := by
  unfold DotDims.rhsIdx
  rw [dif_neg (show ¬(1 : Fin S250x3200.rank) ∈ dot_S15x250_S250x3200_S15x3200_1_0_0_1_n_n.rhsBatch by decide), dif_pos (show (1 : Fin S250x3200.rank) ∈ dot_S15x250_S250x3200_S15x3200_1_0_0_1_n_n.rhsNonContracting by decide)]
  rfl
/-- The [15, 250] × [250, 3200] product into the zero accumulator, at (r, j): the sum over the 250 contracted positions. -/
theorem mm_out {φ₁ φ₂ : FTy} (lhs : FVec Ideal S15x250 φ₁) (rhs : FVec Ideal S250x3200 φ₂) (r : Fin 15) (j : Fin 3200) :
    matmul dot_S15x250_S250x3200_S15x3200_1_0_0_1_n_n none lhs rhs (constant S15x3200 .f32 0x00000000#32) (ix2 r j) = ∑ k : Fin 250, lhs (ix2 r k) * rhs (ix2 k j) := by
  simp only [matmul]
  rw [Ideal.matmul_constant_zero_apply, ← Equiv.sum_comp (ValueIdx.contrEquiv1 dot_S15x250_S250x3200_S15x3200_1_0_0_1_n_n 250 rfl rfl).symm]
  refine Finset.sum_congr rfl fun k _ => ?_
  have hk := ValueIdx.contrEquiv1_symm_val dot_S15x250_S250x3200_S15x3200_1_0_0_1_n_n 250 rfl rfl k
  have el : dot_S15x250_S250x3200_S15x3200_1_0_0_1_n_n.lhsIdx (ix2 r j) ((ValueIdx.contrEquiv1 dot_S15x250_S250x3200_S15x3200_1_0_0_1_n_n 250 rfl rfl).symm k) = ix2 r k := funext fun a => Fin.ext (by
    match a with
    | ⟨0, _⟩ => exact lhs0_out _ _
    | ⟨1, _⟩ => exact (dot_S15x250_S250x3200_S15x3200_1_0_0_1_n_n.lhsIdx_val_of_single rfl _ _).trans hk)
  have er : dot_S15x250_S250x3200_S15x3200_1_0_0_1_n_n.rhsIdx (ix2 r j) ((ValueIdx.contrEquiv1 dot_S15x250_S250x3200_S15x3200_1_0_0_1_n_n 250 rfl rfl).symm k) = ix2 k j := funext fun a => Fin.ext (by
    match a with
    | ⟨0, _⟩ => exact (dot_S15x250_S250x3200_S15x3200_1_0_0_1_n_n.rhsIdx_val_of_single rfl _ _).trans hk
    | ⟨1, _⟩ => exact rhs1_out _ _)
  rw [el, er]

/-! ## One layer, in the body's form -/

variable {F : FTy → Type} [FloatOps F]

/-- A hidden layer as the body computes it, from the weight and bias slices it loaded. -/
def midL (Wl : Vec F S1x250x250 .bf16) (bl : Vec F S1x250x1 .f32) (v : FVec F S250x3200 .bf16) : FVec F S250x3200 .f32 :=
  tanh (addf (matmul dot_S250x250_S250x3200_S250x3200_1_0_0_1_n_n none (shapeCast S250x250 Wl shapeCasts_S1x250x250_S250x250) v (constant S250x3200 .f32 0x00000000#32))
    (broadcastTo S250x3200 (shapeCast S250x1 bl shapeCasts_S1x250x1_S250x1) broadcasts_S250x1_S250x3200))

/-- The output layer as the body computes it. -/
def outL (Wo : Vec F S15x250 .bf16) (bo : Vec F S15x1 .f32) (v : FVec F S250x3200 .bf16) : FVec F S15x3200 .f32 :=
  addf (matmul dot_S15x250_S250x3200_S15x3200_1_0_0_1_n_n none (shapeCast S15x250 Wo shapeCasts_S15x250_S15x250) v (constant S15x3200 .f32 0x00000000#32))
    (broadcastTo S15x3200 (shapeCast S15x1 bo shapeCasts_S15x1_S15x1) broadcasts_S15x1_S15x3200)

/-- Lanes [0, 3200) of a coordinate block. -/
def lane0 (v : Vec F S1x16000 .f32) : FVec F S1x3200 .f32 :=
  extractStridedSlice S1x3200 ![0, 0] (shapeCast S1x16000 v shapeCasts_S1x16000_S1x16000) slices_S1x16000_o0_0_S1x3200
/-- Row group 0's three coordinates stacked. -/
def grp0 (v0 v2 v4 : Vec F S1x16000 .f32) : FVec F S3x3200 .f32 :=
  concatenate S3x3200 0 [⟨S1x3200, lane0 v0⟩, ⟨S1x3200, lane0 v2⟩, ⟨S1x3200, lane0 v4⟩] concatenates_S1x3200_S1x3200_S1x3200_S3x3200_d0

/-- Lanes [3200, 6400) of a coordinate block. -/
def lane1 (v : Vec F S1x16000 .f32) : FVec F S1x3200 .f32 :=
  extractStridedSlice S1x3200 ![0, 3200] (shapeCast S1x16000 v shapeCasts_S1x16000_S1x16000) slices_S1x16000_o0_3200_S1x3200
/-- Row group 1's three coordinates stacked. -/
def grp1 (v0 v2 v4 : Vec F S1x16000 .f32) : FVec F S3x3200 .f32 :=
  concatenate S3x3200 0 [⟨S1x3200, lane1 v0⟩, ⟨S1x3200, lane1 v2⟩, ⟨S1x3200, lane1 v4⟩] concatenates_S1x3200_S1x3200_S1x3200_S3x3200_d0

/-- Lanes [6400, 9600) of a coordinate block. -/
def lane2 (v : Vec F S1x16000 .f32) : FVec F S1x3200 .f32 :=
  extractStridedSlice S1x3200 ![0, 6400] (shapeCast S1x16000 v shapeCasts_S1x16000_S1x16000) slices_S1x16000_o0_6400_S1x3200
/-- Row group 2's three coordinates stacked. -/
def grp2 (v0 v2 v4 : Vec F S1x16000 .f32) : FVec F S3x3200 .f32 :=
  concatenate S3x3200 0 [⟨S1x3200, lane2 v0⟩, ⟨S1x3200, lane2 v2⟩, ⟨S1x3200, lane2 v4⟩] concatenates_S1x3200_S1x3200_S1x3200_S3x3200_d0

/-- Lanes [9600, 12800) of a coordinate block. -/
def lane3 (v : Vec F S1x16000 .f32) : FVec F S1x3200 .f32 :=
  extractStridedSlice S1x3200 ![0, 9600] (shapeCast S1x16000 v shapeCasts_S1x16000_S1x16000) slices_S1x16000_o0_9600_S1x3200
/-- Row group 3's three coordinates stacked. -/
def grp3 (v0 v2 v4 : Vec F S1x16000 .f32) : FVec F S3x3200 .f32 :=
  concatenate S3x3200 0 [⟨S1x3200, lane3 v0⟩, ⟨S1x3200, lane3 v2⟩, ⟨S1x3200, lane3 v4⟩] concatenates_S1x3200_S1x3200_S1x3200_S3x3200_d0

/-- Lanes [12800, 16000) of a coordinate block. -/
def lane4 (v : Vec F S1x16000 .f32) : FVec F S1x3200 .f32 :=
  extractStridedSlice S1x3200 ![0, 12800] (shapeCast S1x16000 v shapeCasts_S1x16000_S1x16000) slices_S1x16000_o0_12800_S1x3200
/-- Row group 4's three coordinates stacked. -/
def grp4 (v0 v2 v4 : Vec F S1x16000 .f32) : FVec F S3x3200 .f32 :=
  concatenate S3x3200 0 [⟨S1x3200, lane4 v0⟩, ⟨S1x3200, lane4 v2⟩, ⟨S1x3200, lane4 v4⟩] concatenates_S1x3200_S1x3200_S1x3200_S3x3200_d0

/-- The stacked coordinates the input layer multiplies: row `k + 3 g` is coordinate `k` of lanes [3200 g, 3200 g + 3200). -/
def uin (v0 v2 v4 : Vec F S1x16000 .f32) : FVec F S15x3200 .f32 :=
  concatenate S15x3200 0 [⟨S3x3200, grp0 v0 v2 v4⟩, ⟨S3x3200, grp1 v0 v2 v4⟩, ⟨S3x3200, grp2 v0 v2 v4⟩, ⟨S3x3200, grp3 v0 v2 v4⟩, ⟨S3x3200, grp4 v0 v2 v4⟩]
    concatenates_S3x3200_S3x3200_S3x3200_S3x3200_S3x3200_S15x3200_d0

/-- The input layer as the body computes it. -/
def inL (v0 v2 v4 : Vec F S1x16000 .f32) (v28 : Vec F S250x15 .bf16) (v30 : Vec F S250x1 .f32) : FVec F S250x3200 .f32 :=
  tanh (addf (matmul dot_S250x15_S15x3200_S250x3200_1_0_0_1_n_n none (shapeCast S250x15 v28 shapeCasts_S250x15_S250x15) (truncf .bf16 (uin v0 v2 v4) bitsLt_bf16_f32) (constant S250x3200 .f32 0x00000000#32))
    (broadcastTo S250x3200 (shapeCast S250x1 v30 shapeCasts_S250x1_S250x1) broadcasts_S250x1_S250x3200))

/-- The body's result is the nine layers composed (the printed payloads unfolded). -/
theorem res15_eq (x0 x1 x2 : Vec F S1x16000 .f32) (x3 : Vec F S250x15 .bf16) (x4 : Vec F S250x1 .f32) (x5 : Vec F S7x250x250 .bf16)
    (x6 : Vec F S7x250x1 .f32) (x7 : Vec F S15x250 .bf16) (x8 : Vec F S15x1 .f32) :
    res15 x0 x1 x2 x3 x4 x5 x6 x7 x8 =
      outL (View.ld x7 rWout) (View.ld x8 rBout) (truncf .bf16 (midL (View.ld x5 rW6) (View.ld x6 rB6) (truncf .bf16 (midL (View.ld x5 rW5) (View.ld x6 rB5) (truncf .bf16 (midL (View.ld x5 rW4) (View.ld x6 rB4) (truncf .bf16 (midL (View.ld x5 rW3) (View.ld x6 rB3) (truncf .bf16 (midL (View.ld x5 rW2) (View.ld x6 rB2) (truncf .bf16 (midL (View.ld x5 rW1) (View.ld x6 rB1) (truncf .bf16 (midL (View.ld x5 rW0) (View.ld x6 rB0) (truncf .bf16 (inL (View.ld x0 rX) (View.ld x1 rX) (View.ld x2 rX) (View.ld x3 rWin) (View.ld x4 rBin)) bitsLt_bf16_f32)) bitsLt_bf16_f32)) bitsLt_bf16_f32)) bitsLt_bf16_f32)) bitsLt_bf16_f32)) bitsLt_bf16_f32)) bitsLt_bf16_f32)) bitsLt_bf16_f32) := rfl

/-! ## The layers at an index -/

theorem uin_0_0 (v0 v2 v4 : Vec Ideal S1x16000 .f32) (j : Fin 3200) :
    uin v0 v2 v4 (ix2 (⟨0, by decide⟩ : Fin 15) j) = v0 (ix2 (0 : Fin 1) (⟨0 + j.val, by have := j.isLt; omega⟩ : Fin 16000)) := by
  unfold uin
  refine (concatenate_apply_piece (t := S15x3200) (0 : Fin 2) [⟨S3x3200, grp0 v0 v2 v4⟩, ⟨S3x3200, grp1 v0 v2 v4⟩, ⟨S3x3200, grp2 v0 v2 v4⟩, ⟨S3x3200, grp3 v0 v2 v4⟩, ⟨S3x3200, grp4 v0 v2 v4⟩]
    concatenates_S3x3200_S3x3200_S3x3200_S3x3200_S3x3200_S15x3200_d0 (ix2 (⟨0, by decide⟩ : Fin 15) j)
    0 (by simp) S3x3200 (grp0 v0 v2 v4) rfl rfl 0 (by rfl) (ix2 (⟨0, by decide⟩ : Fin 3) j)
    (fun b hb => by match b with
      | ⟨0, _⟩ => exact absurd rfl hb
      | ⟨1, _⟩ => rfl) (by rfl)).trans ?_
  unfold grp0
  refine (concatenate_apply_piece (t := S3x3200) (0 : Fin 2) [⟨S1x3200, lane0 v0⟩, ⟨S1x3200, lane0 v2⟩, ⟨S1x3200, lane0 v4⟩]
    concatenates_S1x3200_S1x3200_S1x3200_S3x3200_d0 (ix2 (⟨0, by decide⟩ : Fin 3) j)
    0 (by simp) S1x3200 (lane0 v0) rfl rfl 0 (by rfl) (ix2 (0 : Fin 1) j)
    (fun b hb => by match b with
      | ⟨0, _⟩ => exact absurd rfl hb
      | ⟨1, _⟩ => rfl) (by rfl)).trans ?_
  unfold lane0
  refine (extractStridedSlice_apply ![0, 0] _ slices_S1x16000_o0_0_S1x3200 (ix2 (0 : Fin 1) j)
    (ix2 (0 : Fin 1) (⟨0 + j.val, by have := j.isLt; omega⟩ : Fin 16000)) (fun ax => match ax with
      | ⟨0, _⟩ => by rfl
      | ⟨1, _⟩ => by rfl)).trans ?_
  rw [shapeCast_self]

theorem uin_0_1 (v0 v2 v4 : Vec Ideal S1x16000 .f32) (j : Fin 3200) :
    uin v0 v2 v4 (ix2 (⟨1, by decide⟩ : Fin 15) j) = v2 (ix2 (0 : Fin 1) (⟨0 + j.val, by have := j.isLt; omega⟩ : Fin 16000)) := by
  unfold uin
  refine (concatenate_apply_piece (t := S15x3200) (0 : Fin 2) [⟨S3x3200, grp0 v0 v2 v4⟩, ⟨S3x3200, grp1 v0 v2 v4⟩, ⟨S3x3200, grp2 v0 v2 v4⟩, ⟨S3x3200, grp3 v0 v2 v4⟩, ⟨S3x3200, grp4 v0 v2 v4⟩]
    concatenates_S3x3200_S3x3200_S3x3200_S3x3200_S3x3200_S15x3200_d0 (ix2 (⟨1, by decide⟩ : Fin 15) j)
    0 (by simp) S3x3200 (grp0 v0 v2 v4) rfl rfl 0 (by rfl) (ix2 (⟨1, by decide⟩ : Fin 3) j)
    (fun b hb => by match b with
      | ⟨0, _⟩ => exact absurd rfl hb
      | ⟨1, _⟩ => rfl) (by rfl)).trans ?_
  unfold grp0
  refine (concatenate_apply_piece (t := S3x3200) (0 : Fin 2) [⟨S1x3200, lane0 v0⟩, ⟨S1x3200, lane0 v2⟩, ⟨S1x3200, lane0 v4⟩]
    concatenates_S1x3200_S1x3200_S1x3200_S3x3200_d0 (ix2 (⟨1, by decide⟩ : Fin 3) j)
    1 (by simp) S1x3200 (lane0 v2) rfl rfl 1 (by rfl) (ix2 (0 : Fin 1) j)
    (fun b hb => by match b with
      | ⟨0, _⟩ => exact absurd rfl hb
      | ⟨1, _⟩ => rfl) (by rfl)).trans ?_
  unfold lane0
  refine (extractStridedSlice_apply ![0, 0] _ slices_S1x16000_o0_0_S1x3200 (ix2 (0 : Fin 1) j)
    (ix2 (0 : Fin 1) (⟨0 + j.val, by have := j.isLt; omega⟩ : Fin 16000)) (fun ax => match ax with
      | ⟨0, _⟩ => by rfl
      | ⟨1, _⟩ => by rfl)).trans ?_
  rw [shapeCast_self]

theorem uin_0_2 (v0 v2 v4 : Vec Ideal S1x16000 .f32) (j : Fin 3200) :
    uin v0 v2 v4 (ix2 (⟨2, by decide⟩ : Fin 15) j) = v4 (ix2 (0 : Fin 1) (⟨0 + j.val, by have := j.isLt; omega⟩ : Fin 16000)) := by
  unfold uin
  refine (concatenate_apply_piece (t := S15x3200) (0 : Fin 2) [⟨S3x3200, grp0 v0 v2 v4⟩, ⟨S3x3200, grp1 v0 v2 v4⟩, ⟨S3x3200, grp2 v0 v2 v4⟩, ⟨S3x3200, grp3 v0 v2 v4⟩, ⟨S3x3200, grp4 v0 v2 v4⟩]
    concatenates_S3x3200_S3x3200_S3x3200_S3x3200_S3x3200_S15x3200_d0 (ix2 (⟨2, by decide⟩ : Fin 15) j)
    0 (by simp) S3x3200 (grp0 v0 v2 v4) rfl rfl 0 (by rfl) (ix2 (⟨2, by decide⟩ : Fin 3) j)
    (fun b hb => by match b with
      | ⟨0, _⟩ => exact absurd rfl hb
      | ⟨1, _⟩ => rfl) (by rfl)).trans ?_
  unfold grp0
  refine (concatenate_apply_piece (t := S3x3200) (0 : Fin 2) [⟨S1x3200, lane0 v0⟩, ⟨S1x3200, lane0 v2⟩, ⟨S1x3200, lane0 v4⟩]
    concatenates_S1x3200_S1x3200_S1x3200_S3x3200_d0 (ix2 (⟨2, by decide⟩ : Fin 3) j)
    2 (by simp) S1x3200 (lane0 v4) rfl rfl 2 (by rfl) (ix2 (0 : Fin 1) j)
    (fun b hb => by match b with
      | ⟨0, _⟩ => exact absurd rfl hb
      | ⟨1, _⟩ => rfl) (by rfl)).trans ?_
  unfold lane0
  refine (extractStridedSlice_apply ![0, 0] _ slices_S1x16000_o0_0_S1x3200 (ix2 (0 : Fin 1) j)
    (ix2 (0 : Fin 1) (⟨0 + j.val, by have := j.isLt; omega⟩ : Fin 16000)) (fun ax => match ax with
      | ⟨0, _⟩ => by rfl
      | ⟨1, _⟩ => by rfl)).trans ?_
  rw [shapeCast_self]

theorem uin_1_0 (v0 v2 v4 : Vec Ideal S1x16000 .f32) (j : Fin 3200) :
    uin v0 v2 v4 (ix2 (⟨3, by decide⟩ : Fin 15) j) = v0 (ix2 (0 : Fin 1) (⟨3200 + j.val, by have := j.isLt; omega⟩ : Fin 16000)) := by
  unfold uin
  refine (concatenate_apply_piece (t := S15x3200) (0 : Fin 2) [⟨S3x3200, grp0 v0 v2 v4⟩, ⟨S3x3200, grp1 v0 v2 v4⟩, ⟨S3x3200, grp2 v0 v2 v4⟩, ⟨S3x3200, grp3 v0 v2 v4⟩, ⟨S3x3200, grp4 v0 v2 v4⟩]
    concatenates_S3x3200_S3x3200_S3x3200_S3x3200_S3x3200_S15x3200_d0 (ix2 (⟨3, by decide⟩ : Fin 15) j)
    1 (by simp) S3x3200 (grp1 v0 v2 v4) rfl rfl 3 (by rfl) (ix2 (⟨0, by decide⟩ : Fin 3) j)
    (fun b hb => by match b with
      | ⟨0, _⟩ => exact absurd rfl hb
      | ⟨1, _⟩ => rfl) (by rfl)).trans ?_
  unfold grp1
  refine (concatenate_apply_piece (t := S3x3200) (0 : Fin 2) [⟨S1x3200, lane1 v0⟩, ⟨S1x3200, lane1 v2⟩, ⟨S1x3200, lane1 v4⟩]
    concatenates_S1x3200_S1x3200_S1x3200_S3x3200_d0 (ix2 (⟨0, by decide⟩ : Fin 3) j)
    0 (by simp) S1x3200 (lane1 v0) rfl rfl 0 (by rfl) (ix2 (0 : Fin 1) j)
    (fun b hb => by match b with
      | ⟨0, _⟩ => exact absurd rfl hb
      | ⟨1, _⟩ => rfl) (by rfl)).trans ?_
  unfold lane1
  refine (extractStridedSlice_apply ![0, 3200] _ slices_S1x16000_o0_3200_S1x3200 (ix2 (0 : Fin 1) j)
    (ix2 (0 : Fin 1) (⟨3200 + j.val, by have := j.isLt; omega⟩ : Fin 16000)) (fun ax => match ax with
      | ⟨0, _⟩ => by rfl
      | ⟨1, _⟩ => by rfl)).trans ?_
  rw [shapeCast_self]

theorem uin_1_1 (v0 v2 v4 : Vec Ideal S1x16000 .f32) (j : Fin 3200) :
    uin v0 v2 v4 (ix2 (⟨4, by decide⟩ : Fin 15) j) = v2 (ix2 (0 : Fin 1) (⟨3200 + j.val, by have := j.isLt; omega⟩ : Fin 16000)) := by
  unfold uin
  refine (concatenate_apply_piece (t := S15x3200) (0 : Fin 2) [⟨S3x3200, grp0 v0 v2 v4⟩, ⟨S3x3200, grp1 v0 v2 v4⟩, ⟨S3x3200, grp2 v0 v2 v4⟩, ⟨S3x3200, grp3 v0 v2 v4⟩, ⟨S3x3200, grp4 v0 v2 v4⟩]
    concatenates_S3x3200_S3x3200_S3x3200_S3x3200_S3x3200_S15x3200_d0 (ix2 (⟨4, by decide⟩ : Fin 15) j)
    1 (by simp) S3x3200 (grp1 v0 v2 v4) rfl rfl 3 (by rfl) (ix2 (⟨1, by decide⟩ : Fin 3) j)
    (fun b hb => by match b with
      | ⟨0, _⟩ => exact absurd rfl hb
      | ⟨1, _⟩ => rfl) (by rfl)).trans ?_
  unfold grp1
  refine (concatenate_apply_piece (t := S3x3200) (0 : Fin 2) [⟨S1x3200, lane1 v0⟩, ⟨S1x3200, lane1 v2⟩, ⟨S1x3200, lane1 v4⟩]
    concatenates_S1x3200_S1x3200_S1x3200_S3x3200_d0 (ix2 (⟨1, by decide⟩ : Fin 3) j)
    1 (by simp) S1x3200 (lane1 v2) rfl rfl 1 (by rfl) (ix2 (0 : Fin 1) j)
    (fun b hb => by match b with
      | ⟨0, _⟩ => exact absurd rfl hb
      | ⟨1, _⟩ => rfl) (by rfl)).trans ?_
  unfold lane1
  refine (extractStridedSlice_apply ![0, 3200] _ slices_S1x16000_o0_3200_S1x3200 (ix2 (0 : Fin 1) j)
    (ix2 (0 : Fin 1) (⟨3200 + j.val, by have := j.isLt; omega⟩ : Fin 16000)) (fun ax => match ax with
      | ⟨0, _⟩ => by rfl
      | ⟨1, _⟩ => by rfl)).trans ?_
  rw [shapeCast_self]

theorem uin_1_2 (v0 v2 v4 : Vec Ideal S1x16000 .f32) (j : Fin 3200) :
    uin v0 v2 v4 (ix2 (⟨5, by decide⟩ : Fin 15) j) = v4 (ix2 (0 : Fin 1) (⟨3200 + j.val, by have := j.isLt; omega⟩ : Fin 16000)) := by
  unfold uin
  refine (concatenate_apply_piece (t := S15x3200) (0 : Fin 2) [⟨S3x3200, grp0 v0 v2 v4⟩, ⟨S3x3200, grp1 v0 v2 v4⟩, ⟨S3x3200, grp2 v0 v2 v4⟩, ⟨S3x3200, grp3 v0 v2 v4⟩, ⟨S3x3200, grp4 v0 v2 v4⟩]
    concatenates_S3x3200_S3x3200_S3x3200_S3x3200_S3x3200_S15x3200_d0 (ix2 (⟨5, by decide⟩ : Fin 15) j)
    1 (by simp) S3x3200 (grp1 v0 v2 v4) rfl rfl 3 (by rfl) (ix2 (⟨2, by decide⟩ : Fin 3) j)
    (fun b hb => by match b with
      | ⟨0, _⟩ => exact absurd rfl hb
      | ⟨1, _⟩ => rfl) (by rfl)).trans ?_
  unfold grp1
  refine (concatenate_apply_piece (t := S3x3200) (0 : Fin 2) [⟨S1x3200, lane1 v0⟩, ⟨S1x3200, lane1 v2⟩, ⟨S1x3200, lane1 v4⟩]
    concatenates_S1x3200_S1x3200_S1x3200_S3x3200_d0 (ix2 (⟨2, by decide⟩ : Fin 3) j)
    2 (by simp) S1x3200 (lane1 v4) rfl rfl 2 (by rfl) (ix2 (0 : Fin 1) j)
    (fun b hb => by match b with
      | ⟨0, _⟩ => exact absurd rfl hb
      | ⟨1, _⟩ => rfl) (by rfl)).trans ?_
  unfold lane1
  refine (extractStridedSlice_apply ![0, 3200] _ slices_S1x16000_o0_3200_S1x3200 (ix2 (0 : Fin 1) j)
    (ix2 (0 : Fin 1) (⟨3200 + j.val, by have := j.isLt; omega⟩ : Fin 16000)) (fun ax => match ax with
      | ⟨0, _⟩ => by rfl
      | ⟨1, _⟩ => by rfl)).trans ?_
  rw [shapeCast_self]

theorem uin_2_0 (v0 v2 v4 : Vec Ideal S1x16000 .f32) (j : Fin 3200) :
    uin v0 v2 v4 (ix2 (⟨6, by decide⟩ : Fin 15) j) = v0 (ix2 (0 : Fin 1) (⟨6400 + j.val, by have := j.isLt; omega⟩ : Fin 16000)) := by
  unfold uin
  refine (concatenate_apply_piece (t := S15x3200) (0 : Fin 2) [⟨S3x3200, grp0 v0 v2 v4⟩, ⟨S3x3200, grp1 v0 v2 v4⟩, ⟨S3x3200, grp2 v0 v2 v4⟩, ⟨S3x3200, grp3 v0 v2 v4⟩, ⟨S3x3200, grp4 v0 v2 v4⟩]
    concatenates_S3x3200_S3x3200_S3x3200_S3x3200_S3x3200_S15x3200_d0 (ix2 (⟨6, by decide⟩ : Fin 15) j)
    2 (by simp) S3x3200 (grp2 v0 v2 v4) rfl rfl 6 (by rfl) (ix2 (⟨0, by decide⟩ : Fin 3) j)
    (fun b hb => by match b with
      | ⟨0, _⟩ => exact absurd rfl hb
      | ⟨1, _⟩ => rfl) (by rfl)).trans ?_
  unfold grp2
  refine (concatenate_apply_piece (t := S3x3200) (0 : Fin 2) [⟨S1x3200, lane2 v0⟩, ⟨S1x3200, lane2 v2⟩, ⟨S1x3200, lane2 v4⟩]
    concatenates_S1x3200_S1x3200_S1x3200_S3x3200_d0 (ix2 (⟨0, by decide⟩ : Fin 3) j)
    0 (by simp) S1x3200 (lane2 v0) rfl rfl 0 (by rfl) (ix2 (0 : Fin 1) j)
    (fun b hb => by match b with
      | ⟨0, _⟩ => exact absurd rfl hb
      | ⟨1, _⟩ => rfl) (by rfl)).trans ?_
  unfold lane2
  refine (extractStridedSlice_apply ![0, 6400] _ slices_S1x16000_o0_6400_S1x3200 (ix2 (0 : Fin 1) j)
    (ix2 (0 : Fin 1) (⟨6400 + j.val, by have := j.isLt; omega⟩ : Fin 16000)) (fun ax => match ax with
      | ⟨0, _⟩ => by rfl
      | ⟨1, _⟩ => by rfl)).trans ?_
  rw [shapeCast_self]

theorem uin_2_1 (v0 v2 v4 : Vec Ideal S1x16000 .f32) (j : Fin 3200) :
    uin v0 v2 v4 (ix2 (⟨7, by decide⟩ : Fin 15) j) = v2 (ix2 (0 : Fin 1) (⟨6400 + j.val, by have := j.isLt; omega⟩ : Fin 16000)) := by
  unfold uin
  refine (concatenate_apply_piece (t := S15x3200) (0 : Fin 2) [⟨S3x3200, grp0 v0 v2 v4⟩, ⟨S3x3200, grp1 v0 v2 v4⟩, ⟨S3x3200, grp2 v0 v2 v4⟩, ⟨S3x3200, grp3 v0 v2 v4⟩, ⟨S3x3200, grp4 v0 v2 v4⟩]
    concatenates_S3x3200_S3x3200_S3x3200_S3x3200_S3x3200_S15x3200_d0 (ix2 (⟨7, by decide⟩ : Fin 15) j)
    2 (by simp) S3x3200 (grp2 v0 v2 v4) rfl rfl 6 (by rfl) (ix2 (⟨1, by decide⟩ : Fin 3) j)
    (fun b hb => by match b with
      | ⟨0, _⟩ => exact absurd rfl hb
      | ⟨1, _⟩ => rfl) (by rfl)).trans ?_
  unfold grp2
  refine (concatenate_apply_piece (t := S3x3200) (0 : Fin 2) [⟨S1x3200, lane2 v0⟩, ⟨S1x3200, lane2 v2⟩, ⟨S1x3200, lane2 v4⟩]
    concatenates_S1x3200_S1x3200_S1x3200_S3x3200_d0 (ix2 (⟨1, by decide⟩ : Fin 3) j)
    1 (by simp) S1x3200 (lane2 v2) rfl rfl 1 (by rfl) (ix2 (0 : Fin 1) j)
    (fun b hb => by match b with
      | ⟨0, _⟩ => exact absurd rfl hb
      | ⟨1, _⟩ => rfl) (by rfl)).trans ?_
  unfold lane2
  refine (extractStridedSlice_apply ![0, 6400] _ slices_S1x16000_o0_6400_S1x3200 (ix2 (0 : Fin 1) j)
    (ix2 (0 : Fin 1) (⟨6400 + j.val, by have := j.isLt; omega⟩ : Fin 16000)) (fun ax => match ax with
      | ⟨0, _⟩ => by rfl
      | ⟨1, _⟩ => by rfl)).trans ?_
  rw [shapeCast_self]

theorem uin_2_2 (v0 v2 v4 : Vec Ideal S1x16000 .f32) (j : Fin 3200) :
    uin v0 v2 v4 (ix2 (⟨8, by decide⟩ : Fin 15) j) = v4 (ix2 (0 : Fin 1) (⟨6400 + j.val, by have := j.isLt; omega⟩ : Fin 16000)) := by
  unfold uin
  refine (concatenate_apply_piece (t := S15x3200) (0 : Fin 2) [⟨S3x3200, grp0 v0 v2 v4⟩, ⟨S3x3200, grp1 v0 v2 v4⟩, ⟨S3x3200, grp2 v0 v2 v4⟩, ⟨S3x3200, grp3 v0 v2 v4⟩, ⟨S3x3200, grp4 v0 v2 v4⟩]
    concatenates_S3x3200_S3x3200_S3x3200_S3x3200_S3x3200_S15x3200_d0 (ix2 (⟨8, by decide⟩ : Fin 15) j)
    2 (by simp) S3x3200 (grp2 v0 v2 v4) rfl rfl 6 (by rfl) (ix2 (⟨2, by decide⟩ : Fin 3) j)
    (fun b hb => by match b with
      | ⟨0, _⟩ => exact absurd rfl hb
      | ⟨1, _⟩ => rfl) (by rfl)).trans ?_
  unfold grp2
  refine (concatenate_apply_piece (t := S3x3200) (0 : Fin 2) [⟨S1x3200, lane2 v0⟩, ⟨S1x3200, lane2 v2⟩, ⟨S1x3200, lane2 v4⟩]
    concatenates_S1x3200_S1x3200_S1x3200_S3x3200_d0 (ix2 (⟨2, by decide⟩ : Fin 3) j)
    2 (by simp) S1x3200 (lane2 v4) rfl rfl 2 (by rfl) (ix2 (0 : Fin 1) j)
    (fun b hb => by match b with
      | ⟨0, _⟩ => exact absurd rfl hb
      | ⟨1, _⟩ => rfl) (by rfl)).trans ?_
  unfold lane2
  refine (extractStridedSlice_apply ![0, 6400] _ slices_S1x16000_o0_6400_S1x3200 (ix2 (0 : Fin 1) j)
    (ix2 (0 : Fin 1) (⟨6400 + j.val, by have := j.isLt; omega⟩ : Fin 16000)) (fun ax => match ax with
      | ⟨0, _⟩ => by rfl
      | ⟨1, _⟩ => by rfl)).trans ?_
  rw [shapeCast_self]

theorem uin_3_0 (v0 v2 v4 : Vec Ideal S1x16000 .f32) (j : Fin 3200) :
    uin v0 v2 v4 (ix2 (⟨9, by decide⟩ : Fin 15) j) = v0 (ix2 (0 : Fin 1) (⟨9600 + j.val, by have := j.isLt; omega⟩ : Fin 16000)) := by
  unfold uin
  refine (concatenate_apply_piece (t := S15x3200) (0 : Fin 2) [⟨S3x3200, grp0 v0 v2 v4⟩, ⟨S3x3200, grp1 v0 v2 v4⟩, ⟨S3x3200, grp2 v0 v2 v4⟩, ⟨S3x3200, grp3 v0 v2 v4⟩, ⟨S3x3200, grp4 v0 v2 v4⟩]
    concatenates_S3x3200_S3x3200_S3x3200_S3x3200_S3x3200_S15x3200_d0 (ix2 (⟨9, by decide⟩ : Fin 15) j)
    3 (by simp) S3x3200 (grp3 v0 v2 v4) rfl rfl 9 (by rfl) (ix2 (⟨0, by decide⟩ : Fin 3) j)
    (fun b hb => by match b with
      | ⟨0, _⟩ => exact absurd rfl hb
      | ⟨1, _⟩ => rfl) (by rfl)).trans ?_
  unfold grp3
  refine (concatenate_apply_piece (t := S3x3200) (0 : Fin 2) [⟨S1x3200, lane3 v0⟩, ⟨S1x3200, lane3 v2⟩, ⟨S1x3200, lane3 v4⟩]
    concatenates_S1x3200_S1x3200_S1x3200_S3x3200_d0 (ix2 (⟨0, by decide⟩ : Fin 3) j)
    0 (by simp) S1x3200 (lane3 v0) rfl rfl 0 (by rfl) (ix2 (0 : Fin 1) j)
    (fun b hb => by match b with
      | ⟨0, _⟩ => exact absurd rfl hb
      | ⟨1, _⟩ => rfl) (by rfl)).trans ?_
  unfold lane3
  refine (extractStridedSlice_apply ![0, 9600] _ slices_S1x16000_o0_9600_S1x3200 (ix2 (0 : Fin 1) j)
    (ix2 (0 : Fin 1) (⟨9600 + j.val, by have := j.isLt; omega⟩ : Fin 16000)) (fun ax => match ax with
      | ⟨0, _⟩ => by rfl
      | ⟨1, _⟩ => by rfl)).trans ?_
  rw [shapeCast_self]

theorem uin_3_1 (v0 v2 v4 : Vec Ideal S1x16000 .f32) (j : Fin 3200) :
    uin v0 v2 v4 (ix2 (⟨10, by decide⟩ : Fin 15) j) = v2 (ix2 (0 : Fin 1) (⟨9600 + j.val, by have := j.isLt; omega⟩ : Fin 16000)) := by
  unfold uin
  refine (concatenate_apply_piece (t := S15x3200) (0 : Fin 2) [⟨S3x3200, grp0 v0 v2 v4⟩, ⟨S3x3200, grp1 v0 v2 v4⟩, ⟨S3x3200, grp2 v0 v2 v4⟩, ⟨S3x3200, grp3 v0 v2 v4⟩, ⟨S3x3200, grp4 v0 v2 v4⟩]
    concatenates_S3x3200_S3x3200_S3x3200_S3x3200_S3x3200_S15x3200_d0 (ix2 (⟨10, by decide⟩ : Fin 15) j)
    3 (by simp) S3x3200 (grp3 v0 v2 v4) rfl rfl 9 (by rfl) (ix2 (⟨1, by decide⟩ : Fin 3) j)
    (fun b hb => by match b with
      | ⟨0, _⟩ => exact absurd rfl hb
      | ⟨1, _⟩ => rfl) (by rfl)).trans ?_
  unfold grp3
  refine (concatenate_apply_piece (t := S3x3200) (0 : Fin 2) [⟨S1x3200, lane3 v0⟩, ⟨S1x3200, lane3 v2⟩, ⟨S1x3200, lane3 v4⟩]
    concatenates_S1x3200_S1x3200_S1x3200_S3x3200_d0 (ix2 (⟨1, by decide⟩ : Fin 3) j)
    1 (by simp) S1x3200 (lane3 v2) rfl rfl 1 (by rfl) (ix2 (0 : Fin 1) j)
    (fun b hb => by match b with
      | ⟨0, _⟩ => exact absurd rfl hb
      | ⟨1, _⟩ => rfl) (by rfl)).trans ?_
  unfold lane3
  refine (extractStridedSlice_apply ![0, 9600] _ slices_S1x16000_o0_9600_S1x3200 (ix2 (0 : Fin 1) j)
    (ix2 (0 : Fin 1) (⟨9600 + j.val, by have := j.isLt; omega⟩ : Fin 16000)) (fun ax => match ax with
      | ⟨0, _⟩ => by rfl
      | ⟨1, _⟩ => by rfl)).trans ?_
  rw [shapeCast_self]

theorem uin_3_2 (v0 v2 v4 : Vec Ideal S1x16000 .f32) (j : Fin 3200) :
    uin v0 v2 v4 (ix2 (⟨11, by decide⟩ : Fin 15) j) = v4 (ix2 (0 : Fin 1) (⟨9600 + j.val, by have := j.isLt; omega⟩ : Fin 16000)) := by
  unfold uin
  refine (concatenate_apply_piece (t := S15x3200) (0 : Fin 2) [⟨S3x3200, grp0 v0 v2 v4⟩, ⟨S3x3200, grp1 v0 v2 v4⟩, ⟨S3x3200, grp2 v0 v2 v4⟩, ⟨S3x3200, grp3 v0 v2 v4⟩, ⟨S3x3200, grp4 v0 v2 v4⟩]
    concatenates_S3x3200_S3x3200_S3x3200_S3x3200_S3x3200_S15x3200_d0 (ix2 (⟨11, by decide⟩ : Fin 15) j)
    3 (by simp) S3x3200 (grp3 v0 v2 v4) rfl rfl 9 (by rfl) (ix2 (⟨2, by decide⟩ : Fin 3) j)
    (fun b hb => by match b with
      | ⟨0, _⟩ => exact absurd rfl hb
      | ⟨1, _⟩ => rfl) (by rfl)).trans ?_
  unfold grp3
  refine (concatenate_apply_piece (t := S3x3200) (0 : Fin 2) [⟨S1x3200, lane3 v0⟩, ⟨S1x3200, lane3 v2⟩, ⟨S1x3200, lane3 v4⟩]
    concatenates_S1x3200_S1x3200_S1x3200_S3x3200_d0 (ix2 (⟨2, by decide⟩ : Fin 3) j)
    2 (by simp) S1x3200 (lane3 v4) rfl rfl 2 (by rfl) (ix2 (0 : Fin 1) j)
    (fun b hb => by match b with
      | ⟨0, _⟩ => exact absurd rfl hb
      | ⟨1, _⟩ => rfl) (by rfl)).trans ?_
  unfold lane3
  refine (extractStridedSlice_apply ![0, 9600] _ slices_S1x16000_o0_9600_S1x3200 (ix2 (0 : Fin 1) j)
    (ix2 (0 : Fin 1) (⟨9600 + j.val, by have := j.isLt; omega⟩ : Fin 16000)) (fun ax => match ax with
      | ⟨0, _⟩ => by rfl
      | ⟨1, _⟩ => by rfl)).trans ?_
  rw [shapeCast_self]

theorem uin_4_0 (v0 v2 v4 : Vec Ideal S1x16000 .f32) (j : Fin 3200) :
    uin v0 v2 v4 (ix2 (⟨12, by decide⟩ : Fin 15) j) = v0 (ix2 (0 : Fin 1) (⟨12800 + j.val, by have := j.isLt; omega⟩ : Fin 16000)) := by
  unfold uin
  refine (concatenate_apply_piece (t := S15x3200) (0 : Fin 2) [⟨S3x3200, grp0 v0 v2 v4⟩, ⟨S3x3200, grp1 v0 v2 v4⟩, ⟨S3x3200, grp2 v0 v2 v4⟩, ⟨S3x3200, grp3 v0 v2 v4⟩, ⟨S3x3200, grp4 v0 v2 v4⟩]
    concatenates_S3x3200_S3x3200_S3x3200_S3x3200_S3x3200_S15x3200_d0 (ix2 (⟨12, by decide⟩ : Fin 15) j)
    4 (by simp) S3x3200 (grp4 v0 v2 v4) rfl rfl 12 (by rfl) (ix2 (⟨0, by decide⟩ : Fin 3) j)
    (fun b hb => by match b with
      | ⟨0, _⟩ => exact absurd rfl hb
      | ⟨1, _⟩ => rfl) (by rfl)).trans ?_
  unfold grp4
  refine (concatenate_apply_piece (t := S3x3200) (0 : Fin 2) [⟨S1x3200, lane4 v0⟩, ⟨S1x3200, lane4 v2⟩, ⟨S1x3200, lane4 v4⟩]
    concatenates_S1x3200_S1x3200_S1x3200_S3x3200_d0 (ix2 (⟨0, by decide⟩ : Fin 3) j)
    0 (by simp) S1x3200 (lane4 v0) rfl rfl 0 (by rfl) (ix2 (0 : Fin 1) j)
    (fun b hb => by match b with
      | ⟨0, _⟩ => exact absurd rfl hb
      | ⟨1, _⟩ => rfl) (by rfl)).trans ?_
  unfold lane4
  refine (extractStridedSlice_apply ![0, 12800] _ slices_S1x16000_o0_12800_S1x3200 (ix2 (0 : Fin 1) j)
    (ix2 (0 : Fin 1) (⟨12800 + j.val, by have := j.isLt; omega⟩ : Fin 16000)) (fun ax => match ax with
      | ⟨0, _⟩ => by rfl
      | ⟨1, _⟩ => by rfl)).trans ?_
  rw [shapeCast_self]

theorem uin_4_1 (v0 v2 v4 : Vec Ideal S1x16000 .f32) (j : Fin 3200) :
    uin v0 v2 v4 (ix2 (⟨13, by decide⟩ : Fin 15) j) = v2 (ix2 (0 : Fin 1) (⟨12800 + j.val, by have := j.isLt; omega⟩ : Fin 16000)) := by
  unfold uin
  refine (concatenate_apply_piece (t := S15x3200) (0 : Fin 2) [⟨S3x3200, grp0 v0 v2 v4⟩, ⟨S3x3200, grp1 v0 v2 v4⟩, ⟨S3x3200, grp2 v0 v2 v4⟩, ⟨S3x3200, grp3 v0 v2 v4⟩, ⟨S3x3200, grp4 v0 v2 v4⟩]
    concatenates_S3x3200_S3x3200_S3x3200_S3x3200_S3x3200_S15x3200_d0 (ix2 (⟨13, by decide⟩ : Fin 15) j)
    4 (by simp) S3x3200 (grp4 v0 v2 v4) rfl rfl 12 (by rfl) (ix2 (⟨1, by decide⟩ : Fin 3) j)
    (fun b hb => by match b with
      | ⟨0, _⟩ => exact absurd rfl hb
      | ⟨1, _⟩ => rfl) (by rfl)).trans ?_
  unfold grp4
  refine (concatenate_apply_piece (t := S3x3200) (0 : Fin 2) [⟨S1x3200, lane4 v0⟩, ⟨S1x3200, lane4 v2⟩, ⟨S1x3200, lane4 v4⟩]
    concatenates_S1x3200_S1x3200_S1x3200_S3x3200_d0 (ix2 (⟨1, by decide⟩ : Fin 3) j)
    1 (by simp) S1x3200 (lane4 v2) rfl rfl 1 (by rfl) (ix2 (0 : Fin 1) j)
    (fun b hb => by match b with
      | ⟨0, _⟩ => exact absurd rfl hb
      | ⟨1, _⟩ => rfl) (by rfl)).trans ?_
  unfold lane4
  refine (extractStridedSlice_apply ![0, 12800] _ slices_S1x16000_o0_12800_S1x3200 (ix2 (0 : Fin 1) j)
    (ix2 (0 : Fin 1) (⟨12800 + j.val, by have := j.isLt; omega⟩ : Fin 16000)) (fun ax => match ax with
      | ⟨0, _⟩ => by rfl
      | ⟨1, _⟩ => by rfl)).trans ?_
  rw [shapeCast_self]

theorem uin_4_2 (v0 v2 v4 : Vec Ideal S1x16000 .f32) (j : Fin 3200) :
    uin v0 v2 v4 (ix2 (⟨14, by decide⟩ : Fin 15) j) = v4 (ix2 (0 : Fin 1) (⟨12800 + j.val, by have := j.isLt; omega⟩ : Fin 16000)) := by
  unfold uin
  refine (concatenate_apply_piece (t := S15x3200) (0 : Fin 2) [⟨S3x3200, grp0 v0 v2 v4⟩, ⟨S3x3200, grp1 v0 v2 v4⟩, ⟨S3x3200, grp2 v0 v2 v4⟩, ⟨S3x3200, grp3 v0 v2 v4⟩, ⟨S3x3200, grp4 v0 v2 v4⟩]
    concatenates_S3x3200_S3x3200_S3x3200_S3x3200_S3x3200_S15x3200_d0 (ix2 (⟨14, by decide⟩ : Fin 15) j)
    4 (by simp) S3x3200 (grp4 v0 v2 v4) rfl rfl 12 (by rfl) (ix2 (⟨2, by decide⟩ : Fin 3) j)
    (fun b hb => by match b with
      | ⟨0, _⟩ => exact absurd rfl hb
      | ⟨1, _⟩ => rfl) (by rfl)).trans ?_
  unfold grp4
  refine (concatenate_apply_piece (t := S3x3200) (0 : Fin 2) [⟨S1x3200, lane4 v0⟩, ⟨S1x3200, lane4 v2⟩, ⟨S1x3200, lane4 v4⟩]
    concatenates_S1x3200_S1x3200_S1x3200_S3x3200_d0 (ix2 (⟨2, by decide⟩ : Fin 3) j)
    2 (by simp) S1x3200 (lane4 v4) rfl rfl 2 (by rfl) (ix2 (0 : Fin 1) j)
    (fun b hb => by match b with
      | ⟨0, _⟩ => exact absurd rfl hb
      | ⟨1, _⟩ => rfl) (by rfl)).trans ?_
  unfold lane4
  refine (extractStridedSlice_apply ![0, 12800] _ slices_S1x16000_o0_12800_S1x3200 (ix2 (0 : Fin 1) j)
    (ix2 (0 : Fin 1) (⟨12800 + j.val, by have := j.isLt; omega⟩ : Fin 16000)) (fun ax => match ax with
      | ⟨0, _⟩ => by rfl
      | ⟨1, _⟩ => by rfl)).trans ?_
  rw [shapeCast_self]

/-- The stacked coordinates at (k + 3 g, j): coordinate `k` at lane `3200 g + j`. -/
theorem uin_apply (v0 v2 v4 : Vec Ideal S1x16000 .f32) (g : Fin 5) (k : Fin 3) (j : Fin 3200) :
    uin v0 v2 v4 (ix2 (st3 (g, k)) j) = sel3 k v0 v2 v4 (ix2 (0 : Fin 1) (⟨3200 * g.val + j.val, by have := j.isLt; have := g.isLt; omega⟩ : Fin 16000)) := by
  fin_cases g <;> fin_cases k
  · exact uin_0_0 v0 v2 v4 j
  · exact uin_0_1 v0 v2 v4 j
  · exact uin_0_2 v0 v2 v4 j
  · exact uin_1_0 v0 v2 v4 j
  · exact uin_1_1 v0 v2 v4 j
  · exact uin_1_2 v0 v2 v4 j
  · exact uin_2_0 v0 v2 v4 j
  · exact uin_2_1 v0 v2 v4 j
  · exact uin_2_2 v0 v2 v4 j
  · exact uin_3_0 v0 v2 v4 j
  · exact uin_3_1 v0 v2 v4 j
  · exact uin_3_2 v0 v2 v4 j
  · exact uin_4_0 v0 v2 v4 j
  · exact uin_4_1 v0 v2 v4 j
  · exact uin_4_2 v0 v2 v4 j

theorem inL_apply (v0 v2 v4 : Vec Ideal S1x16000 .f32) (v28 : Vec Ideal S250x15 .bf16) (v30 : Vec Ideal S250x1 .f32)
    (w : Fin 3 → Fin 50 → EReal) (bb : Fin 50 → EReal)
    (hW : ∀ g a g' k, v28 (ix2 (st50 (g, a)) (st3 (g', k))) = dlt g g' * w k a) (hb : ∀ g a, v30 (ix2 (st50 (g, a)) (0 : Fin 1)) = bb a)
    (g : Fin 5) (a : Fin 50) (j : Fin 3200) :
    inL v0 v2 v4 v28 v30 (ix2 (st50 (g, a)) j)
      = hidden w bb (fun k => sel3 k v0 v2 v4 (ix2 (0 : Fin 1) (⟨3200 * g.val + j.val, by have := j.isLt; have := g.isLt; omega⟩ : Fin 16000))) a := by
  show Ideal.tanh (matmul dot_S250x15_S15x3200_S250x3200_1_0_0_1_n_n none (shapeCast S250x15 v28 shapeCasts_S250x15_S250x15) (truncf .bf16 (uin v0 v2 v4) bitsLt_bf16_f32) (constant S250x3200 .f32 0x00000000#32) (ix2 (st50 (g, a)) j)
    + broadcastTo S250x3200 (shapeCast S250x1 v30 shapeCasts_S250x1_S250x1) broadcasts_S250x1_S250x3200 (ix2 (st50 (g, a)) j)) = _
  rw [mm_in, Cert.Layout.broadcastTo_a1_ab_apply, shapeCast_self, shapeCast_self]
  refine (congrArg Ideal.tanh (affine_blockdiag st50 st3 g a w bb (fun r s => v28 (ix2 r s)) (fun r => v30 (ix2 r (0 : Fin 1)))
    (fun s => truncf .bf16 (uin v0 v2 v4) bitsLt_bf16_f32 (ix2 s j)) (hW g a) (hb g a))).trans ?_
  exact congrArg (fun h => hidden w bb h a) (funext fun k => uin_apply v0 v2 v4 g k j)

theorem midL_apply (Wl : Vec Ideal S1x250x250 .bf16) (bl : Vec Ideal S1x250x1 .f32) (v : FVec Ideal S250x3200 .bf16)
    (w : Fin 50 → Fin 50 → EReal) (bb : Fin 50 → EReal)
    (hW : ∀ g a g' b, Wl (ix3 (0 : Fin 1) (st50 (g, a)) (st50 (g', b))) = dlt g g' * w b a)
    (hb : ∀ g a, bl (ix3 (0 : Fin 1) (st50 (g, a)) (0 : Fin 1)) = bb a) (g : Fin 5) (a : Fin 50) (j : Fin 3200) :
    midL Wl bl v (ix2 (st50 (g, a)) j) = hidden w bb (fun b => v (ix2 (st50 (g, b)) j)) a := by
  have eW : ∀ r s, shapeCast S250x250 Wl shapeCasts_S1x250x250_S250x250 (ix2 r s) = Wl (ix3 (0 : Fin 1) r s) := fun r s =>
    shapeCast_apply Wl shapeCasts_S1x250x250_S250x250 (ix2 r s) (ix3 (0 : Fin 1) r s) (by
      rw [Shape.rowMajor_val_three, Shape.rowMajor_val_two]
      show (0 * 250 + r.val) * 250 + s.val = r.val * 250 + s.val
      omega)
  have eb : ∀ r, shapeCast S250x1 bl shapeCasts_S1x250x1_S250x1 (ix2 r (0 : Fin 1)) = bl (ix3 (0 : Fin 1) r (0 : Fin 1)) := fun r =>
    shapeCast_apply bl shapeCasts_S1x250x1_S250x1 (ix2 r (0 : Fin 1)) (ix3 (0 : Fin 1) r (0 : Fin 1)) (by
      rw [Shape.rowMajor_val_three, Shape.rowMajor_val_two]
      show (0 * 250 + r.val) * 1 + 0 = r.val * 1 + 0
      omega)
  show Ideal.tanh (matmul dot_S250x250_S250x3200_S250x3200_1_0_0_1_n_n none (shapeCast S250x250 Wl shapeCasts_S1x250x250_S250x250) v (constant S250x3200 .f32 0x00000000#32) (ix2 (st50 (g, a)) j)
    + broadcastTo S250x3200 (shapeCast S250x1 bl shapeCasts_S1x250x1_S250x1) broadcasts_S250x1_S250x3200 (ix2 (st50 (g, a)) j)) = _
  rw [mm_mid, Cert.Layout.broadcastTo_a1_ab_apply]
  exact congrArg Ideal.tanh (affine_blockdiag st50 st50 g a w bb (fun r s => shapeCast S250x250 Wl shapeCasts_S1x250x250_S250x250 (ix2 r s))
    (fun r => shapeCast S250x1 bl shapeCasts_S1x250x1_S250x1 (ix2 r (0 : Fin 1))) (fun s => v (ix2 s j))
    (fun g' b => (eW _ _).trans (hW g a g' b)) ((eb _).trans (hb g a)))

theorem outL_apply (Wo : Vec Ideal S15x250 .bf16) (bo : Vec Ideal S15x1 .f32) (v : FVec Ideal S250x3200 .bf16)
    (w : Fin 50 → Fin 3 → EReal) (bb : Fin 3 → EReal)
    (hW : ∀ g k g' a, Wo (ix2 (st3 (g, k)) (st50 (g', a))) = dlt g g' * w a k) (hb : ∀ g k, bo (ix2 (st3 (g, k)) (0 : Fin 1)) = bb k)
    (g : Fin 5) (k : Fin 3) (j : Fin 3200) :
    outL Wo bo v (ix2 (st3 (g, k)) j) = affine w bb (fun a => v (ix2 (st50 (g, a)) j)) k := by
  show matmul dot_S15x250_S250x3200_S15x3200_1_0_0_1_n_n none (shapeCast S15x250 Wo shapeCasts_S15x250_S15x250) v (constant S15x3200 .f32 0x00000000#32) (ix2 (st3 (g, k)) j)
    + broadcastTo S15x3200 (shapeCast S15x1 bo shapeCasts_S15x1_S15x1) broadcasts_S15x1_S15x3200 (ix2 (st3 (g, k)) j) = _
  rw [mm_out, Cert.Layout.broadcastTo_a1_ab_apply, shapeCast_self, shapeCast_self]
  exact affine_blockdiag st3 st50 g k w bb (fun r s => Wo (ix2 r s)) (fun r => bo (ix2 r (0 : Fin 1))) (fun s => v (ix2 s j)) (hW g k) (hb g k)

/-- The body's result at (k + 3 g, j): the network's output `k` on the block's row `3200 g + j`, given that the
    weight and bias blocks are the block-diagonal and tiled forms of `Win … bo`. -/
theorem res15_apply (x0 x1 x2 : Vec Ideal S1x16000 .f32) (x3 : Vec Ideal S250x15 .bf16) (x4 : Vec Ideal S250x1 .f32) (x5 : Vec Ideal S7x250x250 .bf16)
    (x6 : Vec Ideal S7x250x1 .f32) (x7 : Vec Ideal S15x250 .bf16) (x8 : Vec Ideal S15x1 .f32)
    (Win : Fin 3 → Fin 50 → EReal) (bin : Fin 50 → EReal) (Wm : Fin 7 → Fin 50 → Fin 50 → EReal) (bm : Fin 7 → Fin 50 → EReal)
    (Wo : Fin 50 → Fin 3 → EReal) (bo : Fin 3 → EReal)
    (h3 : ∀ g a g' k, x3 (ix2 (st50 (g, a)) (st3 (g', k))) = dlt g g' * Win k a)
    (h4 : ∀ g a, x4 (ix2 (st50 (g, a)) (0 : Fin 1)) = bin a)
    (h5 : ∀ l g a g' b, x5 (ix3 l (st50 (g, a)) (st50 (g', b))) = dlt g g' * Wm l b a)
    (h6 : ∀ l g a, x6 (ix3 l (st50 (g, a)) (0 : Fin 1)) = bm l a)
    (h7 : ∀ g k g' a, x7 (ix2 (st3 (g, k)) (st50 (g', a))) = dlt g g' * Wo a k)
    (h8 : ∀ g k, x8 (ix2 (st3 (g, k)) (0 : Fin 1)) = bo k) (g : Fin 5) (k : Fin 3) (j : Fin 3200) :
    res15 x0 x1 x2 x3 x4 x5 x6 x7 x8 (ix2 (st3 (g, k)) j)
      = net Win bin Wm bm Wo bo (fun k' => sel3 k' x0 x1 x2 (ix2 (0 : Fin 1) (⟨3200 * g.val + j.val, by have := j.isLt; have := g.isLt; omega⟩ : Fin 16000))) k := by
  have eW0 : ∀ g a g' b, View.ld x5 rW0 (ix3 (0 : Fin 1) (st50 (g, a)) (st50 (g', b))) = dlt g g' * Wm 0 b a := fun g a g' b =>
    (congrArg x5 (funext fun ax => Fin.ext (by
      match ax with
      | ⟨0, _⟩ => show 0 + 1 * 0 = 0; omega
      | ⟨1, _⟩ => show 0 + 1 * (st50 (g, a)).val = (st50 (g, a)).val; omega
      | ⟨2, _⟩ => show 0 + 1 * (st50 (g', b)).val = (st50 (g', b)).val; omega))).trans (h5 0 g a g' b)
  have eb0 : ∀ g a, View.ld x6 rB0 (ix3 (0 : Fin 1) (st50 (g, a)) (0 : Fin 1)) = bm 0 a := fun g a =>
    (congrArg x6 (funext fun ax => Fin.ext (by
      match ax with
      | ⟨0, _⟩ => show 0 + 1 * 0 = 0; omega
      | ⟨1, _⟩ => show 0 + 1 * (st50 (g, a)).val = (st50 (g, a)).val; omega
      | ⟨2, _⟩ => show 0 + 1 * 0 = 0; omega))).trans (h6 0 g a)
  have eW1 : ∀ g a g' b, View.ld x5 rW1 (ix3 (0 : Fin 1) (st50 (g, a)) (st50 (g', b))) = dlt g g' * Wm 1 b a := fun g a g' b =>
    (congrArg x5 (funext fun ax => Fin.ext (by
      match ax with
      | ⟨0, _⟩ => show 1 + 1 * 0 = 1; omega
      | ⟨1, _⟩ => show 0 + 1 * (st50 (g, a)).val = (st50 (g, a)).val; omega
      | ⟨2, _⟩ => show 0 + 1 * (st50 (g', b)).val = (st50 (g', b)).val; omega))).trans (h5 1 g a g' b)
  have eb1 : ∀ g a, View.ld x6 rB1 (ix3 (0 : Fin 1) (st50 (g, a)) (0 : Fin 1)) = bm 1 a := fun g a =>
    (congrArg x6 (funext fun ax => Fin.ext (by
      match ax with
      | ⟨0, _⟩ => show 1 + 1 * 0 = 1; omega
      | ⟨1, _⟩ => show 0 + 1 * (st50 (g, a)).val = (st50 (g, a)).val; omega
      | ⟨2, _⟩ => show 0 + 1 * 0 = 0; omega))).trans (h6 1 g a)
  have eW2 : ∀ g a g' b, View.ld x5 rW2 (ix3 (0 : Fin 1) (st50 (g, a)) (st50 (g', b))) = dlt g g' * Wm 2 b a := fun g a g' b =>
    (congrArg x5 (funext fun ax => Fin.ext (by
      match ax with
      | ⟨0, _⟩ => show 2 + 1 * 0 = 2; omega
      | ⟨1, _⟩ => show 0 + 1 * (st50 (g, a)).val = (st50 (g, a)).val; omega
      | ⟨2, _⟩ => show 0 + 1 * (st50 (g', b)).val = (st50 (g', b)).val; omega))).trans (h5 2 g a g' b)
  have eb2 : ∀ g a, View.ld x6 rB2 (ix3 (0 : Fin 1) (st50 (g, a)) (0 : Fin 1)) = bm 2 a := fun g a =>
    (congrArg x6 (funext fun ax => Fin.ext (by
      match ax with
      | ⟨0, _⟩ => show 2 + 1 * 0 = 2; omega
      | ⟨1, _⟩ => show 0 + 1 * (st50 (g, a)).val = (st50 (g, a)).val; omega
      | ⟨2, _⟩ => show 0 + 1 * 0 = 0; omega))).trans (h6 2 g a)
  have eW3 : ∀ g a g' b, View.ld x5 rW3 (ix3 (0 : Fin 1) (st50 (g, a)) (st50 (g', b))) = dlt g g' * Wm 3 b a := fun g a g' b =>
    (congrArg x5 (funext fun ax => Fin.ext (by
      match ax with
      | ⟨0, _⟩ => show 3 + 1 * 0 = 3; omega
      | ⟨1, _⟩ => show 0 + 1 * (st50 (g, a)).val = (st50 (g, a)).val; omega
      | ⟨2, _⟩ => show 0 + 1 * (st50 (g', b)).val = (st50 (g', b)).val; omega))).trans (h5 3 g a g' b)
  have eb3 : ∀ g a, View.ld x6 rB3 (ix3 (0 : Fin 1) (st50 (g, a)) (0 : Fin 1)) = bm 3 a := fun g a =>
    (congrArg x6 (funext fun ax => Fin.ext (by
      match ax with
      | ⟨0, _⟩ => show 3 + 1 * 0 = 3; omega
      | ⟨1, _⟩ => show 0 + 1 * (st50 (g, a)).val = (st50 (g, a)).val; omega
      | ⟨2, _⟩ => show 0 + 1 * 0 = 0; omega))).trans (h6 3 g a)
  have eW4 : ∀ g a g' b, View.ld x5 rW4 (ix3 (0 : Fin 1) (st50 (g, a)) (st50 (g', b))) = dlt g g' * Wm 4 b a := fun g a g' b =>
    (congrArg x5 (funext fun ax => Fin.ext (by
      match ax with
      | ⟨0, _⟩ => show 4 + 1 * 0 = 4; omega
      | ⟨1, _⟩ => show 0 + 1 * (st50 (g, a)).val = (st50 (g, a)).val; omega
      | ⟨2, _⟩ => show 0 + 1 * (st50 (g', b)).val = (st50 (g', b)).val; omega))).trans (h5 4 g a g' b)
  have eb4 : ∀ g a, View.ld x6 rB4 (ix3 (0 : Fin 1) (st50 (g, a)) (0 : Fin 1)) = bm 4 a := fun g a =>
    (congrArg x6 (funext fun ax => Fin.ext (by
      match ax with
      | ⟨0, _⟩ => show 4 + 1 * 0 = 4; omega
      | ⟨1, _⟩ => show 0 + 1 * (st50 (g, a)).val = (st50 (g, a)).val; omega
      | ⟨2, _⟩ => show 0 + 1 * 0 = 0; omega))).trans (h6 4 g a)
  have eW5 : ∀ g a g' b, View.ld x5 rW5 (ix3 (0 : Fin 1) (st50 (g, a)) (st50 (g', b))) = dlt g g' * Wm 5 b a := fun g a g' b =>
    (congrArg x5 (funext fun ax => Fin.ext (by
      match ax with
      | ⟨0, _⟩ => show 5 + 1 * 0 = 5; omega
      | ⟨1, _⟩ => show 0 + 1 * (st50 (g, a)).val = (st50 (g, a)).val; omega
      | ⟨2, _⟩ => show 0 + 1 * (st50 (g', b)).val = (st50 (g', b)).val; omega))).trans (h5 5 g a g' b)
  have eb5 : ∀ g a, View.ld x6 rB5 (ix3 (0 : Fin 1) (st50 (g, a)) (0 : Fin 1)) = bm 5 a := fun g a =>
    (congrArg x6 (funext fun ax => Fin.ext (by
      match ax with
      | ⟨0, _⟩ => show 5 + 1 * 0 = 5; omega
      | ⟨1, _⟩ => show 0 + 1 * (st50 (g, a)).val = (st50 (g, a)).val; omega
      | ⟨2, _⟩ => show 0 + 1 * 0 = 0; omega))).trans (h6 5 g a)
  have eW6 : ∀ g a g' b, View.ld x5 rW6 (ix3 (0 : Fin 1) (st50 (g, a)) (st50 (g', b))) = dlt g g' * Wm 6 b a := fun g a g' b =>
    (congrArg x5 (funext fun ax => Fin.ext (by
      match ax with
      | ⟨0, _⟩ => show 6 + 1 * 0 = 6; omega
      | ⟨1, _⟩ => show 0 + 1 * (st50 (g, a)).val = (st50 (g, a)).val; omega
      | ⟨2, _⟩ => show 0 + 1 * (st50 (g', b)).val = (st50 (g', b)).val; omega))).trans (h5 6 g a g' b)
  have eb6 : ∀ g a, View.ld x6 rB6 (ix3 (0 : Fin 1) (st50 (g, a)) (0 : Fin 1)) = bm 6 a := fun g a =>
    (congrArg x6 (funext fun ax => Fin.ext (by
      match ax with
      | ⟨0, _⟩ => show 6 + 1 * 0 = 6; omega
      | ⟨1, _⟩ => show 0 + 1 * (st50 (g, a)).val = (st50 (g, a)).val; omega
      | ⟨2, _⟩ => show 0 + 1 * 0 = 0; omega))).trans (h6 6 g a)
  have e3 : ∀ g a g' k, View.ld x3 rWin (ix2 (st50 (g, a)) (st3 (g', k))) = dlt g g' * Win k a := fun g a g' k =>
    (congrArg x3 (funext fun ax => Fin.ext (by
      match ax with
      | ⟨0, _⟩ => show 0 + 1 * (st50 (g, a)).val = (st50 (g, a)).val; omega
      | ⟨1, _⟩ => show 0 + 1 * (st3 (g', k)).val = (st3 (g', k)).val; omega))).trans (h3 g a g' k)
  have e4 : ∀ g a, View.ld x4 rBin (ix2 (st50 (g, a)) (0 : Fin 1)) = bin a := fun g a =>
    (congrArg x4 (funext fun ax => Fin.ext (by
      match ax with
      | ⟨0, _⟩ => show 0 + 1 * (st50 (g, a)).val = (st50 (g, a)).val; omega
      | ⟨1, _⟩ => show 0 + 1 * 0 = 0; omega))).trans (h4 g a)
  have e7 : ∀ g k g' a, View.ld x7 rWout (ix2 (st3 (g, k)) (st50 (g', a))) = dlt g g' * Wo a k := fun g k g' a =>
    (congrArg x7 (funext fun ax => Fin.ext (by
      match ax with
      | ⟨0, _⟩ => show 0 + 1 * (st3 (g, k)).val = (st3 (g, k)).val; omega
      | ⟨1, _⟩ => show 0 + 1 * (st50 (g', a)).val = (st50 (g', a)).val; omega))).trans (h7 g k g' a)
  have e8 : ∀ g k, View.ld x8 rBout (ix2 (st3 (g, k)) (0 : Fin 1)) = bo k := fun g k =>
    (congrArg x8 (funext fun ax => Fin.ext (by
      match ax with
      | ⟨0, _⟩ => show 0 + 1 * (st3 (g, k)).val = (st3 (g, k)).val; omega
      | ⟨1, _⟩ => show 0 + 1 * 0 = 0; omega))).trans (h8 g k)
  have eX : ∀ (x : Vec Ideal S1x16000 .f32), View.ld x rX = x := fun x => funext fun y => congrArg x (funext fun ax => Fin.ext (by
      match ax with
      | ⟨0, _⟩ => show 0 + 1 * (y 0).val = (y 0).val; omega
      | ⟨1, _⟩ => show 0 + 1 * (y 1).val = (y 1).val; omega))
  rw [res15_eq, outL_apply _ _ _ Wo bo e7 e8 g k j]
  unfold net
  refine congrArg (fun h => affine Wo bo h k) (funext fun a7 => ?_)
  refine (midL_apply _ _ _ (Wm 6) (bm 6) eW6 eb6 g a7 j).trans ?_
  refine congrArg (fun h => hidden (Wm 6) (bm 6) h a7) (funext fun a6 => ?_)
  refine (midL_apply _ _ _ (Wm 5) (bm 5) eW5 eb5 g a6 j).trans ?_
  refine congrArg (fun h => hidden (Wm 5) (bm 5) h a6) (funext fun a5 => ?_)
  refine (midL_apply _ _ _ (Wm 4) (bm 4) eW4 eb4 g a5 j).trans ?_
  refine congrArg (fun h => hidden (Wm 4) (bm 4) h a5) (funext fun a4 => ?_)
  refine (midL_apply _ _ _ (Wm 3) (bm 3) eW3 eb3 g a4 j).trans ?_
  refine congrArg (fun h => hidden (Wm 3) (bm 3) h a4) (funext fun a3 => ?_)
  refine (midL_apply _ _ _ (Wm 2) (bm 2) eW2 eb2 g a3 j).trans ?_
  refine congrArg (fun h => hidden (Wm 2) (bm 2) h a3) (funext fun a2 => ?_)
  refine (midL_apply _ _ _ (Wm 1) (bm 1) eW1 eb1 g a2 j).trans ?_
  refine congrArg (fun h => hidden (Wm 1) (bm 1) h a2) (funext fun a1 => ?_)
  refine (midL_apply _ _ _ (Wm 0) (bm 0) eW0 eb0 g a1 j).trans ?_
  refine congrArg (fun h => hidden (Wm 0) (bm 0) h a1) (funext fun a0 => ?_)
  refine (inL_apply _ _ _ _ _ Win bin e3 e4 g a0 j).trans ?_
  rw [eX x0, eX x1, eX x2]

end Cert.KernelIdeal.Layers

end
-- ==== Proof.Outs.lean ====
/-
  What the body leaves in an output's staging buffer, read at a lane.  Output `k`'s buffer is the overlay of five stores:
  lanes [3200 g, 3200 g + 3200) receive row `k + 3 g` of the [15, 3200] result.  So lane `n` of output `k` holds the
  result at row `k + 3 (n / 3200)`, lane `n % 3200`.
-/
import proofs.«147603_j74036646248987_2_alg».proof.Proof.Layers

set_option maxRecDepth 16384

noncomputable section

namespace Cert.KernelIdeal.Layers

open Cert.KernelIdeal Cert.KernelIdeal.Gen Cert.KernelIdeal.Hand Cert.Mlp
open Idealize.ShloMosaic Idealize.ShloMosaic.ValueIdx

theorem rowslice_0 (res : FVec Ideal S15x3200 .f32) (u : Fin 1) (j : Fin 3200) :
    extractStridedSlice S1x3200 ![0, 0] res slices_S15x3200_o0_0_S1x3200 (ix2 u j) = res (ix2 (⟨0, by decide⟩ : Fin 15) j) :=
  extractStridedSlice_apply ![0, 0] res slices_S15x3200_o0_0_S1x3200 (ix2 u j) (ix2 (⟨0, by decide⟩ : Fin 15) j) (fun ax => match ax with
    | ⟨0, _⟩ => by show 0 = 0 + u.val; have := u.isLt; omega
    | ⟨1, _⟩ => by show j.val = 0 + j.val; omega)
theorem rowslice_1 (res : FVec Ideal S15x3200 .f32) (u : Fin 1) (j : Fin 3200) :
    extractStridedSlice S1x3200 ![1, 0] res slices_S15x3200_o1_0_S1x3200 (ix2 u j) = res (ix2 (⟨1, by decide⟩ : Fin 15) j) :=
  extractStridedSlice_apply ![1, 0] res slices_S15x3200_o1_0_S1x3200 (ix2 u j) (ix2 (⟨1, by decide⟩ : Fin 15) j) (fun ax => match ax with
    | ⟨0, _⟩ => by show 1 = 1 + u.val; have := u.isLt; omega
    | ⟨1, _⟩ => by show j.val = 0 + j.val; omega)
theorem rowslice_2 (res : FVec Ideal S15x3200 .f32) (u : Fin 1) (j : Fin 3200) :
    extractStridedSlice S1x3200 ![2, 0] res slices_S15x3200_o2_0_S1x3200 (ix2 u j) = res (ix2 (⟨2, by decide⟩ : Fin 15) j) :=
  extractStridedSlice_apply ![2, 0] res slices_S15x3200_o2_0_S1x3200 (ix2 u j) (ix2 (⟨2, by decide⟩ : Fin 15) j) (fun ax => match ax with
    | ⟨0, _⟩ => by show 2 = 2 + u.val; have := u.isLt; omega
    | ⟨1, _⟩ => by show j.val = 0 + j.val; omega)
theorem rowslice_3 (res : FVec Ideal S15x3200 .f32) (u : Fin 1) (j : Fin 3200) :
    extractStridedSlice S1x3200 ![3, 0] res slices_S15x3200_o3_0_S1x3200 (ix2 u j) = res (ix2 (⟨3, by decide⟩ : Fin 15) j) :=
  extractStridedSlice_apply ![3, 0] res slices_S15x3200_o3_0_S1x3200 (ix2 u j) (ix2 (⟨3, by decide⟩ : Fin 15) j) (fun ax => match ax with
    | ⟨0, _⟩ => by show 3 = 3 + u.val; have := u.isLt; omega
    | ⟨1, _⟩ => by show j.val = 0 + j.val; omega)
theorem rowslice_4 (res : FVec Ideal S15x3200 .f32) (u : Fin 1) (j : Fin 3200) :
    extractStridedSlice S1x3200 ![4, 0] res slices_S15x3200_o4_0_S1x3200 (ix2 u j) = res (ix2 (⟨4, by decide⟩ : Fin 15) j) :=
  extractStridedSlice_apply ![4, 0] res slices_S15x3200_o4_0_S1x3200 (ix2 u j) (ix2 (⟨4, by decide⟩ : Fin 15) j) (fun ax => match ax with
    | ⟨0, _⟩ => by show 4 = 4 + u.val; have := u.isLt; omega
    | ⟨1, _⟩ => by show j.val = 0 + j.val; omega)
theorem rowslice_5 (res : FVec Ideal S15x3200 .f32) (u : Fin 1) (j : Fin 3200) :
    extractStridedSlice S1x3200 ![5, 0] res slices_S15x3200_o5_0_S1x3200 (ix2 u j) = res (ix2 (⟨5, by decide⟩ : Fin 15) j) :=
  extractStridedSlice_apply ![5, 0] res slices_S15x3200_o5_0_S1x3200 (ix2 u j) (ix2 (⟨5, by decide⟩ : Fin 15) j) (fun ax => match ax with
    | ⟨0, _⟩ => by show 5 = 5 + u.val; have := u.isLt; omega
    | ⟨1, _⟩ => by show j.val = 0 + j.val; omega)
theorem rowslice_6 (res : FVec Ideal S15x3200 .f32) (u : Fin 1) (j : Fin 3200) :
    extractStridedSlice S1x3200 ![6, 0] res slices_S15x3200_o6_0_S1x3200 (ix2 u j) = res (ix2 (⟨6, by decide⟩ : Fin 15) j) :=
  extractStridedSlice_apply ![6, 0] res slices_S15x3200_o6_0_S1x3200 (ix2 u j) (ix2 (⟨6, by decide⟩ : Fin 15) j) (fun ax => match ax with
    | ⟨0, _⟩ => by show 6 = 6 + u.val; have := u.isLt; omega
    | ⟨1, _⟩ => by show j.val = 0 + j.val; omega)
theorem rowslice_7 (res : FVec Ideal S15x3200 .f32) (u : Fin 1) (j : Fin 3200) :
    extractStridedSlice S1x3200 ![7, 0] res slices_S15x3200_o7_0_S1x3200 (ix2 u j) = res (ix2 (⟨7, by decide⟩ : Fin 15) j) :=
  extractStridedSlice_apply ![7, 0] res slices_S15x3200_o7_0_S1x3200 (ix2 u j) (ix2 (⟨7, by decide⟩ : Fin 15) j) (fun ax => match ax with
    | ⟨0, _⟩ => by show 7 = 7 + u.val; have := u.isLt; omega
    | ⟨1, _⟩ => by show j.val = 0 + j.val; omega)
theorem rowslice_8 (res : FVec Ideal S15x3200 .f32) (u : Fin 1) (j : Fin 3200) :
    extractStridedSlice S1x3200 ![8, 0] res slices_S15x3200_o8_0_S1x3200 (ix2 u j) = res (ix2 (⟨8, by decide⟩ : Fin 15) j) :=
  extractStridedSlice_apply ![8, 0] res slices_S15x3200_o8_0_S1x3200 (ix2 u j) (ix2 (⟨8, by decide⟩ : Fin 15) j) (fun ax => match ax with
    | ⟨0, _⟩ => by show 8 = 8 + u.val; have := u.isLt; omega
    | ⟨1, _⟩ => by show j.val = 0 + j.val; omega)
theorem rowslice_9 (res : FVec Ideal S15x3200 .f32) (u : Fin 1) (j : Fin 3200) :
    extractStridedSlice S1x3200 ![9, 0] res slices_S15x3200_o9_0_S1x3200 (ix2 u j) = res (ix2 (⟨9, by decide⟩ : Fin 15) j) :=
  extractStridedSlice_apply ![9, 0] res slices_S15x3200_o9_0_S1x3200 (ix2 u j) (ix2 (⟨9, by decide⟩ : Fin 15) j) (fun ax => match ax with
    | ⟨0, _⟩ => by show 9 = 9 + u.val; have := u.isLt; omega
    | ⟨1, _⟩ => by show j.val = 0 + j.val; omega)
theorem rowslice_10 (res : FVec Ideal S15x3200 .f32) (u : Fin 1) (j : Fin 3200) :
    extractStridedSlice S1x3200 ![10, 0] res slices_S15x3200_o10_0_S1x3200 (ix2 u j) = res (ix2 (⟨10, by decide⟩ : Fin 15) j) :=
  extractStridedSlice_apply ![10, 0] res slices_S15x3200_o10_0_S1x3200 (ix2 u j) (ix2 (⟨10, by decide⟩ : Fin 15) j) (fun ax => match ax with
    | ⟨0, _⟩ => by show 10 = 10 + u.val; have := u.isLt; omega
    | ⟨1, _⟩ => by show j.val = 0 + j.val; omega)
theorem rowslice_11 (res : FVec Ideal S15x3200 .f32) (u : Fin 1) (j : Fin 3200) :
    extractStridedSlice S1x3200 ![11, 0] res slices_S15x3200_o11_0_S1x3200 (ix2 u j) = res (ix2 (⟨11, by decide⟩ : Fin 15) j) :=
  extractStridedSlice_apply ![11, 0] res slices_S15x3200_o11_0_S1x3200 (ix2 u j) (ix2 (⟨11, by decide⟩ : Fin 15) j) (fun ax => match ax with
    | ⟨0, _⟩ => by show 11 = 11 + u.val; have := u.isLt; omega
    | ⟨1, _⟩ => by show j.val = 0 + j.val; omega)
theorem rowslice_12 (res : FVec Ideal S15x3200 .f32) (u : Fin 1) (j : Fin 3200) :
    extractStridedSlice S1x3200 ![12, 0] res slices_S15x3200_o12_0_S1x3200 (ix2 u j) = res (ix2 (⟨12, by decide⟩ : Fin 15) j) :=
  extractStridedSlice_apply ![12, 0] res slices_S15x3200_o12_0_S1x3200 (ix2 u j) (ix2 (⟨12, by decide⟩ : Fin 15) j) (fun ax => match ax with
    | ⟨0, _⟩ => by show 12 = 12 + u.val; have := u.isLt; omega
    | ⟨1, _⟩ => by show j.val = 0 + j.val; omega)
theorem rowslice_13 (res : FVec Ideal S15x3200 .f32) (u : Fin 1) (j : Fin 3200) :
    extractStridedSlice S1x3200 ![13, 0] res slices_S15x3200_o13_0_S1x3200 (ix2 u j) = res (ix2 (⟨13, by decide⟩ : Fin 15) j) :=
  extractStridedSlice_apply ![13, 0] res slices_S15x3200_o13_0_S1x3200 (ix2 u j) (ix2 (⟨13, by decide⟩ : Fin 15) j) (fun ax => match ax with
    | ⟨0, _⟩ => by show 13 = 13 + u.val; have := u.isLt; omega
    | ⟨1, _⟩ => by show j.val = 0 + j.val; omega)
theorem rowslice_14 (res : FVec Ideal S15x3200 .f32) (u : Fin 1) (j : Fin 3200) :
    extractStridedSlice S1x3200 ![14, 0] res slices_S15x3200_o14_0_S1x3200 (ix2 u j) = res (ix2 (⟨14, by decide⟩ : Fin 15) j) :=
  extractStridedSlice_apply ![14, 0] res slices_S15x3200_o14_0_S1x3200 (ix2 u j) (ix2 (⟨14, by decide⟩ : Fin 15) j) (fun ax => match ax with
    | ⟨0, _⟩ => by show 14 = 14 + u.val; have := u.isLt; omega
    | ⟨1, _⟩ => by show j.val = 0 + j.val; omega)

/-- Output 0's staging buffer at lane `n`: the result at row `0 + 3 (n / 3200)`, lane `n % 3200`. -/
theorem out0_9_apply (x0 : Vec Ideal S1x16000 .f32) (x1 : Vec Ideal S1x16000 .f32) (x2 : Vec Ideal S1x16000 .f32) (x3 : Vec Ideal S250x15 .bf16) (x4 : Vec Ideal S250x1 .f32) (x5 : Vec Ideal S7x250x250 .bf16) (x6 : Vec Ideal S7x250x1 .f32) (x7 : Vec Ideal S15x250 .bf16) (x8 : Vec Ideal S15x1 .f32) (u : Fin 1) (n : Fin 16000) :
    out0_9 x0 x1 x2 x3 x4 x5 x6 x7 x8 (ix2 u n) = res15 x0 x1 x2 x3 x4 x5 x6 x7 x8 (ix2 (st3 ((⟨n.val / 3200, by have := n.isLt; omega⟩ : Fin 5), (0 : Fin 3))) (⟨n.val % 3200, by omega⟩ : Fin 3200)) := by
  unfold out0_9
  refine View.canon_apply_of_pieces (Val := Elt Ideal) (e := .f32) (fun y : S1x16000.Idx => res15 x0 x1 x2 x3 x4 x5 x6 x7 x8 (ix2 (st3 ((⟨(y 1).val / 3200, by have h : (y 1).val < 16000 := (y 1).isLt; omega⟩ : Fin 5), (0 : Fin 3))) (⟨(y 1).val % 3200, by omega⟩ : Fin 3200)))
    _ ?_ (ix2 u n) (cover_out _ _ _ _ _ (ix2 u n))
  intro p hp x
  simp only [List.mem_cons, List.mem_singleton, List.not_mem_nil, or_false] at hp
  rcases hp with rfl | rfl | rfl | rfl | rfl
  · obtain ⟨u', j, rfl⟩ : ∃ (u' : Fin 1) (j : Fin 3200), x = ix2 u' j := ⟨x 0, x 1, eq_ix2 x⟩
    refine (rowslice_12 (res15 x0 x1 x2 x3 x4 x5 x6 x7 x8) u' j).trans ?_
    refine congrArg (res15 x0 x1 x2 x3 x4 x5 x6 x7 x8) (funext fun ax => Fin.ext ?_)
    match ax with
    | ⟨0, _⟩ =>
      show 12 = (st3 ((⟨(12800 + 1 * j.val) / 3200, _⟩ : Fin 5), (0 : Fin 3))).val
      rw [st3_val]
      show 12 = 0 + 3 * ((12800 + 1 * j.val) / 3200)
      have := j.isLt
      omega
    | ⟨1, _⟩ =>
      show j.val = (12800 + 1 * j.val) % 3200
      have := j.isLt
      omega
  · obtain ⟨u', j, rfl⟩ : ∃ (u' : Fin 1) (j : Fin 3200), x = ix2 u' j := ⟨x 0, x 1, eq_ix2 x⟩
    refine (rowslice_9 (res15 x0 x1 x2 x3 x4 x5 x6 x7 x8) u' j).trans ?_
    refine congrArg (res15 x0 x1 x2 x3 x4 x5 x6 x7 x8) (funext fun ax => Fin.ext ?_)
    match ax with
    | ⟨0, _⟩ =>
      show 9 = (st3 ((⟨(9600 + 1 * j.val) / 3200, _⟩ : Fin 5), (0 : Fin 3))).val
      rw [st3_val]
      show 9 = 0 + 3 * ((9600 + 1 * j.val) / 3200)
      have := j.isLt
      omega
    | ⟨1, _⟩ =>
      show j.val = (9600 + 1 * j.val) % 3200
      have := j.isLt
      omega
  · obtain ⟨u', j, rfl⟩ : ∃ (u' : Fin 1) (j : Fin 3200), x = ix2 u' j := ⟨x 0, x 1, eq_ix2 x⟩
    refine (rowslice_6 (res15 x0 x1 x2 x3 x4 x5 x6 x7 x8) u' j).trans ?_
    refine congrArg (res15 x0 x1 x2 x3 x4 x5 x6 x7 x8) (funext fun ax => Fin.ext ?_)
    match ax with
    | ⟨0, _⟩ =>
      show 6 = (st3 ((⟨(6400 + 1 * j.val) / 3200, _⟩ : Fin 5), (0 : Fin 3))).val
      rw [st3_val]
      show 6 = 0 + 3 * ((6400 + 1 * j.val) / 3200)
      have := j.isLt
      omega
    | ⟨1, _⟩ =>
      show j.val = (6400 + 1 * j.val) % 3200
      have := j.isLt
      omega
  · obtain ⟨u', j, rfl⟩ : ∃ (u' : Fin 1) (j : Fin 3200), x = ix2 u' j := ⟨x 0, x 1, eq_ix2 x⟩
    refine (rowslice_3 (res15 x0 x1 x2 x3 x4 x5 x6 x7 x8) u' j).trans ?_
    refine congrArg (res15 x0 x1 x2 x3 x4 x5 x6 x7 x8) (funext fun ax => Fin.ext ?_)
    match ax with
    | ⟨0, _⟩ =>
      show 3 = (st3 ((⟨(3200 + 1 * j.val) / 3200, _⟩ : Fin 5), (0 : Fin 3))).val
      rw [st3_val]
      show 3 = 0 + 3 * ((3200 + 1 * j.val) / 3200)
      have := j.isLt
      omega
    | ⟨1, _⟩ =>
      show j.val = (3200 + 1 * j.val) % 3200
      have := j.isLt
      omega
  · obtain ⟨u', j, rfl⟩ : ∃ (u' : Fin 1) (j : Fin 3200), x = ix2 u' j := ⟨x 0, x 1, eq_ix2 x⟩
    refine (rowslice_0 (res15 x0 x1 x2 x3 x4 x5 x6 x7 x8) u' j).trans ?_
    refine congrArg (res15 x0 x1 x2 x3 x4 x5 x6 x7 x8) (funext fun ax => Fin.ext ?_)
    match ax with
    | ⟨0, _⟩ =>
      show 0 = (st3 ((⟨(0 + 1 * j.val) / 3200, _⟩ : Fin 5), (0 : Fin 3))).val
      rw [st3_val]
      show 0 = 0 + 3 * ((0 + 1 * j.val) / 3200)
      have := j.isLt
      omega
    | ⟨1, _⟩ =>
      show j.val = (0 + 1 * j.val) % 3200
      have := j.isLt
      omega

/-- Output 1's staging buffer at lane `n`: the result at row `1 + 3 (n / 3200)`, lane `n % 3200`. -/
theorem out0_10_apply (x0 : Vec Ideal S1x16000 .f32) (x1 : Vec Ideal S1x16000 .f32) (x2 : Vec Ideal S1x16000 .f32) (x3 : Vec Ideal S250x15 .bf16) (x4 : Vec Ideal S250x1 .f32) (x5 : Vec Ideal S7x250x250 .bf16) (x6 : Vec Ideal S7x250x1 .f32) (x7 : Vec Ideal S15x250 .bf16) (x8 : Vec Ideal S15x1 .f32) (u : Fin 1) (n : Fin 16000) :
    out0_10 x0 x1 x2 x3 x4 x5 x6 x7 x8 (ix2 u n) = res15 x0 x1 x2 x3 x4 x5 x6 x7 x8 (ix2 (st3 ((⟨n.val / 3200, by have := n.isLt; omega⟩ : Fin 5), (1 : Fin 3))) (⟨n.val % 3200, by omega⟩ : Fin 3200)) := by
  unfold out0_10
  refine View.canon_apply_of_pieces (Val := Elt Ideal) (e := .f32) (fun y : S1x16000.Idx => res15 x0 x1 x2 x3 x4 x5 x6 x7 x8 (ix2 (st3 ((⟨(y 1).val / 3200, by have h : (y 1).val < 16000 := (y 1).isLt; omega⟩ : Fin 5), (1 : Fin 3))) (⟨(y 1).val % 3200, by omega⟩ : Fin 3200)))
    _ ?_ (ix2 u n) (cover_out _ _ _ _ _ (ix2 u n))
  intro p hp x
  simp only [List.mem_cons, List.mem_singleton, List.not_mem_nil, or_false] at hp
  rcases hp with rfl | rfl | rfl | rfl | rfl
  · obtain ⟨u', j, rfl⟩ : ∃ (u' : Fin 1) (j : Fin 3200), x = ix2 u' j := ⟨x 0, x 1, eq_ix2 x⟩
    refine (rowslice_13 (res15 x0 x1 x2 x3 x4 x5 x6 x7 x8) u' j).trans ?_
    refine congrArg (res15 x0 x1 x2 x3 x4 x5 x6 x7 x8) (funext fun ax => Fin.ext ?_)
    match ax with
    | ⟨0, _⟩ =>
      show 13 = (st3 ((⟨(12800 + 1 * j.val) / 3200, _⟩ : Fin 5), (1 : Fin 3))).val
      rw [st3_val]
      show 13 = 1 + 3 * ((12800 + 1 * j.val) / 3200)
      have := j.isLt
      omega
    | ⟨1, _⟩ =>
      show j.val = (12800 + 1 * j.val) % 3200
      have := j.isLt
      omega
  · obtain ⟨u', j, rfl⟩ : ∃ (u' : Fin 1) (j : Fin 3200), x = ix2 u' j := ⟨x 0, x 1, eq_ix2 x⟩
    refine (rowslice_10 (res15 x0 x1 x2 x3 x4 x5 x6 x7 x8) u' j).trans ?_
    refine congrArg (res15 x0 x1 x2 x3 x4 x5 x6 x7 x8) (funext fun ax => Fin.ext ?_)
    match ax with
    | ⟨0, _⟩ =>
      show 10 = (st3 ((⟨(9600 + 1 * j.val) / 3200, _⟩ : Fin 5), (1 : Fin 3))).val
      rw [st3_val]
      show 10 = 1 + 3 * ((9600 + 1 * j.val) / 3200)
      have := j.isLt
      omega
    | ⟨1, _⟩ =>
      show j.val = (9600 + 1 * j.val) % 3200
      have := j.isLt
      omega
  · obtain ⟨u', j, rfl⟩ : ∃ (u' : Fin 1) (j : Fin 3200), x = ix2 u' j := ⟨x 0, x 1, eq_ix2 x⟩
    refine (rowslice_7 (res15 x0 x1 x2 x3 x4 x5 x6 x7 x8) u' j).trans ?_
    refine congrArg (res15 x0 x1 x2 x3 x4 x5 x6 x7 x8) (funext fun ax => Fin.ext ?_)
    match ax with
    | ⟨0, _⟩ =>
      show 7 = (st3 ((⟨(6400 + 1 * j.val) / 3200, _⟩ : Fin 5), (1 : Fin 3))).val
      rw [st3_val]
      show 7 = 1 + 3 * ((6400 + 1 * j.val) / 3200)
      have := j.isLt
      omega
    | ⟨1, _⟩ =>
      show j.val = (6400 + 1 * j.val) % 3200
      have := j.isLt
      omega
  · obtain ⟨u', j, rfl⟩ : ∃ (u' : Fin 1) (j : Fin 3200), x = ix2 u' j := ⟨x 0, x 1, eq_ix2 x⟩
    refine (rowslice_4 (res15 x0 x1 x2 x3 x4 x5 x6 x7 x8) u' j).trans ?_
    refine congrArg (res15 x0 x1 x2 x3 x4 x5 x6 x7 x8) (funext fun ax => Fin.ext ?_)
    match ax with
    | ⟨0, _⟩ =>
      show 4 = (st3 ((⟨(3200 + 1 * j.val) / 3200, _⟩ : Fin 5), (1 : Fin 3))).val
      rw [st3_val]
      show 4 = 1 + 3 * ((3200 + 1 * j.val) / 3200)
      have := j.isLt
      omega
    | ⟨1, _⟩ =>
      show j.val = (3200 + 1 * j.val) % 3200
      have := j.isLt
      omega
  · obtain ⟨u', j, rfl⟩ : ∃ (u' : Fin 1) (j : Fin 3200), x = ix2 u' j := ⟨x 0, x 1, eq_ix2 x⟩
    refine (rowslice_1 (res15 x0 x1 x2 x3 x4 x5 x6 x7 x8) u' j).trans ?_
    refine congrArg (res15 x0 x1 x2 x3 x4 x5 x6 x7 x8) (funext fun ax => Fin.ext ?_)
    match ax with
    | ⟨0, _⟩ =>
      show 1 = (st3 ((⟨(0 + 1 * j.val) / 3200, _⟩ : Fin 5), (1 : Fin 3))).val
      rw [st3_val]
      show 1 = 1 + 3 * ((0 + 1 * j.val) / 3200)
      have := j.isLt
      omega
    | ⟨1, _⟩ =>
      show j.val = (0 + 1 * j.val) % 3200
      have := j.isLt
      omega

/-- Output 2's staging buffer at lane `n`: the result at row `2 + 3 (n / 3200)`, lane `n % 3200`. -/
theorem out0_11_apply (x0 : Vec Ideal S1x16000 .f32) (x1 : Vec Ideal S1x16000 .f32) (x2 : Vec Ideal S1x16000 .f32) (x3 : Vec Ideal S250x15 .bf16) (x4 : Vec Ideal S250x1 .f32) (x5 : Vec Ideal S7x250x250 .bf16) (x6 : Vec Ideal S7x250x1 .f32) (x7 : Vec Ideal S15x250 .bf16) (x8 : Vec Ideal S15x1 .f32) (u : Fin 1) (n : Fin 16000) :
    out0_11 x0 x1 x2 x3 x4 x5 x6 x7 x8 (ix2 u n) = res15 x0 x1 x2 x3 x4 x5 x6 x7 x8 (ix2 (st3 ((⟨n.val / 3200, by have := n.isLt; omega⟩ : Fin 5), (2 : Fin 3))) (⟨n.val % 3200, by omega⟩ : Fin 3200)) := by
  unfold out0_11
  refine View.canon_apply_of_pieces (Val := Elt Ideal) (e := .f32) (fun y : S1x16000.Idx => res15 x0 x1 x2 x3 x4 x5 x6 x7 x8 (ix2 (st3 ((⟨(y 1).val / 3200, by have h : (y 1).val < 16000 := (y 1).isLt; omega⟩ : Fin 5), (2 : Fin 3))) (⟨(y 1).val % 3200, by omega⟩ : Fin 3200)))
    _ ?_ (ix2 u n) (cover_out _ _ _ _ _ (ix2 u n))
  intro p hp x
  simp only [List.mem_cons, List.mem_singleton, List.not_mem_nil, or_false] at hp
  rcases hp with rfl | rfl | rfl | rfl | rfl
  · obtain ⟨u', j, rfl⟩ : ∃ (u' : Fin 1) (j : Fin 3200), x = ix2 u' j := ⟨x 0, x 1, eq_ix2 x⟩
    refine (rowslice_14 (res15 x0 x1 x2 x3 x4 x5 x6 x7 x8) u' j).trans ?_
    refine congrArg (res15 x0 x1 x2 x3 x4 x5 x6 x7 x8) (funext fun ax => Fin.ext ?_)
    match ax with
    | ⟨0, _⟩ =>
      show 14 = (st3 ((⟨(12800 + 1 * j.val) / 3200, _⟩ : Fin 5), (2 : Fin 3))).val
      rw [st3_val]
      show 14 = 2 + 3 * ((12800 + 1 * j.val) / 3200)
      have := j.isLt
      omega
    | ⟨1, _⟩ =>
      show j.val = (12800 + 1 * j.val) % 3200
      have := j.isLt
      omega
  · obtain ⟨u', j, rfl⟩ : ∃ (u' : Fin 1) (j : Fin 3200), x = ix2 u' j := ⟨x 0, x 1, eq_ix2 x⟩
    refine (rowslice_11 (res15 x0 x1 x2 x3 x4 x5 x6 x7 x8) u' j).trans ?_
    refine congrArg (res15 x0 x1 x2 x3 x4 x5 x6 x7 x8) (funext fun ax => Fin.ext ?_)
    match ax with
    | ⟨0, _⟩ =>
      show 11 = (st3 ((⟨(9600 + 1 * j.val) / 3200, _⟩ : Fin 5), (2 : Fin 3))).val
      rw [st3_val]
      show 11 = 2 + 3 * ((9600 + 1 * j.val) / 3200)
      have := j.isLt
      omega
    | ⟨1, _⟩ =>
      show j.val = (9600 + 1 * j.val) % 3200
      have := j.isLt
      omega
  · obtain ⟨u', j, rfl⟩ : ∃ (u' : Fin 1) (j : Fin 3200), x = ix2 u' j := ⟨x 0, x 1, eq_ix2 x⟩
    refine (rowslice_8 (res15 x0 x1 x2 x3 x4 x5 x6 x7 x8) u' j).trans ?_
    refine congrArg (res15 x0 x1 x2 x3 x4 x5 x6 x7 x8) (funext fun ax => Fin.ext ?_)
    match ax with
    | ⟨0, _⟩ =>
      show 8 = (st3 ((⟨(6400 + 1 * j.val) / 3200, _⟩ : Fin 5), (2 : Fin 3))).val
      rw [st3_val]
      show 8 = 2 + 3 * ((6400 + 1 * j.val) / 3200)
      have := j.isLt
      omega
    | ⟨1, _⟩ =>
      show j.val = (6400 + 1 * j.val) % 3200
      have := j.isLt
      omega
  · obtain ⟨u', j, rfl⟩ : ∃ (u' : Fin 1) (j : Fin 3200), x = ix2 u' j := ⟨x 0, x 1, eq_ix2 x⟩
    refine (rowslice_5 (res15 x0 x1 x2 x3 x4 x5 x6 x7 x8) u' j).trans ?_
    refine congrArg (res15 x0 x1 x2 x3 x4 x5 x6 x7 x8) (funext fun ax => Fin.ext ?_)
    match ax with
    | ⟨0, _⟩ =>
      show 5 = (st3 ((⟨(3200 + 1 * j.val) / 3200, _⟩ : Fin 5), (2 : Fin 3))).val
      rw [st3_val]
      show 5 = 2 + 3 * ((3200 + 1 * j.val) / 3200)
      have := j.isLt
      omega
    | ⟨1, _⟩ =>
      show j.val = (3200 + 1 * j.val) % 3200
      have := j.isLt
      omega
  · obtain ⟨u', j, rfl⟩ : ∃ (u' : Fin 1) (j : Fin 3200), x = ix2 u' j := ⟨x 0, x 1, eq_ix2 x⟩
    refine (rowslice_2 (res15 x0 x1 x2 x3 x4 x5 x6 x7 x8) u' j).trans ?_
    refine congrArg (res15 x0 x1 x2 x3 x4 x5 x6 x7 x8) (funext fun ax => Fin.ext ?_)
    match ax with
    | ⟨0, _⟩ =>
      show 2 = (st3 ((⟨(0 + 1 * j.val) / 3200, _⟩ : Fin 5), (2 : Fin 3))).val
      rw [st3_val]
      show 2 = 2 + 3 * ((0 + 1 * j.val) / 3200)
      have := j.isLt
      omega
    | ⟨1, _⟩ =>
      show j.val = (0 + 1 * j.val) % 3200
      have := j.isLt
      omega

end Cert.KernelIdeal.Layers

end
-- ==== Proof.ValueKI.lean ====
/-
  The value of the idealized kernel program: each result is the network's output on every row of the arguments.

  At grid point `t` the body is handed lanes [16000 t, 16000 t + 16000) of the three coordinate rows and the whole
  parameter arrays, which are the block-diagonal and tiled forms of the argument weights; so (`Layers`, `Outs`) output
  `k`'s block at `t` holds, at lane `n`, output `k` of the network on row `16000 t + n`.  The 125 blocks tile the row
  [1, 2000000], and the reshape after the region views it as the column [2000000, 1].
-/
import proofs.«147603_j74036646248987_2_alg».proof.Proof.HostKI
import proofs.«147603_j74036646248987_2_alg».proof.Proof.Outs

set_option maxRecDepth 16384

noncomputable section

namespace Cert.KernelIdeal.Hand

open Cert.KernelIdeal Cert.KernelIdeal.Gen Cert.KernelIdeal.HostRead Cert.KernelIdeal.Layers Cert.Mlp
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The printed index maps, decided over the grid -/

theorem idxA0 : ∀ t : Fin cfg0.N, win0_0.index t (0 : Fin 2) = 0 ∧ win0_0.index t (1 : Fin 2) = t.val :=
  (by decide +kernel : ∀ t : Fin grid0.N, win0_0.index t (0 : Fin 2) = 0 ∧ win0_0.index t (1 : Fin 2) = t.val)
theorem idxA1 : ∀ t : Fin cfg0.N, win0_1.index t (0 : Fin 2) = 0 ∧ win0_1.index t (1 : Fin 2) = t.val :=
  (by decide +kernel : ∀ t : Fin grid0.N, win0_1.index t (0 : Fin 2) = 0 ∧ win0_1.index t (1 : Fin 2) = t.val)
theorem idxA2 : ∀ t : Fin cfg0.N, win0_2.index t (0 : Fin 2) = 0 ∧ win0_2.index t (1 : Fin 2) = t.val :=
  (by decide +kernel : ∀ t : Fin grid0.N, win0_2.index t (0 : Fin 2) = 0 ∧ win0_2.index t (1 : Fin 2) = t.val)
theorem idxA9 : ∀ t : Fin cfg0.N, win0_9.index t (0 : Fin 2) = 0 ∧ win0_9.index t (1 : Fin 2) = t.val :=
  (by decide +kernel : ∀ t : Fin grid0.N, win0_9.index t (0 : Fin 2) = 0 ∧ win0_9.index t (1 : Fin 2) = t.val)
theorem idxA10 : ∀ t : Fin cfg0.N, win0_10.index t (0 : Fin 2) = 0 ∧ win0_10.index t (1 : Fin 2) = t.val :=
  (by decide +kernel : ∀ t : Fin grid0.N, win0_10.index t (0 : Fin 2) = 0 ∧ win0_10.index t (1 : Fin 2) = t.val)
theorem idxA11 : ∀ t : Fin cfg0.N, win0_11.index t (0 : Fin 2) = 0 ∧ win0_11.index t (1 : Fin 2) = t.val :=
  (by decide +kernel : ∀ t : Fin grid0.N, win0_11.index t (0 : Fin 2) = 0 ∧ win0_11.index t (1 : Fin 2) = t.val)

theorem idxB3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idxB4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idxB7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem idxB8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)

theorem idxC5 : ∀ t : Fin cfg0.N, win0_5.index t (0 : Fin 3) = 0 ∧ win0_5.index t (1 : Fin 3) = 0 ∧ win0_5.index t (2 : Fin 3) = 0 :=
  (by decide +kernel : ∀ t : Fin grid0.N, win0_5.index t (0 : Fin 3) = 0 ∧ win0_5.index t (1 : Fin 3) = 0 ∧ win0_5.index t (2 : Fin 3) = 0)
theorem idxC6 : ∀ t : Fin cfg0.N, win0_6.index t (0 : Fin 3) = 0 ∧ win0_6.index t (1 : Fin 3) = 0 ∧ win0_6.index t (2 : Fin 3) = 0 :=
  (by decide +kernel : ∀ t : Fin grid0.N, win0_6.index t (0 : Fin 3) = 0 ∧ win0_6.index t (1 : Fin 3) = 0 ∧ win0_6.index t (2 : Fin 3) = 0)

/-! ## The blocks the body is handed -/

/-- Coordinate 0's block at point `t`, lane `n`: the argument's row `16000 t + n`. -/
theorem blk0 (c : Dev nD) (t : Fin cfg0.N) (u : Fin 1) (n : Fin 16000) :
    iblk m c 0 t (ix2 u n) = (m ((c : Thread nD τ).loc main_arg0)) (ix2 (⟨16000 * t.val + n.val, by have ht : t.val < 125 := lt_of_lt_of_eq t.isLt N_0; have := n.isLt; omega⟩ : Fin 2000000) (0 : Fin 1)) := by
  unfold iblk
  rw [View.read_apply]
  show V m c main_v155 (((cfg0.win 0).blk t).view.emb (ix2 u n)) = _
  rw [V_win0]
  refine (congrArg _ ?_).trans (row_apply _ _)
  funext ax; apply Fin.ext
  obtain ⟨e0, e1⟩ := idxA0 t
  match ax with
  | ⟨0, _⟩ => show win0_0.index t (0 : Fin 2) * 1 + 1 * u.val = 0; have := u.isLt; omega
  | ⟨1, _⟩ => show win0_0.index t (1 : Fin 2) * 16000 + 1 * n.val = 16000 * t.val + n.val; omega

/-- Coordinate 1's block at point `t`, lane `n`: the argument's row `16000 t + n`. -/
theorem blk1 (c : Dev nD) (t : Fin cfg0.N) (u : Fin 1) (n : Fin 16000) :
    iblk m c 1 t (ix2 u n) = (m ((c : Thread nD τ).loc main_arg1)) (ix2 (⟨16000 * t.val + n.val, by have ht : t.val < 125 := lt_of_lt_of_eq t.isLt N_0; have := n.isLt; omega⟩ : Fin 2000000) (0 : Fin 1)) := by
  unfold iblk
  rw [View.read_apply]
  show V m c main_v156 (((cfg0.win 1).blk t).view.emb (ix2 u n)) = _
  rw [V_win1]
  refine (congrArg _ ?_).trans (row_apply _ _)
  funext ax; apply Fin.ext
  obtain ⟨e0, e1⟩ := idxA1 t
  match ax with
  | ⟨0, _⟩ => show win0_1.index t (0 : Fin 2) * 1 + 1 * u.val = 0; have := u.isLt; omega
  | ⟨1, _⟩ => show win0_1.index t (1 : Fin 2) * 16000 + 1 * n.val = 16000 * t.val + n.val; omega

/-- Coordinate 2's block at point `t`, lane `n`: the argument's row `16000 t + n`. -/
theorem blk2 (c : Dev nD) (t : Fin cfg0.N) (u : Fin 1) (n : Fin 16000) :
    iblk m c 2 t (ix2 u n) = (m ((c : Thread nD τ).loc main_arg2)) (ix2 (⟨16000 * t.val + n.val, by have ht : t.val < 125 := lt_of_lt_of_eq t.isLt N_0; have := n.isLt; omega⟩ : Fin 2000000) (0 : Fin 1)) := by
  unfold iblk
  rw [View.read_apply]
  show V m c main_v157 (((cfg0.win 2).blk t).view.emb (ix2 u n)) = _
  rw [V_win2]
  refine (congrArg _ ?_).trans (row_apply _ _)
  funext ax; apply Fin.ext
  obtain ⟨e0, e1⟩ := idxA2 t
  match ax with
  | ⟨0, _⟩ => show win0_2.index t (0 : Fin 2) * 1 + 1 * u.val = 0; have := u.isLt; omega
  | ⟨1, _⟩ => show win0_2.index t (1 : Fin 2) * 16000 + 1 * n.val = 16000 * t.val + n.val; omega

theorem blk3 (c : Dev nD) (t : Fin cfg0.N) (r : Fin 250) (s : Fin 15) :
    iblk m c 3 t (ix2 r s) = V m c main_v8 (ix2 r s) := by
  unfold iblk
  rw [View.read_apply]
  show V m c main_v8 (((cfg0.win 3).blk t).view.emb (ix2 r s)) = _
  refine congrArg _ ?_
  funext ax; apply Fin.ext
  obtain ⟨e0, e1⟩ := idxB3 t
  match ax with
  | ⟨0, _⟩ => show win0_3.index t (0 : Fin 2) * 250 + 1 * r.val = r.val; omega
  | ⟨1, _⟩ => show win0_3.index t (1 : Fin 2) * 15 + 1 * s.val = s.val; omega

theorem blk4 (c : Dev nD) (t : Fin cfg0.N) (r : Fin 250) (s : Fin 1) :
    iblk m c 4 t (ix2 r s) = V m c main_v12 (ix2 r s) := by
  unfold iblk
  rw [View.read_apply]
  show V m c main_v12 (((cfg0.win 4).blk t).view.emb (ix2 r s)) = _
  refine congrArg _ ?_
  funext ax; apply Fin.ext
  obtain ⟨e0, e1⟩ := idxB4 t
  match ax with
  | ⟨0, _⟩ => show win0_4.index t (0 : Fin 2) * 250 + 1 * r.val = r.val; omega
  | ⟨1, _⟩ => show win0_4.index t (1 : Fin 2) * 1 + 1 * s.val = s.val; omega

theorem blk7 (c : Dev nD) (t : Fin cfg0.N) (r : Fin 15) (s : Fin 250) :
    iblk m c 7 t (ix2 r s) = V m c main_v150 (ix2 r s) := by
  unfold iblk
  rw [View.read_apply]
  show V m c main_v150 (((cfg0.win 7).blk t).view.emb (ix2 r s)) = _
  refine congrArg _ ?_
  funext ax; apply Fin.ext
  obtain ⟨e0, e1⟩ := idxB7 t
  match ax with
  | ⟨0, _⟩ => show win0_7.index t (0 : Fin 2) * 15 + 1 * r.val = r.val; omega
  | ⟨1, _⟩ => show win0_7.index t (1 : Fin 2) * 250 + 1 * s.val = s.val; omega

theorem blk8 (c : Dev nD) (t : Fin cfg0.N) (r : Fin 15) (s : Fin 1) :
    iblk m c 8 t (ix2 r s) = V m c main_v154 (ix2 r s) := by
  unfold iblk
  rw [View.read_apply]
  show V m c main_v154 (((cfg0.win 8).blk t).view.emb (ix2 r s)) = _
  refine congrArg _ ?_
  funext ax; apply Fin.ext
  obtain ⟨e0, e1⟩ := idxB8 t
  match ax with
  | ⟨0, _⟩ => show win0_8.index t (0 : Fin 2) * 15 + 1 * r.val = r.val; omega
  | ⟨1, _⟩ => show win0_8.index t (1 : Fin 2) * 1 + 1 * s.val = s.val; omega

theorem blk5 (c : Dev nD) (t : Fin cfg0.N) (l : Fin 7) (r : Fin 250) (s : Fin 250) :
    iblk m c 5 t (ix3 l r s) = V m c main_v91 (ix3 l r s) := by
  unfold iblk
  rw [View.read_apply]
  show V m c main_v91 (((cfg0.win 5).blk t).view.emb (ix3 l r s)) = _
  refine congrArg _ ?_
  funext ax; apply Fin.ext
  obtain ⟨e0, e1, e2⟩ := idxC5 t
  match ax with
  | ⟨0, _⟩ => show win0_5.index t (0 : Fin 3) * 7 + 1 * l.val = l.val; omega
  | ⟨1, _⟩ => show win0_5.index t (1 : Fin 3) * 250 + 1 * r.val = r.val; omega
  | ⟨2, _⟩ => show win0_5.index t (2 : Fin 3) * 250 + 1 * s.val = s.val; omega

theorem blk6 (c : Dev nD) (t : Fin cfg0.N) (l : Fin 7) (r : Fin 250) (s : Fin 1) :
    iblk m c 6 t (ix3 l r s) = V m c main_v141 (ix3 l r s) := by
  unfold iblk
  rw [View.read_apply]
  show V m c main_v141 (((cfg0.win 6).blk t).view.emb (ix3 l r s)) = _
  refine congrArg _ ?_
  funext ax; apply Fin.ext
  obtain ⟨e0, e1, e2⟩ := idxC6 t
  match ax with
  | ⟨0, _⟩ => show win0_6.index t (0 : Fin 3) * 7 + 1 * l.val = l.val; omega
  | ⟨1, _⟩ => show win0_6.index t (1 : Fin 3) * 250 + 1 * r.val = r.val; omega
  | ⟨2, _⟩ => show win0_6.index t (2 : Fin 3) * 1 + 1 * s.val = s.val; omega

/-! ## The parameter blocks are the block-diagonal and tiled forms of the argument weights -/

theorem par3 (c : Dev nD) (t : Fin cfg0.N) (g : Fin 5) (a : Fin 50) (g' : Fin 5) (k : Fin 3) :
    iblk m c 3 t (ix2 (st50 (g, a)) (st3 (g', k))) = dlt g g' * (m ((c : Thread nD τ).loc main_arg3)) (ix2 k a) := by
  rw [blk3, V_win3]
  show kronIn (F := Ideal) eye5 _ (ix2 (st50 (g, a)) (st3 (g', k))) = _
  rw [kronIn_apply, eye5_apply, transpose_in_apply]
theorem par4 (c : Dev nD) (t : Fin cfg0.N) (g : Fin 5) (a : Fin 50) :
    iblk m c 4 t (ix2 (st50 (g, a)) (0 : Fin 1)) = (m ((c : Thread nD τ).loc main_arg4)) (ix1 a) := by
  rw [blk4, V_win4, tile50_apply]
theorem par5 (c : Dev nD) (t : Fin cfg0.N) (l : Fin 7) (g : Fin 5) (a : Fin 50) (g' : Fin 5) (b : Fin 50) :
    iblk m c 5 t (ix3 l (st50 (g, a)) (st50 (g', b))) = dlt g g' * (m ((c : Thread nD τ).loc main_arg5)) (ix3 l b a) := by
  rw [blk5, V_win5]
  exact wStack_apply _ l g a g' b
theorem par6 (c : Dev nD) (t : Fin cfg0.N) (l : Fin 7) (g : Fin 5) (a : Fin 50) :
    iblk m c 6 t (ix3 l (st50 (g, a)) (0 : Fin 1)) = (m ((c : Thread nD τ).loc main_arg6)) (ix2 l a) := by
  rw [blk6, V_win6, bStack_apply]
theorem par7 (c : Dev nD) (t : Fin cfg0.N) (g : Fin 5) (k : Fin 3) (g' : Fin 5) (a : Fin 50) :
    iblk m c 7 t (ix2 (st3 (g, k)) (st50 (g', a))) = dlt g g' * (m ((c : Thread nD τ).loc main_arg7)) (ix2 a k) := by
  rw [blk7, V_win7]
  show kronOut (F := Ideal) eye5 _ (ix2 (st3 (g, k)) (st50 (g', a))) = _
  rw [kronOut_apply, eye5_apply, transpose_out_apply]
theorem par8 (c : Dev nD) (t : Fin cfg0.N) (g : Fin 5) (k : Fin 3) :
    iblk m c 8 t (ix2 (st3 (g, k)) (0 : Fin 1)) = (m ((c : Thread nD τ).loc main_arg8)) (ix1 k) := by
  rw [blk8, V_win8, tile3_apply]

/-! ## What the region writes -/

/-- Output `k` of the network on every row, laid out as the row [1, 2000000] the region writes. -/
def rowNet (c : Dev nD) (k : Fin 3) : S1x2000000.Idx → Elt Ideal .f32 := fun i =>
  net (fun k a => (m ((c : Thread nD τ).loc main_arg3)) (ix2 k a)) (fun a => (m ((c : Thread nD τ).loc main_arg4)) (ix1 a)) (fun l b a => (m ((c : Thread nD τ).loc main_arg5)) (ix3 l b a)) (fun l a => (m ((c : Thread nD τ).loc main_arg6)) (ix2 l a)) (fun a k => (m ((c : Thread nD τ).loc main_arg7)) (ix2 a k)) (fun k => (m ((c : Thread nD τ).loc main_arg8)) (ix1 k)) (fun k' => sel3 k' (m ((c : Thread nD τ).loc main_arg0)) (m ((c : Thread nD τ).loc main_arg1)) (m ((c : Thread nD τ).loc main_arg2)) (ix2 (i 1) (0 : Fin 1))) k

/-- What point `t` writes back to result 0 is block `t` of that row. -/
theorem flushed_eq9 (c : Dev nD) (t : Fin cfg0.N) :
    (dats m 0 c).flushed 9 t = ((cfg0.win 9).blk t).view.read (Elt Ideal) (rowNet m c (0 : Fin 3)) := by
  show (cfg0.win 9).cut (grid0.coords t) ((dats m 0 c).after 9 t) = _
  rw [after0_9]
  funext y
  obtain ⟨u, n, rfl⟩ : ∃ (u : Fin 1) (n : Fin 16000), y = ix2 u n := ⟨y 0, y 1, eq_ix2 (n0 := 1) (n1 := 16000) y⟩
  rw [View.read_apply]
  show out0_9 (iblk m c 0 t) (iblk m c 1 t) (iblk m c 2 t) (iblk m c 3 t) (iblk m c 4 t) (iblk m c 5 t) (iblk m c 6 t) (iblk m c 7 t) (iblk m c 8 t) (ix2 u n) = rowNet m c (0 : Fin 3) (((cfg0.win 9).blk t).view.emb (ix2 u n))
  rw [out0_9_apply, res15_apply _ _ _ _ _ _ _ _ _ _ _ _ _ _ _ (par3 m c t) (par4 m c t) (par5 m c t) (par6 m c t) (par7 m c t) (par8 m c t)]
  unfold rowNet
  refine congrArg (fun uu => net (fun k a => (m ((c : Thread nD τ).loc main_arg3)) (ix2 k a)) (fun a => (m ((c : Thread nD τ).loc main_arg4)) (ix1 a)) (fun l b a => (m ((c : Thread nD τ).loc main_arg5)) (ix3 l b a)) (fun l a => (m ((c : Thread nD τ).loc main_arg6)) (ix2 l a)) (fun a k => (m ((c : Thread nD τ).loc main_arg7)) (ix2 a k)) (fun k => (m ((c : Thread nD τ).loc main_arg8)) (ix1 k)) uu (0 : Fin 3)) (funext fun k' => ?_)
  obtain ⟨e0, e1⟩ := idxA9 t
  have hn := n.isLt
  have hemb : (((cfg0.win 9).blk t).view.emb (ix2 u n) 1).val = 16000 * t.val + n.val := by
    show win0_9.index t (1 : Fin 2) * 16000 + 1 * n.val = 16000 * t.val + n.val
    omega
  match k' with
  | ⟨0, _⟩ =>
    show iblk m c 0 t (ix2 (0 : Fin 1) _) = (m ((c : Thread nD τ).loc main_arg0)) (ix2 _ (0 : Fin 1))
    rw [blk0]
    refine congrArg _ (funext fun ax => Fin.ext ?_)
    match ax with
    | ⟨0, _⟩ =>
      show 16000 * t.val + (3200 * (n.val / 3200) + n.val % 3200) = (((cfg0.win 9).blk t).view.emb (ix2 u n) 1).val
      rw [hemb]; omega
    | ⟨1, _⟩ => rfl
  | ⟨1, _⟩ =>
    show iblk m c 1 t (ix2 (0 : Fin 1) _) = (m ((c : Thread nD τ).loc main_arg1)) (ix2 _ (0 : Fin 1))
    rw [blk1]
    refine congrArg _ (funext fun ax => Fin.ext ?_)
    match ax with
    | ⟨0, _⟩ =>
      show 16000 * t.val + (3200 * (n.val / 3200) + n.val % 3200) = (((cfg0.win 9).blk t).view.emb (ix2 u n) 1).val
      rw [hemb]; omega
    | ⟨1, _⟩ => rfl
  | ⟨2, _⟩ =>
    show iblk m c 2 t (ix2 (0 : Fin 1) _) = (m ((c : Thread nD τ).loc main_arg2)) (ix2 _ (0 : Fin 1))
    rw [blk2]
    refine congrArg _ (funext fun ax => Fin.ext ?_)
    match ax with
    | ⟨0, _⟩ =>
      show 16000 * t.val + (3200 * (n.val / 3200) + n.val % 3200) = (((cfg0.win 9).blk t).view.emb (ix2 u n) 1).val
      rw [hemb]; omega
    | ⟨1, _⟩ => rfl

/-- An index of result 0's array lies in point `t`'s block iff each coordinate lies in the block's range. -/
theorem mem_blk9 (t : Fin cfg0.N) (i : S1x2000000.Idx) :
    i ∈ ((cfg0.win 9).blk t).view.set ↔ ∀ a : Fin 2, win0_9.index t a * S1x16000.size a ≤ (i a).val ∧ (i a).val < win0_9.index t a * S1x16000.size a + S1x16000.size a := by
  show i ∈ ((View.whole main_v158_0).slice (win0_9.rect t)).set ↔ _
  rw [View.set_slice_whole, Rect.mem_set_unit]
  exact Iff.rfl

/-- The 125 blocks tile the row. -/
theorem cover9 (i : S1x2000000.Idx) : ∃ t : Fin cfg0.N, (cfg0.win 9).flush t = true ∧ i ∈ ((cfg0.win 9).blk t).view.set := by
  have hi0 : (i 0).val < 1 := (i 0).isLt
  have hi1 : (i 1).val < 2000000 := (i 1).isLt
  have hN := N_0
  refine ⟨⟨(i 1).val / 16000, by show (i 1).val / 16000 < grid0.N; omega⟩, flush0_9 _, ?_⟩
  rw [mem_blk9]
  obtain ⟨e0, e1⟩ := idxA9 ⟨(i 1).val / 16000, by show (i 1).val / 16000 < grid0.N; omega⟩
  intro a
  match a with
  | ⟨0, _⟩ =>
    show win0_9.index _ (0 : Fin 2) * 1 ≤ (i 0).val ∧ (i 0).val < win0_9.index _ (0 : Fin 2) * 1 + 1
    rw [e0]; omega
  | ⟨1, _⟩ =>
    show win0_9.index _ (1 : Fin 2) * 16000 ≤ (i 1).val ∧ (i 1).val < win0_9.index _ (1 : Fin 2) * 16000 + 16000
    rw [e1]
    show (i 1).val / 16000 * 16000 ≤ (i 1).val ∧ (i 1).val < (i 1).val / 16000 * 16000 + 16000
    omega

/-- After the region result 0's row holds the network's output 0 on every row. -/
theorem final9 (c : Dev nD) : (dats m 0 c).arrAt 9 cfg0.N = rowNet m c (0 : Fin 3) :=
  (dats m 0 c).arrAt_eq_of_cover 9 (rowNet m c (0 : Fin 3)) (fun t _ => flushed_eq9 m c t) (cover9)

/-- And the reshape after the region returns it as the column [2000000, 1]. -/
theorem res0 (c : Dev nD) :
    Pipeline.afterTail₀ cfgs (dats m) 0 (V0 m) [hostOps1] c main_v159
      = rowOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (0 : Fin 3) := by
  unfold Pipeline.afterTail₀
  show StableHlo.after hostOps1 _ (Proc.devRef .tc main_v159) = _
  after_results
  rw [(Pipeline.withArrays_arr spec0 launch0.win.arr_inj c _ _ 9).trans (final9 m c)]
  funext i
  obtain ⟨n, u, rfl⟩ : ∃ (n : Fin 2000000) (u : Fin 1), i = ix2 n u := ⟨i 0, i 1, eq_ix2 (n0 := 2000000) (n1 := 1) i⟩
  show shapeCast S2000000x1 (rowNet m c (0 : Fin 3)) shapeCasts_S1x2000000_S2000000x1 (ix2 n u) = _
  rw [col_apply]
  rfl

/-- What point `t` writes back to result 1 is block `t` of that row. -/
theorem flushed_eq10 (c : Dev nD) (t : Fin cfg0.N) :
    (dats m 0 c).flushed 10 t = ((cfg0.win 10).blk t).view.read (Elt Ideal) (rowNet m c (1 : Fin 3)) := by
  show (cfg0.win 10).cut (grid0.coords t) ((dats m 0 c).after 10 t) = _
  rw [after0_10]
  funext y
  obtain ⟨u, n, rfl⟩ : ∃ (u : Fin 1) (n : Fin 16000), y = ix2 u n := ⟨y 0, y 1, eq_ix2 (n0 := 1) (n1 := 16000) y⟩
  rw [View.read_apply]
  show out0_10 (iblk m c 0 t) (iblk m c 1 t) (iblk m c 2 t) (iblk m c 3 t) (iblk m c 4 t) (iblk m c 5 t) (iblk m c 6 t) (iblk m c 7 t) (iblk m c 8 t) (ix2 u n) = rowNet m c (1 : Fin 3) (((cfg0.win 10).blk t).view.emb (ix2 u n))
  rw [out0_10_apply, res15_apply _ _ _ _ _ _ _ _ _ _ _ _ _ _ _ (par3 m c t) (par4 m c t) (par5 m c t) (par6 m c t) (par7 m c t) (par8 m c t)]
  unfold rowNet
  refine congrArg (fun uu => net (fun k a => (m ((c : Thread nD τ).loc main_arg3)) (ix2 k a)) (fun a => (m ((c : Thread nD τ).loc main_arg4)) (ix1 a)) (fun l b a => (m ((c : Thread nD τ).loc main_arg5)) (ix3 l b a)) (fun l a => (m ((c : Thread nD τ).loc main_arg6)) (ix2 l a)) (fun a k => (m ((c : Thread nD τ).loc main_arg7)) (ix2 a k)) (fun k => (m ((c : Thread nD τ).loc main_arg8)) (ix1 k)) uu (1 : Fin 3)) (funext fun k' => ?_)
  obtain ⟨e0, e1⟩ := idxA10 t
  have hn := n.isLt
  have hemb : (((cfg0.win 10).blk t).view.emb (ix2 u n) 1).val = 16000 * t.val + n.val := by
    show win0_10.index t (1 : Fin 2) * 16000 + 1 * n.val = 16000 * t.val + n.val
    omega
  match k' with
  | ⟨0, _⟩ =>
    show iblk m c 0 t (ix2 (0 : Fin 1) _) = (m ((c : Thread nD τ).loc main_arg0)) (ix2 _ (0 : Fin 1))
    rw [blk0]
    refine congrArg _ (funext fun ax => Fin.ext ?_)
    match ax with
    | ⟨0, _⟩ =>
      show 16000 * t.val + (3200 * (n.val / 3200) + n.val % 3200) = (((cfg0.win 10).blk t).view.emb (ix2 u n) 1).val
      rw [hemb]; omega
    | ⟨1, _⟩ => rfl
  | ⟨1, _⟩ =>
    show iblk m c 1 t (ix2 (0 : Fin 1) _) = (m ((c : Thread nD τ).loc main_arg1)) (ix2 _ (0 : Fin 1))
    rw [blk1]
    refine congrArg _ (funext fun ax => Fin.ext ?_)
    match ax with
    | ⟨0, _⟩ =>
      show 16000 * t.val + (3200 * (n.val / 3200) + n.val % 3200) = (((cfg0.win 10).blk t).view.emb (ix2 u n) 1).val
      rw [hemb]; omega
    | ⟨1, _⟩ => rfl
  | ⟨2, _⟩ =>
    show iblk m c 2 t (ix2 (0 : Fin 1) _) = (m ((c : Thread nD τ).loc main_arg2)) (ix2 _ (0 : Fin 1))
    rw [blk2]
    refine congrArg _ (funext fun ax => Fin.ext ?_)
    match ax with
    | ⟨0, _⟩ =>
      show 16000 * t.val + (3200 * (n.val / 3200) + n.val % 3200) = (((cfg0.win 10).blk t).view.emb (ix2 u n) 1).val
      rw [hemb]; omega
    | ⟨1, _⟩ => rfl

/-- An index of result 1's array lies in point `t`'s block iff each coordinate lies in the block's range. -/
theorem mem_blk10 (t : Fin cfg0.N) (i : S1x2000000.Idx) :
    i ∈ ((cfg0.win 10).blk t).view.set ↔ ∀ a : Fin 2, win0_10.index t a * S1x16000.size a ≤ (i a).val ∧ (i a).val < win0_10.index t a * S1x16000.size a + S1x16000.size a := by
  show i ∈ ((View.whole main_v158_1).slice (win0_10.rect t)).set ↔ _
  rw [View.set_slice_whole, Rect.mem_set_unit]
  exact Iff.rfl

/-- The 125 blocks tile the row. -/
theorem cover10 (i : S1x2000000.Idx) : ∃ t : Fin cfg0.N, (cfg0.win 10).flush t = true ∧ i ∈ ((cfg0.win 10).blk t).view.set := by
  have hi0 : (i 0).val < 1 := (i 0).isLt
  have hi1 : (i 1).val < 2000000 := (i 1).isLt
  have hN := N_0
  refine ⟨⟨(i 1).val / 16000, by show (i 1).val / 16000 < grid0.N; omega⟩, flush0_10 _, ?_⟩
  rw [mem_blk10]
  obtain ⟨e0, e1⟩ := idxA10 ⟨(i 1).val / 16000, by show (i 1).val / 16000 < grid0.N; omega⟩
  intro a
  match a with
  | ⟨0, _⟩ =>
    show win0_10.index _ (0 : Fin 2) * 1 ≤ (i 0).val ∧ (i 0).val < win0_10.index _ (0 : Fin 2) * 1 + 1
    rw [e0]; omega
  | ⟨1, _⟩ =>
    show win0_10.index _ (1 : Fin 2) * 16000 ≤ (i 1).val ∧ (i 1).val < win0_10.index _ (1 : Fin 2) * 16000 + 16000
    rw [e1]
    show (i 1).val / 16000 * 16000 ≤ (i 1).val ∧ (i 1).val < (i 1).val / 16000 * 16000 + 16000
    omega

/-- After the region result 1's row holds the network's output 1 on every row. -/
theorem final10 (c : Dev nD) : (dats m 0 c).arrAt 10 cfg0.N = rowNet m c (1 : Fin 3) :=
  (dats m 0 c).arrAt_eq_of_cover 10 (rowNet m c (1 : Fin 3)) (fun t _ => flushed_eq10 m c t) (cover10)

/-- And the reshape after the region returns it as the column [2000000, 1]. -/
theorem res1 (c : Dev nD) :
    Pipeline.afterTail₀ cfgs (dats m) 0 (V0 m) [hostOps1] c main_v160
      = rowOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (1 : Fin 3) := by
  unfold Pipeline.afterTail₀
  show StableHlo.after hostOps1 _ (Proc.devRef .tc main_v160) = _
  after_results
  rw [(Pipeline.withArrays_arr spec0 launch0.win.arr_inj c _ _ 10).trans (final10 m c)]
  funext i
  obtain ⟨n, u, rfl⟩ : ∃ (n : Fin 2000000) (u : Fin 1), i = ix2 n u := ⟨i 0, i 1, eq_ix2 (n0 := 2000000) (n1 := 1) i⟩
  show shapeCast S2000000x1 (rowNet m c (1 : Fin 3)) shapeCasts_S1x2000000_S2000000x1 (ix2 n u) = _
  rw [col_apply]
  rfl

/-- What point `t` writes back to result 2 is block `t` of that row. -/
theorem flushed_eq11 (c : Dev nD) (t : Fin cfg0.N) :
    (dats m 0 c).flushed 11 t = ((cfg0.win 11).blk t).view.read (Elt Ideal) (rowNet m c (2 : Fin 3)) := by
  show (cfg0.win 11).cut (grid0.coords t) ((dats m 0 c).after 11 t) = _
  rw [after0_11]
  funext y
  obtain ⟨u, n, rfl⟩ : ∃ (u : Fin 1) (n : Fin 16000), y = ix2 u n := ⟨y 0, y 1, eq_ix2 (n0 := 1) (n1 := 16000) y⟩
  rw [View.read_apply]
  show out0_11 (iblk m c 0 t) (iblk m c 1 t) (iblk m c 2 t) (iblk m c 3 t) (iblk m c 4 t) (iblk m c 5 t) (iblk m c 6 t) (iblk m c 7 t) (iblk m c 8 t) (ix2 u n) = rowNet m c (2 : Fin 3) (((cfg0.win 11).blk t).view.emb (ix2 u n))
  rw [out0_11_apply, res15_apply _ _ _ _ _ _ _ _ _ _ _ _ _ _ _ (par3 m c t) (par4 m c t) (par5 m c t) (par6 m c t) (par7 m c t) (par8 m c t)]
  unfold rowNet
  refine congrArg (fun uu => net (fun k a => (m ((c : Thread nD τ).loc main_arg3)) (ix2 k a)) (fun a => (m ((c : Thread nD τ).loc main_arg4)) (ix1 a)) (fun l b a => (m ((c : Thread nD τ).loc main_arg5)) (ix3 l b a)) (fun l a => (m ((c : Thread nD τ).loc main_arg6)) (ix2 l a)) (fun a k => (m ((c : Thread nD τ).loc main_arg7)) (ix2 a k)) (fun k => (m ((c : Thread nD τ).loc main_arg8)) (ix1 k)) uu (2 : Fin 3)) (funext fun k' => ?_)
  obtain ⟨e0, e1⟩ := idxA11 t
  have hn := n.isLt
  have hemb : (((cfg0.win 11).blk t).view.emb (ix2 u n) 1).val = 16000 * t.val + n.val := by
    show win0_11.index t (1 : Fin 2) * 16000 + 1 * n.val = 16000 * t.val + n.val
    omega
  match k' with
  | ⟨0, _⟩ =>
    show iblk m c 0 t (ix2 (0 : Fin 1) _) = (m ((c : Thread nD τ).loc main_arg0)) (ix2 _ (0 : Fin 1))
    rw [blk0]
    refine congrArg _ (funext fun ax => Fin.ext ?_)
    match ax with
    | ⟨0, _⟩ =>
      show 16000 * t.val + (3200 * (n.val / 3200) + n.val % 3200) = (((cfg0.win 11).blk t).view.emb (ix2 u n) 1).val
      rw [hemb]; omega
    | ⟨1, _⟩ => rfl
  | ⟨1, _⟩ =>
    show iblk m c 1 t (ix2 (0 : Fin 1) _) = (m ((c : Thread nD τ).loc main_arg1)) (ix2 _ (0 : Fin 1))
    rw [blk1]
    refine congrArg _ (funext fun ax => Fin.ext ?_)
    match ax with
    | ⟨0, _⟩ =>
      show 16000 * t.val + (3200 * (n.val / 3200) + n.val % 3200) = (((cfg0.win 11).blk t).view.emb (ix2 u n) 1).val
      rw [hemb]; omega
    | ⟨1, _⟩ => rfl
  | ⟨2, _⟩ =>
    show iblk m c 2 t (ix2 (0 : Fin 1) _) = (m ((c : Thread nD τ).loc main_arg2)) (ix2 _ (0 : Fin 1))
    rw [blk2]
    refine congrArg _ (funext fun ax => Fin.ext ?_)
    match ax with
    | ⟨0, _⟩ =>
      show 16000 * t.val + (3200 * (n.val / 3200) + n.val % 3200) = (((cfg0.win 11).blk t).view.emb (ix2 u n) 1).val
      rw [hemb]; omega
    | ⟨1, _⟩ => rfl

/-- An index of result 2's array lies in point `t`'s block iff each coordinate lies in the block's range. -/
theorem mem_blk11 (t : Fin cfg0.N) (i : S1x2000000.Idx) :
    i ∈ ((cfg0.win 11).blk t).view.set ↔ ∀ a : Fin 2, win0_11.index t a * S1x16000.size a ≤ (i a).val ∧ (i a).val < win0_11.index t a * S1x16000.size a + S1x16000.size a := by
  show i ∈ ((View.whole main_v158_2).slice (win0_11.rect t)).set ↔ _
  rw [View.set_slice_whole, Rect.mem_set_unit]
  exact Iff.rfl

/-- The 125 blocks tile the row. -/
theorem cover11 (i : S1x2000000.Idx) : ∃ t : Fin cfg0.N, (cfg0.win 11).flush t = true ∧ i ∈ ((cfg0.win 11).blk t).view.set := by
  have hi0 : (i 0).val < 1 := (i 0).isLt
  have hi1 : (i 1).val < 2000000 := (i 1).isLt
  have hN := N_0
  refine ⟨⟨(i 1).val / 16000, by show (i 1).val / 16000 < grid0.N; omega⟩, flush0_11 _, ?_⟩
  rw [mem_blk11]
  obtain ⟨e0, e1⟩ := idxA11 ⟨(i 1).val / 16000, by show (i 1).val / 16000 < grid0.N; omega⟩
  intro a
  match a with
  | ⟨0, _⟩ =>
    show win0_11.index _ (0 : Fin 2) * 1 ≤ (i 0).val ∧ (i 0).val < win0_11.index _ (0 : Fin 2) * 1 + 1
    rw [e0]; omega
  | ⟨1, _⟩ =>
    show win0_11.index _ (1 : Fin 2) * 16000 ≤ (i 1).val ∧ (i 1).val < win0_11.index _ (1 : Fin 2) * 16000 + 16000
    rw [e1]
    show (i 1).val / 16000 * 16000 ≤ (i 1).val ∧ (i 1).val < (i 1).val / 16000 * 16000 + 16000
    omega

/-- After the region result 2's row holds the network's output 2 on every row. -/
theorem final11 (c : Dev nD) : (dats m 0 c).arrAt 11 cfg0.N = rowNet m c (2 : Fin 3) :=
  (dats m 0 c).arrAt_eq_of_cover 11 (rowNet m c (2 : Fin 3)) (fun t _ => flushed_eq11 m c t) (cover11)

/-- And the reshape after the region returns it as the column [2000000, 1]. -/
theorem res2 (c : Dev nD) :
    Pipeline.afterTail₀ cfgs (dats m) 0 (V0 m) [hostOps1] c main_v161
      = rowOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (2 : Fin 3) := by
  unfold Pipeline.afterTail₀
  show StableHlo.after hostOps1 _ (Proc.devRef .tc main_v161) = _
  after_results
  rw [(Pipeline.withArrays_arr spec0 launch0.win.arr_inj c _ _ 11).trans (final11 m c)]
  funext i
  obtain ⟨n, u, rfl⟩ : ∃ (n : Fin 2000000) (u : Fin 1), i = ix2 n u := ⟨i 0, i 1, eq_ix2 (n0 := 2000000) (n1 := 1) i⟩
  show shapeCast S2000000x1 (rowNet m c (2 : Fin 3)) shapeCasts_S1x2000000_S2000000x1 (ix2 n u) = _
  rw [col_apply]
  rfl

/-! ## The run, read -/

/-- Every weakly fair execution of the idealized kernel program terminates with each result at the network's output on
    every row of the arguments, and the arguments unchanged. -/
theorem run : θ_run defs (onTc (τ := τ) (main (F := Ideal))) ⟨m, fun _ => 0, ρ⟩ fun r => ∀ c : Dev nD,
      r.2.mem ((c.tc : Thread nD τ).loc main_v159) = rowOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (0 : Fin 3)
      ∧ r.2.mem ((c.tc : Thread nD τ).loc main_v160) = rowOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (1 : Fin 3)
      ∧ r.2.mem ((c.tc : Thread nD τ).loc main_v161) = rowOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (2 : Fin 3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨
      ((h c).2 main_v159 (Pipeline.mem_restRefs_of main_v159 (by decide) (by decide))).trans (res0 m c),
      ((h c).2 main_v160 (Pipeline.mem_restRefs_of main_v160 (by decide) (by decide))).trans (res1 m c),
      ((h c).2 main_v161 (Pipeline.mem_restRefs_of main_v161 (by decide) (by decide))).trans (res2 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.KernelIdeal.Hand

end
-- ==== Proof.RefNet.lean ====
/-
  The reference program read at an index on the extended reals: it is the network of `Cert.Mlp`, row by row.
  Each `dot_general` is a sum over the contracted axis, each bias a broadcast along the rows; the concatenation of the
  three coordinate columns reads, at (n, k), coordinate `k` of row `n`.
-/
import proofs.«147603_j74036646248987_2_alg».proof.Proof.Gen.ReferenceIdeal.Read
import proofs.«147603_j74036646248987_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.ReferenceIdeal.RefNet

open Cert.ReferenceIdeal Cert.ReferenceIdeal.Gen Cert.ReferenceIdeal.Read Cert.Mlp
open Idealize.ShloMosaic Idealize.ShloMosaic.ValueIdx

/-- The three coordinate columns side by side, at (n, k): coordinate `k` of row `n`. -/
theorem ref_cat (x0 x1 x2 : (⟨S2000000x1, .f32⟩ : BufTy).Contents (Elt Ideal)) (n : Fin 2000000) (k : Fin 3) :
    val_main_v0 (F := Ideal) x0 x1 x2 (ix2 n k) = sel3 k x0 x1 x2 (ix2 n (0 : Fin 1)) := by
  unfold val_main_v0
  match k with
  | ⟨0, _⟩ =>
    exact concatenate_apply_piece (t := S2000000x3) (1 : Fin 2) [⟨S2000000x1, x0⟩, ⟨S2000000x1, x1⟩, ⟨S2000000x1, x2⟩]
      concatenates_S2000000x1_S2000000x1_S2000000x1_S2000000x3_d1 (ix2 n (⟨0, by decide⟩ : Fin 3)) 0 (by simp) S2000000x1 x0 rfl rfl 0 (by rfl) (ix2 n (0 : Fin 1))
      (fun b hb => by match b with
        | ⟨0, _⟩ => rfl
        | ⟨1, _⟩ => exact absurd rfl hb) (by rfl)
  | ⟨1, _⟩ =>
    exact concatenate_apply_piece (t := S2000000x3) (1 : Fin 2) [⟨S2000000x1, x0⟩, ⟨S2000000x1, x1⟩, ⟨S2000000x1, x2⟩]
      concatenates_S2000000x1_S2000000x1_S2000000x1_S2000000x3_d1 (ix2 n (⟨1, by decide⟩ : Fin 3)) 1 (by simp) S2000000x1 x1 rfl rfl 1 (by rfl) (ix2 n (0 : Fin 1))
      (fun b hb => by match b with
        | ⟨0, _⟩ => rfl
        | ⟨1, _⟩ => exact absurd rfl hb) (by rfl)
  | ⟨2, _⟩ =>
    exact concatenate_apply_piece (t := S2000000x3) (1 : Fin 2) [⟨S2000000x1, x0⟩, ⟨S2000000x1, x1⟩, ⟨S2000000x1, x2⟩]
      concatenates_S2000000x1_S2000000x1_S2000000x1_S2000000x3_d1 (ix2 n (⟨2, by decide⟩ : Fin 3)) 2 (by simp) S2000000x1 x2 rfl rfl 2 (by rfl) (ix2 n (0 : Fin 1))
      (fun b hb => by match b with
        | ⟨0, _⟩ => rfl
        | ⟨1, _⟩ => exact absurd rfl hb) (by rfl)

/-- The input layer of the reference at (n, a). -/
theorem ref_in (x0 x1 x2 : (⟨S2000000x1, .f32⟩ : BufTy).Contents (Elt Ideal)) (x3 : (⟨S3x50, .f32⟩ : BufTy).Contents (Elt Ideal)) (x4 : (⟨S50, .f32⟩ : BufTy).Contents (Elt Ideal))
    (n : Fin 2000000) (a : Fin 50) :
    val_main_v5 (F := Ideal) x0 x1 x2 x3 x4 (ix2 n a)
      = Cert.Mlp.hidden (fun k a' => x3 (ix2 k a')) (fun a' => x4 (ix1 a')) (fun k => sel3 k x0 x1 x2 (ix2 n (0 : Fin 1))) a := by
  rw [val_main_v5_apply, val_main_v4_apply, val_main_v1_apply, val_main_v3_apply, val_main_v2_apply]
  unfold Cert.Mlp.hidden Cert.Mlp.affine
  show Ideal.tanh (_ + _) = Ideal.tanh (_ + _)
  refine congrArg Ideal.tanh (congr (congrArg HAdd.hAdd (Finset.sum_congr rfl fun k _ => ?_)) ?_)
  · refine congr (congrArg HMul.hMul ?_) (congrArg x3 ?_)
    · refine Eq.trans (congrArg _ ?_) (ref_cat x0 x1 x2 n k)
      funext ax; apply Fin.ext
      match ax with
      | ⟨0, _⟩ => rfl
      | ⟨1, _⟩ => rfl
    · funext ax; apply Fin.ext
      match ax with
      | ⟨0, _⟩ => rfl
      | ⟨1, _⟩ => rfl
  · refine congrArg x4 ?_
    funext ax; apply Fin.ext
    match ax with
    | ⟨0, _⟩ => rfl

/-- Hidden layer 0 of the reference at (n, a). -/
theorem ref_mid0 (x0 x1 x2 : (⟨S2000000x1, .f32⟩ : BufTy).Contents (Elt Ideal)) (x3 : (⟨S3x50, .f32⟩ : BufTy).Contents (Elt Ideal)) (x4 : (⟨S50, .f32⟩ : BufTy).Contents (Elt Ideal)) (x5 : (⟨S7x50x50, .f32⟩ : BufTy).Contents (Elt Ideal)) (x6 : (⟨S7x50, .f32⟩ : BufTy).Contents (Elt Ideal)) (n : Fin 2000000) (a : Fin 50) :
    val_main_v14 (F := Ideal) x0 x1 x2 x3 x4 x5 x6 (ix2 n a)
      = Cert.Mlp.hidden (fun k a' => x5 (ix3 (0 : Fin 7) k a')) (fun a' => x6 (ix2 (0 : Fin 7) a')) (fun k => val_main_v5 (F := Ideal) x0 x1 x2 x3 x4 (ix2 n k)) a := by
  rw [val_main_v14_apply, val_main_v13_apply, val_main_v8_apply, val_main_v12_apply, val_main_v11_apply, val_main_v10_apply, val_main_v9_apply]
  unfold Cert.Mlp.hidden Cert.Mlp.affine
  show Ideal.tanh (_ + _) = Ideal.tanh (_ + _)
  refine congrArg Ideal.tanh (congr (congrArg HAdd.hAdd (Finset.sum_congr rfl fun k _ => ?_)) ?_)
  · rw [val_main_v7_apply, val_main_v6_apply]
    refine congr (congrArg HMul.hMul (congrArg _ ?_)) (congrArg x5 ?_)
    · funext ax; apply Fin.ext
      match ax with
      | ⟨0, _⟩ => rfl
      | ⟨1, _⟩ => rfl
    · funext ax; apply Fin.ext
      have hk := k.isLt; have ha := a.isLt
      match ax with
      | ⟨0, _⟩ => first | rfl | (dsimp only; omega) | (simp only [ix1, ix2, ix3]; omega)
      | ⟨1, _⟩ => first | rfl | (dsimp only; omega) | (simp only [ix1, ix2, ix3]; omega)
      | ⟨2, _⟩ => first | rfl | (dsimp only; omega) | (simp only [ix1, ix2, ix3]; omega)
  · refine congrArg x6 ?_
    funext ax; apply Fin.ext
    have ha := a.isLt
    match ax with
    | ⟨0, _⟩ => first | rfl | (dsimp only; omega) | (simp only [ix1, ix2, ix3]; omega)
    | ⟨1, _⟩ => first | rfl | (dsimp only; omega) | (simp only [ix1, ix2, ix3]; omega)

/-- Hidden layer 1 of the reference at (n, a). -/
theorem ref_mid1 (x0 x1 x2 : (⟨S2000000x1, .f32⟩ : BufTy).Contents (Elt Ideal)) (x3 : (⟨S3x50, .f32⟩ : BufTy).Contents (Elt Ideal)) (x4 : (⟨S50, .f32⟩ : BufTy).Contents (Elt Ideal)) (x5 : (⟨S7x50x50, .f32⟩ : BufTy).Contents (Elt Ideal)) (x6 : (⟨S7x50, .f32⟩ : BufTy).Contents (Elt Ideal)) (n : Fin 2000000) (a : Fin 50) :
    val_main_v23 (F := Ideal) x0 x1 x2 x3 x4 x5 x6 (ix2 n a)
      = Cert.Mlp.hidden (fun k a' => x5 (ix3 (1 : Fin 7) k a')) (fun a' => x6 (ix2 (1 : Fin 7) a')) (fun k => val_main_v14 (F := Ideal) x0 x1 x2 x3 x4 x5 x6 (ix2 n k)) a := by
  rw [val_main_v23_apply, val_main_v22_apply, val_main_v17_apply, val_main_v21_apply, val_main_v20_apply, val_main_v19_apply, val_main_v18_apply]
  unfold Cert.Mlp.hidden Cert.Mlp.affine
  show Ideal.tanh (_ + _) = Ideal.tanh (_ + _)
  refine congrArg Ideal.tanh (congr (congrArg HAdd.hAdd (Finset.sum_congr rfl fun k _ => ?_)) ?_)
  · rw [val_main_v16_apply, val_main_v15_apply]
    refine congr (congrArg HMul.hMul (congrArg _ ?_)) (congrArg x5 ?_)
    · funext ax; apply Fin.ext
      match ax with
      | ⟨0, _⟩ => rfl
      | ⟨1, _⟩ => rfl
    · funext ax; apply Fin.ext
      have hk := k.isLt; have ha := a.isLt
      match ax with
      | ⟨0, _⟩ => first | rfl | (dsimp only; omega) | (simp only [ix1, ix2, ix3]; omega)
      | ⟨1, _⟩ => first | rfl | (dsimp only; omega) | (simp only [ix1, ix2, ix3]; omega)
      | ⟨2, _⟩ => first | rfl | (dsimp only; omega) | (simp only [ix1, ix2, ix3]; omega)
  · refine congrArg x6 ?_
    funext ax; apply Fin.ext
    have ha := a.isLt
    match ax with
    | ⟨0, _⟩ => first | rfl | (dsimp only; omega) | (simp only [ix1, ix2, ix3]; omega)
    | ⟨1, _⟩ => first | rfl | (dsimp only; omega) | (simp only [ix1, ix2, ix3]; omega)

/-- Hidden layer 2 of the reference at (n, a). -/
theorem ref_mid2 (x0 x1 x2 : (⟨S2000000x1, .f32⟩ : BufTy).Contents (Elt Ideal)) (x3 : (⟨S3x50, .f32⟩ : BufTy).Contents (Elt Ideal)) (x4 : (⟨S50, .f32⟩ : BufTy).Contents (Elt Ideal)) (x5 : (⟨S7x50x50, .f32⟩ : BufTy).Contents (Elt Ideal)) (x6 : (⟨S7x50, .f32⟩ : BufTy).Contents (Elt Ideal)) (n : Fin 2000000) (a : Fin 50) :
    val_main_v32 (F := Ideal) x0 x1 x2 x3 x4 x5 x6 (ix2 n a)
      = Cert.Mlp.hidden (fun k a' => x5 (ix3 (2 : Fin 7) k a')) (fun a' => x6 (ix2 (2 : Fin 7) a')) (fun k => val_main_v23 (F := Ideal) x0 x1 x2 x3 x4 x5 x6 (ix2 n k)) a := by
  rw [val_main_v32_apply, val_main_v31_apply, val_main_v26_apply, val_main_v30_apply, val_main_v29_apply, val_main_v28_apply, val_main_v27_apply]
  unfold Cert.Mlp.hidden Cert.Mlp.affine
  show Ideal.tanh (_ + _) = Ideal.tanh (_ + _)
  refine congrArg Ideal.tanh (congr (congrArg HAdd.hAdd (Finset.sum_congr rfl fun k _ => ?_)) ?_)
  · rw [val_main_v25_apply, val_main_v24_apply]
    refine congr (congrArg HMul.hMul (congrArg _ ?_)) (congrArg x5 ?_)
    · funext ax; apply Fin.ext
      match ax with
      | ⟨0, _⟩ => rfl
      | ⟨1, _⟩ => rfl
    · funext ax; apply Fin.ext
      have hk := k.isLt; have ha := a.isLt
      match ax with
      | ⟨0, _⟩ => first | rfl | (dsimp only; omega) | (simp only [ix1, ix2, ix3]; omega)
      | ⟨1, _⟩ => first | rfl | (dsimp only; omega) | (simp only [ix1, ix2, ix3]; omega)
      | ⟨2, _⟩ => first | rfl | (dsimp only; omega) | (simp only [ix1, ix2, ix3]; omega)
  · refine congrArg x6 ?_
    funext ax; apply Fin.ext
    have ha := a.isLt
    match ax with
    | ⟨0, _⟩ => first | rfl | (dsimp only; omega) | (simp only [ix1, ix2, ix3]; omega)
    | ⟨1, _⟩ => first | rfl | (dsimp only; omega) | (simp only [ix1, ix2, ix3]; omega)

/-- Hidden layer 3 of the reference at (n, a). -/
theorem ref_mid3 (x0 x1 x2 : (⟨S2000000x1, .f32⟩ : BufTy).Contents (Elt Ideal)) (x3 : (⟨S3x50, .f32⟩ : BufTy).Contents (Elt Ideal)) (x4 : (⟨S50, .f32⟩ : BufTy).Contents (Elt Ideal)) (x5 : (⟨S7x50x50, .f32⟩ : BufTy).Contents (Elt Ideal)) (x6 : (⟨S7x50, .f32⟩ : BufTy).Contents (Elt Ideal)) (n : Fin 2000000) (a : Fin 50) :
    val_main_v41 (F := Ideal) x0 x1 x2 x3 x4 x5 x6 (ix2 n a)
      = Cert.Mlp.hidden (fun k a' => x5 (ix3 (3 : Fin 7) k a')) (fun a' => x6 (ix2 (3 : Fin 7) a')) (fun k => val_main_v32 (F := Ideal) x0 x1 x2 x3 x4 x5 x6 (ix2 n k)) a := by
  rw [val_main_v41_apply, val_main_v40_apply, val_main_v35_apply, val_main_v39_apply, val_main_v38_apply, val_main_v37_apply, val_main_v36_apply]
  unfold Cert.Mlp.hidden Cert.Mlp.affine
  show Ideal.tanh (_ + _) = Ideal.tanh (_ + _)
  refine congrArg Ideal.tanh (congr (congrArg HAdd.hAdd (Finset.sum_congr rfl fun k _ => ?_)) ?_)
  · rw [val_main_v34_apply, val_main_v33_apply]
    refine congr (congrArg HMul.hMul (congrArg _ ?_)) (congrArg x5 ?_)
    · funext ax; apply Fin.ext
      match ax with
      | ⟨0, _⟩ => rfl
      | ⟨1, _⟩ => rfl
    · funext ax; apply Fin.ext
      have hk := k.isLt; have ha := a.isLt
      match ax with
      | ⟨0, _⟩ => first | rfl | (dsimp only; omega) | (simp only [ix1, ix2, ix3]; omega)
      | ⟨1, _⟩ => first | rfl | (dsimp only; omega) | (simp only [ix1, ix2, ix3]; omega)
      | ⟨2, _⟩ => first | rfl | (dsimp only; omega) | (simp only [ix1, ix2, ix3]; omega)
  · refine congrArg x6 ?_
    funext ax; apply Fin.ext
    have ha := a.isLt
    match ax with
    | ⟨0, _⟩ => first | rfl | (dsimp only; omega) | (simp only [ix1, ix2, ix3]; omega)
    | ⟨1, _⟩ => first | rfl | (dsimp only; omega) | (simp only [ix1, ix2, ix3]; omega)

/-- Hidden layer 4 of the reference at (n, a). -/
theorem ref_mid4 (x0 x1 x2 : (⟨S2000000x1, .f32⟩ : BufTy).Contents (Elt Ideal)) (x3 : (⟨S3x50, .f32⟩ : BufTy).Contents (Elt Ideal)) (x4 : (⟨S50, .f32⟩ : BufTy).Contents (Elt Ideal)) (x5 : (⟨S7x50x50, .f32⟩ : BufTy).Contents (Elt Ideal)) (x6 : (⟨S7x50, .f32⟩ : BufTy).Contents (Elt Ideal)) (n : Fin 2000000) (a : Fin 50) :
    val_main_v50 (F := Ideal) x0 x1 x2 x3 x4 x5 x6 (ix2 n a)
      = Cert.Mlp.hidden (fun k a' => x5 (ix3 (4 : Fin 7) k a')) (fun a' => x6 (ix2 (4 : Fin 7) a')) (fun k => val_main_v41 (F := Ideal) x0 x1 x2 x3 x4 x5 x6 (ix2 n k)) a := by
  rw [val_main_v50_apply, val_main_v49_apply, val_main_v44_apply, val_main_v48_apply, val_main_v47_apply, val_main_v46_apply, val_main_v45_apply]
  unfold Cert.Mlp.hidden Cert.Mlp.affine
  show Ideal.tanh (_ + _) = Ideal.tanh (_ + _)
  refine congrArg Ideal.tanh (congr (congrArg HAdd.hAdd (Finset.sum_congr rfl fun k _ => ?_)) ?_)
  · rw [val_main_v43_apply, val_main_v42_apply]
    refine congr (congrArg HMul.hMul (congrArg _ ?_)) (congrArg x5 ?_)
    · funext ax; apply Fin.ext
      match ax with
      | ⟨0, _⟩ => rfl
      | ⟨1, _⟩ => rfl
    · funext ax; apply Fin.ext
      have hk := k.isLt; have ha := a.isLt
      match ax with
      | ⟨0, _⟩ => first | rfl | (dsimp only; omega) | (simp only [ix1, ix2, ix3]; omega)
      | ⟨1, _⟩ => first | rfl | (dsimp only; omega) | (simp only [ix1, ix2, ix3]; omega)
      | ⟨2, _⟩ => first | rfl | (dsimp only; omega) | (simp only [ix1, ix2, ix3]; omega)
  · refine congrArg x6 ?_
    funext ax; apply Fin.ext
    have ha := a.isLt
    match ax with
    | ⟨0, _⟩ => first | rfl | (dsimp only; omega) | (simp only [ix1, ix2, ix3]; omega)
    | ⟨1, _⟩ => first | rfl | (dsimp only; omega) | (simp only [ix1, ix2, ix3]; omega)

/-- Hidden layer 5 of the reference at (n, a). -/
theorem ref_mid5 (x0 x1 x2 : (⟨S2000000x1, .f32⟩ : BufTy).Contents (Elt Ideal)) (x3 : (⟨S3x50, .f32⟩ : BufTy).Contents (Elt Ideal)) (x4 : (⟨S50, .f32⟩ : BufTy).Contents (Elt Ideal)) (x5 : (⟨S7x50x50, .f32⟩ : BufTy).Contents (Elt Ideal)) (x6 : (⟨S7x50, .f32⟩ : BufTy).Contents (Elt Ideal)) (n : Fin 2000000) (a : Fin 50) :
    val_main_v59 (F := Ideal) x0 x1 x2 x3 x4 x5 x6 (ix2 n a)
      = Cert.Mlp.hidden (fun k a' => x5 (ix3 (5 : Fin 7) k a')) (fun a' => x6 (ix2 (5 : Fin 7) a')) (fun k => val_main_v50 (F := Ideal) x0 x1 x2 x3 x4 x5 x6 (ix2 n k)) a := by
  rw [val_main_v59_apply, val_main_v58_apply, val_main_v53_apply, val_main_v57_apply, val_main_v56_apply, val_main_v55_apply, val_main_v54_apply]
  unfold Cert.Mlp.hidden Cert.Mlp.affine
  show Ideal.tanh (_ + _) = Ideal.tanh (_ + _)
  refine congrArg Ideal.tanh (congr (congrArg HAdd.hAdd (Finset.sum_congr rfl fun k _ => ?_)) ?_)
  · rw [val_main_v52_apply, val_main_v51_apply]
    refine congr (congrArg HMul.hMul (congrArg _ ?_)) (congrArg x5 ?_)
    · funext ax; apply Fin.ext
      match ax with
      | ⟨0, _⟩ => rfl
      | ⟨1, _⟩ => rfl
    · funext ax; apply Fin.ext
      have hk := k.isLt; have ha := a.isLt
      match ax with
      | ⟨0, _⟩ => first | rfl | (dsimp only; omega) | (simp only [ix1, ix2, ix3]; omega)
      | ⟨1, _⟩ => first | rfl | (dsimp only; omega) | (simp only [ix1, ix2, ix3]; omega)
      | ⟨2, _⟩ => first | rfl | (dsimp only; omega) | (simp only [ix1, ix2, ix3]; omega)
  · refine congrArg x6 ?_
    funext ax; apply Fin.ext
    have ha := a.isLt
    match ax with
    | ⟨0, _⟩ => first | rfl | (dsimp only; omega) | (simp only [ix1, ix2, ix3]; omega)
    | ⟨1, _⟩ => first | rfl | (dsimp only; omega) | (simp only [ix1, ix2, ix3]; omega)

/-- Hidden layer 6 of the reference at (n, a). -/
theorem ref_mid6 (x0 x1 x2 : (⟨S2000000x1, .f32⟩ : BufTy).Contents (Elt Ideal)) (x3 : (⟨S3x50, .f32⟩ : BufTy).Contents (Elt Ideal)) (x4 : (⟨S50, .f32⟩ : BufTy).Contents (Elt Ideal)) (x5 : (⟨S7x50x50, .f32⟩ : BufTy).Contents (Elt Ideal)) (x6 : (⟨S7x50, .f32⟩ : BufTy).Contents (Elt Ideal)) (n : Fin 2000000) (a : Fin 50) :
    val_main_v68 (F := Ideal) x0 x1 x2 x3 x4 x5 x6 (ix2 n a)
      = Cert.Mlp.hidden (fun k a' => x5 (ix3 (6 : Fin 7) k a')) (fun a' => x6 (ix2 (6 : Fin 7) a')) (fun k => val_main_v59 (F := Ideal) x0 x1 x2 x3 x4 x5 x6 (ix2 n k)) a := by
  rw [val_main_v68_apply, val_main_v67_apply, val_main_v62_apply, val_main_v66_apply, val_main_v65_apply, val_main_v64_apply, val_main_v63_apply]
  unfold Cert.Mlp.hidden Cert.Mlp.affine
  show Ideal.tanh (_ + _) = Ideal.tanh (_ + _)
  refine congrArg Ideal.tanh (congr (congrArg HAdd.hAdd (Finset.sum_congr rfl fun k _ => ?_)) ?_)
  · rw [val_main_v61_apply, val_main_v60_apply]
    refine congr (congrArg HMul.hMul (congrArg _ ?_)) (congrArg x5 ?_)
    · funext ax; apply Fin.ext
      match ax with
      | ⟨0, _⟩ => rfl
      | ⟨1, _⟩ => rfl
    · funext ax; apply Fin.ext
      have hk := k.isLt; have ha := a.isLt
      match ax with
      | ⟨0, _⟩ => first | rfl | (dsimp only; omega) | (simp only [ix1, ix2, ix3]; omega)
      | ⟨1, _⟩ => first | rfl | (dsimp only; omega) | (simp only [ix1, ix2, ix3]; omega)
      | ⟨2, _⟩ => first | rfl | (dsimp only; omega) | (simp only [ix1, ix2, ix3]; omega)
  · refine congrArg x6 ?_
    funext ax; apply Fin.ext
    have ha := a.isLt
    match ax with
    | ⟨0, _⟩ => first | rfl | (dsimp only; omega) | (simp only [ix1, ix2, ix3]; omega)
    | ⟨1, _⟩ => first | rfl | (dsimp only; omega) | (simp only [ix1, ix2, ix3]; omega)

/-- The output layer of the reference at (n, k). -/
theorem ref_out (x0 x1 x2 : (⟨S2000000x1, .f32⟩ : BufTy).Contents (Elt Ideal)) (x3 : (⟨S3x50, .f32⟩ : BufTy).Contents (Elt Ideal)) (x4 : (⟨S50, .f32⟩ : BufTy).Contents (Elt Ideal)) (x5 : (⟨S7x50x50, .f32⟩ : BufTy).Contents (Elt Ideal)) (x6 : (⟨S7x50, .f32⟩ : BufTy).Contents (Elt Ideal)) (x7 : (⟨S50x3, .f32⟩ : BufTy).Contents (Elt Ideal)) (x8 : (⟨S3, .f32⟩ : BufTy).Contents (Elt Ideal)) (n : Fin 2000000) (k : Fin 3) :
    val_main_v72 (F := Ideal) x0 x1 x2 x3 x4 x5 x6 x7 x8 (ix2 n k)
      = affine (fun a k' => x7 (ix2 a k')) (fun k' => x8 (ix1 k')) (fun a => val_main_v68 (F := Ideal) x0 x1 x2 x3 x4 x5 x6 (ix2 n a)) k := by
  rw [val_main_v72_apply, val_main_v69_apply, val_main_v71_apply, val_main_v70_apply]
  unfold affine
  show _ + _ = _ + _
  refine congr (congrArg HAdd.hAdd (Finset.sum_congr rfl fun a _ => ?_)) ?_
  · refine congr (congrArg HMul.hMul (congrArg _ ?_)) (congrArg x7 ?_)
    · funext ax; apply Fin.ext
      match ax with
      | ⟨0, _⟩ => rfl
      | ⟨1, _⟩ => rfl
    · funext ax; apply Fin.ext
      match ax with
      | ⟨0, _⟩ => rfl
      | ⟨1, _⟩ => rfl
  · refine congrArg x8 ?_
    funext ax; apply Fin.ext
    match ax with
    | ⟨0, _⟩ => rfl

/-- The whole reference at (n, k): the network's output `k` on row `n`. -/
theorem ref_net (x0 x1 x2 : (⟨S2000000x1, .f32⟩ : BufTy).Contents (Elt Ideal)) (x3 : (⟨S3x50, .f32⟩ : BufTy).Contents (Elt Ideal)) (x4 : (⟨S50, .f32⟩ : BufTy).Contents (Elt Ideal)) (x5 : (⟨S7x50x50, .f32⟩ : BufTy).Contents (Elt Ideal)) (x6 : (⟨S7x50, .f32⟩ : BufTy).Contents (Elt Ideal)) (x7 : (⟨S50x3, .f32⟩ : BufTy).Contents (Elt Ideal)) (x8 : (⟨S3, .f32⟩ : BufTy).Contents (Elt Ideal)) (n : Fin 2000000) (k : Fin 3) :
    val_main_v72 (F := Ideal) x0 x1 x2 x3 x4 x5 x6 x7 x8 (ix2 n k)
      = net (fun k a => x3 (ix2 k a)) (fun a => x4 (ix1 a)) (fun l b a => x5 (ix3 l b a)) (fun l a => x6 (ix2 l a)) (fun a k => x7 (ix2 a k))
          (fun k => x8 (ix1 k)) (fun k' => sel3 k' x0 x1 x2 (ix2 n (0 : Fin 1))) k := by
  rw [ref_out]
  unfold net
  refine congrArg (fun h => affine (fun a k' => x7 (ix2 a k')) (fun k' => x8 (ix1 k')) h k) (funext fun a7 => ?_)
  refine (ref_mid6 x0 x1 x2 x3 x4 x5 x6 n a7).trans ?_
  refine congrArg (fun h => Cert.Mlp.hidden (fun k a' => x5 (ix3 (6 : Fin 7) k a')) (fun a' => x6 (ix2 (6 : Fin 7) a')) h a7) (funext fun a6 => ?_)
  refine (ref_mid5 x0 x1 x2 x3 x4 x5 x6 n a6).trans ?_
  refine congrArg (fun h => Cert.Mlp.hidden (fun k a' => x5 (ix3 (5 : Fin 7) k a')) (fun a' => x6 (ix2 (5 : Fin 7) a')) h a6) (funext fun a5 => ?_)
  refine (ref_mid4 x0 x1 x2 x3 x4 x5 x6 n a5).trans ?_
  refine congrArg (fun h => Cert.Mlp.hidden (fun k a' => x5 (ix3 (4 : Fin 7) k a')) (fun a' => x6 (ix2 (4 : Fin 7) a')) h a5) (funext fun a4 => ?_)
  refine (ref_mid3 x0 x1 x2 x3 x4 x5 x6 n a4).trans ?_
  refine congrArg (fun h => Cert.Mlp.hidden (fun k a' => x5 (ix3 (3 : Fin 7) k a')) (fun a' => x6 (ix2 (3 : Fin 7) a')) h a4) (funext fun a3 => ?_)
  refine (ref_mid2 x0 x1 x2 x3 x4 x5 x6 n a3).trans ?_
  refine congrArg (fun h => Cert.Mlp.hidden (fun k a' => x5 (ix3 (2 : Fin 7) k a')) (fun a' => x6 (ix2 (2 : Fin 7) a')) h a3) (funext fun a2 => ?_)
  refine (ref_mid1 x0 x1 x2 x3 x4 x5 x6 n a2).trans ?_
  refine congrArg (fun h => Cert.Mlp.hidden (fun k a' => x5 (ix3 (1 : Fin 7) k a')) (fun a' => x6 (ix2 (1 : Fin 7) a')) h a2) (funext fun a1 => ?_)
  refine (ref_mid0 x0 x1 x2 x3 x4 x5 x6 n a1).trans ?_
  refine congrArg (fun h => Cert.Mlp.hidden (fun k a' => x5 (ix3 (0 : Fin 7) k a')) (fun a' => x6 (ix2 (0 : Fin 7) a')) h a1) (funext fun a0 => ?_)
  exact ref_in x0 x1 x2 x3 x4 n a0

/-- Result 0 of the reference: output 0 of the network on every row. -/
theorem ref_res0 (x0 x1 x2 : (⟨S2000000x1, .f32⟩ : BufTy).Contents (Elt Ideal)) (x3 : (⟨S3x50, .f32⟩ : BufTy).Contents (Elt Ideal)) (x4 : (⟨S50, .f32⟩ : BufTy).Contents (Elt Ideal)) (x5 : (⟨S7x50x50, .f32⟩ : BufTy).Contents (Elt Ideal)) (x6 : (⟨S7x50, .f32⟩ : BufTy).Contents (Elt Ideal)) (x7 : (⟨S50x3, .f32⟩ : BufTy).Contents (Elt Ideal)) (x8 : (⟨S3, .f32⟩ : BufTy).Contents (Elt Ideal)) :
    val_main_v73 (F := Ideal) x0 x1 x2 x3 x4 x5 x6 x7 x8 = rowOut x0 x1 x2 x3 x4 x5 x6 x7 x8 (0 : Fin 3) := by
  funext i
  obtain ⟨n, u, rfl⟩ : ∃ (n : Fin 2000000) (u : Fin 1), i = ix2 n u := ⟨i 0, i 1, eq_ix2 i⟩
  rw [val_main_v73_apply]
  have hi : idx_main_v73 (ix2 n u) = ix2 n (0 : Fin 3) := by
    funext ax; apply Fin.ext
    have h1 : u.val < 1 := u.isLt
    match ax with
    | ⟨0, _⟩ => rfl
    | ⟨1, _⟩ => show u.val = 0; omega
  rw [hi, ref_net]
  rfl

/-- Result 1 of the reference: output 1 of the network on every row. -/
theorem ref_res1 (x0 x1 x2 : (⟨S2000000x1, .f32⟩ : BufTy).Contents (Elt Ideal)) (x3 : (⟨S3x50, .f32⟩ : BufTy).Contents (Elt Ideal)) (x4 : (⟨S50, .f32⟩ : BufTy).Contents (Elt Ideal)) (x5 : (⟨S7x50x50, .f32⟩ : BufTy).Contents (Elt Ideal)) (x6 : (⟨S7x50, .f32⟩ : BufTy).Contents (Elt Ideal)) (x7 : (⟨S50x3, .f32⟩ : BufTy).Contents (Elt Ideal)) (x8 : (⟨S3, .f32⟩ : BufTy).Contents (Elt Ideal)) :
    val_main_v74 (F := Ideal) x0 x1 x2 x3 x4 x5 x6 x7 x8 = rowOut x0 x1 x2 x3 x4 x5 x6 x7 x8 (1 : Fin 3) := by
  funext i
  obtain ⟨n, u, rfl⟩ : ∃ (n : Fin 2000000) (u : Fin 1), i = ix2 n u := ⟨i 0, i 1, eq_ix2 i⟩
  rw [val_main_v74_apply]
  have hi : idx_main_v74 (ix2 n u) = ix2 n (1 : Fin 3) := by
    funext ax; apply Fin.ext
    have h1 : u.val < 1 := u.isLt
    match ax with
    | ⟨0, _⟩ => rfl
    | ⟨1, _⟩ => show 1 + u.val = 1; omega
  rw [hi, ref_net]
  rfl

/-- Result 2 of the reference: output 2 of the network on every row. -/
theorem ref_res2 (x0 x1 x2 : (⟨S2000000x1, .f32⟩ : BufTy).Contents (Elt Ideal)) (x3 : (⟨S3x50, .f32⟩ : BufTy).Contents (Elt Ideal)) (x4 : (⟨S50, .f32⟩ : BufTy).Contents (Elt Ideal)) (x5 : (⟨S7x50x50, .f32⟩ : BufTy).Contents (Elt Ideal)) (x6 : (⟨S7x50, .f32⟩ : BufTy).Contents (Elt Ideal)) (x7 : (⟨S50x3, .f32⟩ : BufTy).Contents (Elt Ideal)) (x8 : (⟨S3, .f32⟩ : BufTy).Contents (Elt Ideal)) :
    val_main_v75 (F := Ideal) x0 x1 x2 x3 x4 x5 x6 x7 x8 = rowOut x0 x1 x2 x3 x4 x5 x6 x7 x8 (2 : Fin 3) := by
  funext i
  obtain ⟨n, u, rfl⟩ : ∃ (n : Fin 2000000) (u : Fin 1), i = ix2 n u := ⟨i 0, i 1, eq_ix2 i⟩
  rw [val_main_v75_apply]
  have hi : idx_main_v75 (ix2 n u) = ix2 n (2 : Fin 3) := by
    funext ax; apply Fin.ext
    have h1 : u.val < 1 := u.isLt
    match ax with
    | ⟨0, _⟩ => rfl
    | ⟨1, _⟩ => show 2 + u.val = 2; omega
  rw [hi, ref_net]
  rfl

end Cert.ReferenceIdeal.RefNet

end
-- ==== Proof.lean ====
/-
  A nine-layer network (an affine input layer into 50 features, seven hidden layers, an affine output layer, `tanh`
  after each but the last) applied to each of 2,000,000 rows (x, y, z).

  The reference computes it row by row: entry (n, a) of a layer is `tanh ((∑ k, h (n, k) * W (k, a)) + b a)`.
  The kernel processes 16,000 rows per grid point as five groups of 3,200 lanes, stacks the five groups' features along
  one axis of 250, and multiplies by `kron (eye 5) Wᵀ`: entry (a + 50 g, b + 50 g') of that matrix is
  `eye (g, g') * W (b, a)`.  In the sum over the stacked axis every term of another group is `0 * w * h = 0`, which holds
  for every extended real, so the sum is the group's own `∑ b, W (b, a) * h (b + 50 g)`; commuting each product gives the
  reference's term.  By induction over the layers the stacked activation at (a + 50 g, j) is the reference's
  activation (n, a) at row n = 16000 t + 3200 g + j, and row k + 3 g of the last layer, stored to lanes
  [3200 g, 3200 g + 3200) of output k, is output k of the network on those rows.  Both programs therefore return
  `Cert.Mlp.rowOut … k`: output k of the network on every row of the arguments.  Finiteness of the inputs is not used.
-/
import proofs.«147603_j74036646248987_2_alg».proof.Defs
import proofs.«147603_j74036646248987_2_alg».proof.Proof.Gen.Kernel
import proofs.«147603_j74036646248987_2_alg».proof.Proof.Gen.KernelIdeal
import proofs.«147603_j74036646248987_2_alg».proof.Proof.Gen.ReferenceIdeal
import proofs.«147603_j74036646248987_2_alg».proof.Proof.Gen.Pre_finite_inputs
import proofs.«147603_j74036646248987_2_alg».proof.Proof.Gen.ReferenceIdeal.Run
import proofs.«147603_j74036646248987_2_alg».proof.Proof.Gen.ReferenceIdeal.Read
import proofs.«147603_j74036646248987_2_alg».proof.Proof.RunKB
import proofs.«147603_j74036646248987_2_alg».proof.Proof.ValueKI
import proofs.«147603_j74036646248987_2_alg».proof.Proof.RefNet
import Idealize.ShloMosaic.Adequacy
import Idealize.ShloMosaic.Init

noncomputable section

namespace Cert.Proof

open Idealize.ShloMosaic Idealize.SL.Sem Cert.Mlp

/-- The kernel program terminates without a fault and leaves its arguments as launched. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- The reference is host operations only: its run, with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- Both idealized programs return, on memories agreeing on the arguments, the network's three outputs on every row. -/
theorem algebraic : Cert.algebraic_KernelIdeal_ReferenceIdeal := by
  intro m ρ m' ρ' _ hagree
  refine ⟨fun c => rowOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (0 : Fin 3),
    fun c => rowOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (1 : Fin 3),
    fun c => rowOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (2 : Fin 3),
    Cert.KernelIdeal.Hand.run m ρ, ?_⟩
  refine (θ_run Cert.ReferenceIdeal.defs _ _).mono (fun _ h c => ?_) (Cert.ReferenceIdeal.Value.run (F := Ideal) m' ρ')
  obtain ⟨h0, h1, h2, hargs⟩ := h c
  obtain ⟨e0, e1, e2, e3, e4, e5, e6, e7, e8⟩ := hagree c
  refine ⟨?_, ?_, ?_, hargs⟩
  · rw [h0, Cert.ReferenceIdeal.Read.val_main_v73_eq, Cert.ReferenceIdeal.RefNet.ref_res0, e0, e1, e2, e3, e4, e5, e6, e7, e8]
  · rw [h1, Cert.ReferenceIdeal.Read.val_main_v74_eq, Cert.ReferenceIdeal.RefNet.ref_res1, e0, e1, e2, e3, e4, e5, e6, e7, e8]
  · rw [h2, Cert.ReferenceIdeal.Read.val_main_v75_eq, Cert.ReferenceIdeal.RefNet.ref_res2, e0, e1, e2, e3, e4, e5, e6, e7, e8]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
